-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x64 .f32) (main_arg1 : FVec F S100000x64 .f32) (main_arg2 : IVec S3200000 32) (main_arg3 : IVec S3200000 32) (main_arg4 : FVec F S3200000 .f32) (main_arg5 : IVec S500000 32) (main_arg6 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S100000x64 : Shape := ⟨2, ![100000, 64]⟩
abbrev S3200000 : Shape := ⟨1, ![3200000]⟩
abbrev S500000 : Shape := ⟨1, ![500000]⟩
abbrev S200000x64 : Shape := ⟨2, ![200000, 64]⟩
abbrev S3200000x1 : Shape := ⟨2, ![3200000, 1]⟩
abbrev S_ : Shape := ⟨0, ![]⟩
abbrev S3200000x64 : Shape := ⟨2, ![3200000, 64]⟩
abbrev S8000x64 : Shape := ⟨2, ![8000, 64]⟩
abbrev S8000x1 : Shape := ⟨2, ![8000, 1]⟩
abbrev S4000x64 : Shape := ⟨2, ![4000, 64]⟩
abbrev S500000x1 : Shape := ⟨2, ![500000, 1]⟩
abbrev S500000x64 : Shape := ⟨2, ![500000, 64]⟩
abbrev S4000x1 : Shape := ⟨2, ![4000, 1]⟩
abbrev S4000 : Shape := ⟨1, ![4000]⟩

abbrev nBuf : Space → Nat
  | .hbm => 82
  | .vmem => 54
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S500000, .i32⟩
  | .hbm, ⟨6, _⟩ => ⟨S500000, .i32⟩
  | .hbm, ⟨7, _⟩ => ⟨S200000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S_, .f32⟩
  | .hbm, ⟨20, _⟩ => ⟨S200000x64, .f32⟩
  | .hbm, ⟨21, _⟩ => ⟨S3200000x1, .i32⟩
  | .hbm, ⟨22, _⟩ => ⟨S200000x64, .f32⟩
  | .hbm, ⟨23, _⟩ => ⟨S200000x64, .f32⟩
  | .hbm, ⟨24, _⟩ => ⟨S200000x64, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S200000x64, .f32⟩
  | .hbm, ⟨37, _⟩ => ⟨S3200000x1, .i32⟩
  | .hbm, ⟨38, _⟩ => ⟨S200000x64, .f32⟩
  | .hbm, ⟨39, _⟩ => ⟨S200000x64, .f32⟩
  | .hbm, ⟨40, _⟩ => ⟨S200000x64, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x64, .f32⟩
  | .hbm, ⟨50, _⟩ => ⟨S3200000x64, .f32⟩
  | .hbm, ⟨51, _⟩ => ⟨S_, .f32⟩
  | .hbm, ⟨52, _⟩ => ⟨S200000x64, .f32⟩
  | .hbm, ⟨53, _⟩ => ⟨S3200000x1, .i32⟩
  | .hbm, ⟨54, _⟩ => ⟨S200000x64, .f32⟩
  | .hbm, ⟨55, _⟩ => ⟨S200000x64, .f32⟩
  | .hbm, ⟨56, _⟩ => ⟨S200000x64, .f32⟩
  | .hbm, ⟨57, _⟩ => ⟨S_, .f32⟩
  | .hbm, ⟨58, _⟩ => ⟨S200000x64, .f32⟩
  | .hbm, ⟨59, _⟩ => ⟨S200000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000x64, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x64, .f32⟩
  | .hbm, ⟨80, _⟩ => ⟨S500000x1, .f32⟩
  | .hbm, ⟨81, _⟩ => ⟨S500000, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S8000x64, .f32⟩
  | .local _ .vmem, ⟨5, _⟩ => ⟨S8000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S8000x64, .f32⟩
  | .local _ .vmem, ⟨17, _⟩ => ⟨S8000x64, .f32⟩
  | .local _ .vmem, ⟨18, _⟩ => ⟨S8000x1, .f32⟩
  | .local _ .vmem, ⟨19, _⟩ => ⟨S8000x1, .f32⟩
  | .local _ .vmem, ⟨20, _⟩ => ⟨S8000x64, .f32⟩
  | .local _ .vmem, ⟨21, _⟩ => ⟨S8000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S8000x64, .f32⟩
  | .local _ .vmem, ⟨33, _⟩ => ⟨S8000x64, .f32⟩
  | .local _ .vmem, ⟨34, _⟩ => ⟨S8000x1, .f32⟩
  | .local _ .vmem, ⟨35, _⟩ => ⟨S8000x1, .f32⟩
  | .local _ .vmem, ⟨36, _⟩ => ⟨S8000x64, .f32⟩
  | .local _ .vmem, ⟨37, _⟩ => ⟨S8000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x1, .f32⟩
  | .local _ .vmem, ⟨53, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  concatenates_S100000x64_S100000x64_S200000x64_d0 : Shape.Concatenates [S100000x64, S100000x64] S200000x64 0
  shapeCasts_S3200000_S3200000x1 : S3200000.ShapeCasts S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S200000x64 : S_.BroadcastsInDim S200000x64 (![] : Fin 0 → Fin S200000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  slices_S200000x64_S100000x64_0_0 : S200000x64.Slices ![0, 0] S100000x64
  slices_S200000x64_S100000x64_100000_0 : S200000x64.Slices ![100000, 0] S100000x64
  bcast_S_S500000 : S_.BroadcastsInDim S500000 (![] : Fin 0 → Fin S500000.rank)
  bcast_S500000_S500000x1_0 : S500000.BroadcastsInDim S500000x1 (![0] : Fin 1 → Fin S500000x1.rank)
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S500000x1_S500000 : S500000x1.ShapeCasts S500000
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S3200000x64.size a
  hwx0_0 : ∀ i : grid0.Coords, EltTy.bits .f32 = 32 ∨ (Rect.block (s := S3200000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S3200000x1.size a
  hwx0_1 : ∀ i : grid0.Coords, EltTy.bits .f32 = 32 ∨ (Rect.block (s := S3200000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S3200000x64.size a
  hwx0_2 : ∀ i : grid0.Coords, EltTy.bits .f32 = 32 ∨ (Rect.block (s := S3200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S200000x64.size a
  hwx1_2 : ∀ i : grid1.Coords, EltTy.bits .f32 = 32 ∨ (Rect.block (s := S200000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S200000x64.size a
  hwx1_3 : ∀ i : grid1.Coords, EltTy.bits .f32 = 32 ∨ (Rect.block (s := S200000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S200000x64.size a
  hwx1_4 : ∀ i : grid1.Coords, EltTy.bits .f32 = 32 ∨ (Rect.block (s := S200000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S3200000x64.size a
  hwx2_0 : ∀ i : grid2.Coords, EltTy.bits .f32 = 32 ∨ (Rect.block (s := S3200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S3200000x1.size a
  hwx2_1 : ∀ i : grid2.Coords, EltTy.bits .f32 = 32 ∨ (Rect.block (s := S3200000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S3200000x64.size a
  hwx2_2 : ∀ i : grid2.Coords, EltTy.bits .f32 = 32 ∨ (Rect.block (s := S3200000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S200000x64.size a
  hwx3_1 : ∀ i : grid3.Coords, EltTy.bits .f32 = 32 ∨ (Rect.block (s := S200000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S200000x64.size a
  hwx3_2 : ∀ i : grid3.Coords, EltTy.bits .f32 = 32 ∨ (Rect.block (s := S200000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S200000x64.size a
  hwx3_3 : ∀ i : grid3.Coords, EltTy.bits .f32 = 32 ∨ (Rect.block (s := S200000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S200000x64.size a
  hwx3_4 : ∀ i : grid3.Coords, EltTy.bits .f32 = 32 ∨ (Rect.block (s := S200000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S3200000x64.size a
  hwx4_0 : ∀ i : grid4.Coords, EltTy.bits .f32 = 32 ∨ (Rect.block (s := S3200000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S3200000x1.size a
  hwx4_1 : ∀ i : grid4.Coords, EltTy.bits .f32 = 32 ∨ (Rect.block (s := S3200000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S3200000x64.size a
  hwx4_2 : ∀ i : grid4.Coords, EltTy.bits .f32 = 32 ∨ (Rect.block (s := S3200000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S200000x64.size a
  hwx5_0 : ∀ i : grid5.Coords, EltTy.bits .f32 = 32 ∨ (Rect.block (s := S200000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S200000x64.size a
  hwx5_1 : ∀ i : grid5.Coords, EltTy.bits .f32 = 32 ∨ (Rect.block (s := S200000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S200000x64.size a
  hwx5_2 : ∀ i : grid5.Coords, EltTy.bits .f32 = 32 ∨ (Rect.block (s := S200000x64) S4000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S200000x64.size a
  hwx5_3 : ∀ i : grid5.Coords, EltTy.bits .f32 = 32 ∨ (Rect.block (s := S200000x64) S4000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S200000x64.size a
  hwx5_4 : ∀ i : grid5.Coords, EltTy.bits .f32 = 32 ∨ (Rect.block (s := S200000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S500000x64.size a
  hwx6_0 : ∀ i : grid6.Coords, EltTy.bits .f32 = 32 ∨ (Rect.block (s := S500000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S500000x64.size a
  hwx6_1 : ∀ i : grid6.Coords, EltTy.bits .f32 = 32 ∨ (Rect.block (s := S500000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S500000x1.size a
  hwx6_2 : ∀ i : grid6.Coords, EltTy.bits .f32 = 32 ∨ (Rect.block (s := S500000x1) S4000x1.size (cc6_transform_2 i) (hinb6_2 i)).WholeWords (EltTy.packing .f32)

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S4000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13_1) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25_0) S4000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v25_1) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v32) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v25_1) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v37_0) S4000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v37_1) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v48) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v56) S4000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S3200000 : Shape := ⟨1, ![3200000]⟩
abbrev S500000 : Shape := ⟨1, ![500000]⟩
abbrev S200000x64 : Shape := ⟨2, ![200000, 64]⟩
abbrev S_ : Shape := ⟨0, ![]⟩
abbrev S3200000x1 : Shape := ⟨2, ![3200000, 1]⟩
abbrev S3200000x64 : Shape := ⟨2, ![3200000, 64]⟩
abbrev S500000x1 : Shape := ⟨2, ![500000, 1]⟩
abbrev S500000x64 : Shape := ⟨2, ![500000, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S500000, .i32⟩
  | .hbm, ⟨6, _⟩ => ⟨S500000, .i32⟩
  | .hbm, ⟨7, _⟩ => ⟨S200000x64, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .f32⟩
  | .hbm, ⟨17, _⟩ => ⟨S3200000x1, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S200000x64, .f32⟩
  | .hbm, ⟨22, _⟩ => ⟨S3200000x1, .i32⟩
  | .hbm, ⟨23, _⟩ => ⟨S200000x64, .f32⟩
  | .hbm, ⟨24, _⟩ => ⟨S_, .f32⟩
  | .hbm, ⟨25, _⟩ => ⟨S200000x64, .f32⟩
  | .hbm, ⟨26, _⟩ => ⟨S200000x64, .f32⟩
  | .hbm, ⟨27, _⟩ => ⟨S_, .f32⟩
  | .hbm, ⟨28, _⟩ => ⟨S200000x64, .f32⟩
  | .hbm, ⟨29, _⟩ => ⟨S200000x64, .f32⟩
  | .hbm, ⟨30, _⟩ => ⟨S200000x64, .f32⟩
  | .hbm, ⟨31, _⟩ => ⟨S200000x64, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .f32⟩
  | .hbm, ⟨41, _⟩ => ⟨S3200000x1, .f32⟩
  | .hbm, ⟨42, _⟩ => ⟨S3200000x64, .f32⟩
  | .hbm, ⟨43, _⟩ => ⟨S3200000x64, .f32⟩
  | .hbm, ⟨44, _⟩ => ⟨S_, .f32⟩
  | .hbm, ⟨45, _⟩ => ⟨S200000x64, .f32⟩
  | .hbm, ⟨46, _⟩ => ⟨S3200000x1, .i32⟩
  | .hbm, ⟨47, _⟩ => ⟨S200000x64, .f32⟩
  | .hbm, ⟨48, _⟩ => ⟨S_, .f32⟩
  | .hbm, ⟨49, _⟩ => ⟨S200000x64, .f32⟩
  | .hbm, ⟨50, _⟩ => ⟨S200000x64, .f32⟩
  | .hbm, ⟨51, _⟩ => ⟨S_, .f32⟩
  | .hbm, ⟨52, _⟩ => ⟨S200000x64, .f32⟩
  | .hbm, ⟨53, _⟩ => ⟨S200000x64, .f32⟩
  | .hbm, ⟨54, _⟩ => ⟨S200000x64, .f32⟩
  | .hbm, ⟨55, _⟩ => ⟨S200000x64, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x64, .f32⟩
  | .hbm, ⟨65, _⟩ => ⟨S3200000x1, .f32⟩
  | .hbm, ⟨66, _⟩ => ⟨S3200000x64, .f32⟩
  | .hbm, ⟨67, _⟩ => ⟨S3200000x64, .f32⟩
  | .hbm, ⟨68, _⟩ => ⟨S_, .f32⟩
  | .hbm, ⟨69, _⟩ => ⟨S200000x64, .f32⟩
  | .hbm, ⟨70, _⟩ => ⟨S3200000x1, .i32⟩
  | .hbm, ⟨71, _⟩ => ⟨S200000x64, .f32⟩
  | .hbm, ⟨72, _⟩ => ⟨S_, .f32⟩
  | .hbm, ⟨73, _⟩ => ⟨S200000x64, .f32⟩
  | .hbm, ⟨74, _⟩ => ⟨S200000x64, .f32⟩
  | .hbm, ⟨75, _⟩ => ⟨S_, .f32⟩
  | .hbm, ⟨76, _⟩ => ⟨S200000x64, .f32⟩
  | .hbm, ⟨77, _⟩ => ⟨S200000x64, .f32⟩
  | .hbm, ⟨78, _⟩ => ⟨S200000x64, .f32⟩
  | .hbm, ⟨79, _⟩ => ⟨S200000x64, .f32⟩
  | .hbm, ⟨80, _⟩ => ⟨S_, .f32⟩
  | .hbm, ⟨81, _⟩ => ⟨S200000x64, .f32⟩
  | .hbm, ⟨82, _⟩ => ⟨S200000x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x64, .f32⟩
  | .hbm, ⟨94, _⟩ => ⟨S_, .i32⟩
  | .hbm, ⟨95, _⟩ => ⟨S500000, .i32⟩
  | .hbm, ⟨96, _⟩ => ⟨S500000, .i1⟩
  | .hbm, ⟨97, _⟩ => ⟨S_, .i32⟩
  | .hbm, ⟨98, _⟩ => ⟨S500000, .i32⟩
  | .hbm, ⟨99, _⟩ => ⟨S500000, .i32⟩
  | .hbm, ⟨100, _⟩ => ⟨S500000, .i32⟩
  | .hbm, ⟨101, _⟩ => ⟨S500000x1, .i32⟩
  | .hbm, ⟨102, _⟩ => ⟨S500000x64, .f32⟩
  | .hbm, ⟨103, _⟩ => ⟨S500000x64, .f32⟩
  | .hbm, ⟨104, _⟩ => ⟨S_, .f32⟩
  | .hbm, ⟨105, _⟩ => ⟨S500000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_16 : Ref sig .tc := ⟨.hbm, 94, rfl⟩
abbrev main_v69 : Ref sig .tc := ⟨.hbm, 95, rfl⟩
abbrev main_v70 : Ref sig .tc := ⟨.hbm, 96, rfl⟩
abbrev main_c_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  concatenates_S100000x64_S100000x64_S200000x64_d0 : Shape.Concatenates [S100000x64, S100000x64] S200000x64 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  slices_S200000x64_S100000x64_0_0 : S200000x64.Slices ![0, 0] S100000x64
  slices_S200000x64_S100000x64_100000_0 : S200000x64.Slices ![100000, 0] S100000x64
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  gather_S100000x64_S500000x1_S500000x64_1_0_n_n_0_1_164_wf : GatherDims.WF S100000x64 S500000x1 S500000x64 [1] [0] [] [0] [] 1 ![1, 64]

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.BitsScale0.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 0: out[8000,64] = x[8000,64] * broadcast(v[8000,1]), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is one whole block -/

abbrev r0_0 : Rect S8000x64 := Rect.unit (s := S8000x64) ![0, 0] S8000x64.size inb_S8000x64_S8000x64_0_0
abbrev r0_1 : Rect S8000x1 := Rect.unit (s := S8000x1) ![0, 0] S8000x1.size inb_S8000x1_S8000x1_0_0

/-! ## What the body leaves in the output window's buffer -/

/-- Window 2's staging buffer after the body, from the input windows' blocks: its one store as a piece. -/
def out0_2 (x0 : Vec F S8000x64 .f32) (x1 : Vec F S8000x1 .f32) : Vec F S8000x64 .f32 :=
  View.canon [⟨r0_0, k0_pay1 (View.ld x0 r0_0) (View.ld x1 r0_1)⟩]

/-- The store is the whole buffer (checked by evaluation), so it covers it. -/
theorem cover0_2 (p0 : Vec F S8000x64 .f32) (y : S8000x64.Idx) :
    ∃ pc ∈ ([⟨r0_0, p0⟩] : List (View.Piece (Elt F) S8000x64 .f32)), y ∈ pc.1.set :=
  View.cover_of_tiled [⟨r0_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The
    output buffer is read once before it is written; the value read is not used. -/
theorem sound_kernel0 (c : Dev nD) (E : Set ℕ) (i : grid0.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    that leaves the scoped rest and the random-number register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BitsBlend1.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of the program: the blend kernel `out₃ = 0.2·x₀ + 0.8·x₁`, `out₄ = x₂ + out₃` on blocks of
    4000×64 (here windows 0 and 2 read one and the same array), at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x64 := Rect.unit (s := S4000x64) ![0, 0] S4000x64.size inb_S4000x64_S4000x64_0_0

/-! ## What the body leaves in each output window's buffer -/

/-- Window 3's staging buffer after the body, from the input windows' blocks: its one store. -/
def out1_3 (x0 x1 : Vec F S4000x64 .f32) : Vec F S4000x64 .f32 :=
  View.canon [⟨r1_0, k1_pay1 (View.ld x0 r1_0) (View.ld x1 r1_0)⟩]

/-- Window 4's staging buffer after the body, from the input windows' blocks: its one store. -/
def out1_4 (x0 x1 x2 : Vec F S4000x64 .f32) : Vec F S4000x64 .f32 :=
  View.canon [⟨r1_0, k1_pay2 (View.ld x0 r1_0) (View.ld x1 r1_0) (View.ld x2 r1_0)⟩]

/-- The one store is of the whole block, so it covers the buffer. -/
theorem cover1_3 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

theorem cover1_4 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__blend_kernel i arg1 harg1 arg2 harg2 arg3 harg3 arg4 harg4 arg5 harg5) K := by
  simp only [cc1__blend_kernel_eq_skeleton]; unfold cc1__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the random-number register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the arrays: windows 0 and 2 read one array, each through a half of the full share; window 1's
    and the outputs' arrays are whole. -/
theorem q1_0 (c : Dev nD) : (dat1 V c).q 0 = fullShare.left := by dsimp only [dat1]
theorem q1_2 (c : Dev nD) : (dat1 V c).q 2 = fullShare.right := by dsimp only [dat1]
theorem q1_1 (c : Dev nD) : (dat1 V c).q 1 = fullShare := by dsimp only [dat1]
theorem q1_3 (c : Dev nD) : (dat1 V c).q 3 = fullShare := by dsimp only [dat1]
theorem q1_4 (c : Dev nD) : (dat1 V c).q 4 = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.BitsScale2.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 2: out[8000,64] = x[8000,64] * broadcast(v[8000,1]), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is one whole block -/

abbrev r2_0 : Rect S8000x64 := Rect.unit (s := S8000x64) ![0, 0] S8000x64.size inb_S8000x64_S8000x64_0_0
abbrev r2_1 : Rect S8000x1 := Rect.unit (s := S8000x1) ![0, 0] S8000x1.size inb_S8000x1_S8000x1_0_0

/-! ## What the body leaves in the output window's buffer -/

/-- Window 2's staging buffer after the body, from the input windows' blocks: its one store as a piece. -/
def out2_2 (x0 : Vec F S8000x64 .f32) (x1 : Vec F S8000x1 .f32) : Vec F S8000x64 .f32 :=
  View.canon [⟨r2_0, k2_pay1 (View.ld x0 r2_0) (View.ld x1 r2_1)⟩]

/-- The store is the whole buffer (checked by evaluation), so it covers it. -/
theorem cover2_2 (p0 : Vec F S8000x64 .f32) (y : S8000x64.Idx) :
    ∃ pc ∈ ([⟨r2_0, p0⟩] : List (View.Piece (Elt F) S8000x64 .f32)), y ∈ pc.1.set :=
  View.cover_of_tiled [⟨r2_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out2_2` of the inputs'. The
    output buffer is read once before it is written; the value read is not used. -/
theorem sound_kernel2 (c : Dev nD) (E : Set ℕ) (i : grid2.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    that leaves the scoped rest and the random-number register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.BitsBlend3.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program: the blend kernel `out₃ = 0.2·x₀ + 0.8·x₁`, `out₄ = x₂ + out₃` on blocks of
    4000×64, at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x64 := Rect.unit (s := S4000x64) ![0, 0] S4000x64.size inb_S4000x64_S4000x64_0_0

/-! ## What the body leaves in each output window's buffer -/

/-- Window 3's staging buffer after the body, from the input windows' blocks: its one store. -/
def out3_3 (x0 x1 : Vec F S4000x64 .f32) : Vec F S4000x64 .f32 :=
  View.canon [⟨r3_0, k3_pay1 (View.ld x0 r3_0) (View.ld x1 r3_0)⟩]

/-- Window 4's staging buffer after the body, from the input windows' blocks: its one store. -/
def out3_4 (x0 x1 x2 : Vec F S4000x64 .f32) : Vec F S4000x64 .f32 :=
  View.canon [⟨r3_0, k3_pay2 (View.ld x0 r3_0) (View.ld x1 r3_0) (View.ld x2 r3_0)⟩]

/-- The one store is of the whole block, so it covers the buffer. -/
theorem cover3_3 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

theorem cover3_4 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The body's triple -/

set_option maxHeartbeats 1000000 in
/-- The kernel body on whole staging memrefs, the inputs' at read contents `xW` and the outputs' at anything, runs to
    the continuation holding the inputs' as they were and each output's at `out3_W` of the inputs'. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__blend_kernel i arg1 harg1 arg2 harg2 arg3 harg3 arg4 harg4 arg5 harg5) K := by
  simp only [cc3__blend_kernel_eq_skeleton]; unfold cc3__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    the scoped rest and the random-number register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.BitsScale4.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 4: out[8000,64] = x[8000,64] * broadcast(v[8000,1]), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is one whole block -/

abbrev r4_0 : Rect S8000x64 := Rect.unit (s := S8000x64) ![0, 0] S8000x64.size inb_S8000x64_S8000x64_0_0
abbrev r4_1 : Rect S8000x1 := Rect.unit (s := S8000x1) ![0, 0] S8000x1.size inb_S8000x1_S8000x1_0_0

/-! ## What the body leaves in the output window's buffer -/

/-- Window 2's staging buffer after the body, from the input windows' blocks: its one store as a piece. -/
def out4_2 (x0 : Vec F S8000x64 .f32) (x1 : Vec F S8000x1 .f32) : Vec F S8000x64 .f32 :=
  View.canon [⟨r4_0, k4_pay1 (View.ld x0 r4_0) (View.ld x1 r4_1)⟩]

/-- The store is the whole buffer (checked by evaluation), so it covers it. -/
theorem cover4_2 (p0 : Vec F S8000x64 .f32) (y : S8000x64.Idx) :
    ∃ pc ∈ ([⟨r4_0, p0⟩] : List (View.Piece (Elt F) S8000x64 .f32)), y ∈ pc.1.set :=
  View.cover_of_tiled [⟨r4_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out4_2` of the inputs'. The
    output buffer is read once before it is written; the value read is not used. -/
theorem sound_kernel4 (c : Dev nD) (E : Set ℕ) (i : grid4.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    that leaves the scoped rest and the random-number register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.BitsBlend5.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program: the blend kernel `out₃ = 0.2·x₀ + 0.8·x₁`, `out₄ = x₂ + out₃` on blocks of
    4000×64, at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S4000x64 := Rect.unit (s := S4000x64) ![0, 0] S4000x64.size inb_S4000x64_S4000x64_0_0

/-! ## What the body leaves in each output window's buffer -/

/-- Window 3's staging buffer after the body, from the input windows' blocks: its one store. -/
def out5_3 (x0 x1 : Vec F S4000x64 .f32) : Vec F S4000x64 .f32 :=
  View.canon [⟨r5_0, k5_pay1 (View.ld x0 r5_0) (View.ld x1 r5_0)⟩]

/-- Window 4's staging buffer after the body, from the input windows' blocks: its one store. -/
def out5_4 (x0 x1 x2 : Vec F S4000x64 .f32) : Vec F S4000x64 .f32 :=
  View.canon [⟨r5_0, k5_pay2 (View.ld x0 r5_0) (View.ld x1 r5_0) (View.ld x2 r5_0)⟩]

/-- The one store is of the whole block, so it covers the buffer. -/
theorem cover5_3 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

theorem cover5_4 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

/-! ## The body's triple -/

set_option maxHeartbeats 1000000 in
/-- The kernel body on whole staging memrefs, the inputs' at read contents `xW` and the outputs' at anything, runs to
    the continuation holding the inputs' as they were and each output's at `out5_W` of the inputs'. -/
theorem sound_kernel5 (c : Dev nD) (E : Set ℕ) (i : grid5.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1) ∗ owns (c : Thread nD τ) arg5 fullShare (out5_4 x0 x1 x2)) -∗ K ⟨⟩))
      ⊢ wp frame (wpE (defs₀ (F := F)) Variants.none c none) E (cc5__blend_kernel i arg1 harg1 arg2 harg2 arg3 harg3 arg4 harg4 arg5 harg5) K := by
  simp only [cc5__blend_kernel_eq_skeleton]; unfold cc5__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant
    the scoped rest and the random-number register, untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.BitsDot6.lean ====
import proofs.«166718_j26491358281938_2_alg».proof.Proof.Gen.Kernel.Launch
import proofs.«166718_j26491358281938_2_alg».proof.Proof.Gen.Kernel.Skeleton
import proofs.«166718_j26491358281938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The dot region 6: out[4000,1] = the sum along the second axis of x[4000,64] * y[4000,64], at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is one whole block -/

abbrev r6_0 : Rect S4000x64 := Rect.unit (s := S4000x64) ![0, 0] S4000x64.size inb_S4000x64_S4000x64_0_0
abbrev r6_1 : Rect S4000x1 := Rect.unit (s := S4000x1) ![0, 0] S4000x1.size inb_S4000x1_S4000x1_0_0

/-! ## What the body leaves in the output window's buffer -/

/-- Window 2's staging buffer after the body, from the input windows' blocks: its one store as a piece. -/
def out6_2 (x0 : Vec F S4000x64 .f32) (x1 : Vec F S4000x64 .f32) : Vec F S4000x1 .f32 :=
  View.canon [⟨r6_1, k6_pay1 (View.ld x0 r6_0) (View.ld x1 r6_0)⟩]

/-- The store is the whole buffer (checked by evaluation), so it covers it. -/
theorem cover6_2 (p0 : Vec F S4000x1 .f32) (y : S4000x1.Idx) :
    ∃ pc ∈ ([⟨r6_1, p0⟩] : List (View.Piece (Elt F) S4000x1 .f32)), y ∈ pc.1.set :=
  View.cover_of_tiled [⟨r6_1, p0⟩] S4000x1.size (by rfl) y

/-! ## The body's triple -/

set_option maxHeartbeats 1000000 in
/-- The kernel body on whole staging memrefs, the inputs' at read contents `x0`, `x1` and the output's at anything,
    runs to the continuation holding the inputs' as they were and the output's at `out6_2` of the inputs'. The
    output buffer is read once before it is written; the value read is not used. -/
theorem sound_kernel6 (c : Dev nD) (E : Set ℕ) (i : grid6.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dotred_kernel i arg1 harg1 arg2 harg2 arg3 harg3) K := by
  simp only [cc6__dotred_kernel_eq_skeleton]; unfold cc6__dotred_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant
    that leaves the scoped rest and the random-number register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.BitsSharedArrays.lean ====
/-
  One array read through two input windows. The blend of the first layer takes the concatenated
  embedding table twice: as the residual's base (window 0) and as the running sum it adds to
  (window 2). The buffer behind both windows is one, so the pipeline holds it as two halves of the
  full share, one per window; the other three windows (the propagated table and the two results) have
  buffers of their own at the full share. This module says that the four distinct buffers, each whole
  at the full share, are exactly the five windows' arrays at those shares, in both directions.
-/
import proofs.«166718_j26491358281938_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind the five windows of the first blend. -/
theorem arrRefs1 : Finset.univ.image (Pipeline.arrRef spec1) = {main_v0, main_v12, main_v13_0, main_v13_1} := by decide

/-- A conjunction over those four buffers, one by one. -/
theorem bigSep_refs1 {M : Type} [URA M] (Φ : Ref sig .tc → sProp M) :
    bigSep ({main_v0, main_v12, main_v13_0, main_v13_1} : Finset (Ref sig .tc)) Φ
      = iprop(Φ main_v0 ∗ Φ main_v12 ∗ Φ main_v13_0 ∗ Φ main_v13_1) := by
  have h1 : main_v0 ∉ ({main_v12, main_v13_0, main_v13_1} : Finset (Ref sig .tc)) := by decide
  have h2 : main_v12 ∉ ({main_v13_0, main_v13_1} : Finset (Ref sig .tc)) := by decide
  have h3 : main_v13_0 ∉ ({main_v13_1} : Finset (Ref sig .tc)) := by decide
  rw [bigSep_insert h1, bigSep_insert h2, bigSep_insert h3, bigSep_singleton]
  rfl

/-- The four buffers whole at the full share at contents `V` are the five windows' arrays at contents `A`
    (which are `V`'s, window by window), the shared buffer split into its two halves: a full share is its left
    half beside its right half. -/
theorem arrays1_iff {c : Dev nD} (dat : Dat τ (Elt F) Unit ℕ (UR sig nD τ) ℕ cfg1 c)
    (hq0 : dat.q 0 = fullShare.left) (hq1 : dat.q 1 = fullShare) (hq2 : dat.q 2 = fullShare.right)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs spec1 c V : sProp 𝕄) ⊣⊢ dat.arrays A := by
  unfold Pipeline.arrBufs Pipeline.Dat.arrays
  rw [arrRefs1, bigSep_W1]
  have hs0 : dat.share 0 = fullShare.left := by unfold Pipeline.Dat.share; rw [if_neg (by decide)]; exact hq0
  have hs1 : dat.share 1 = fullShare := by unfold Pipeline.Dat.share; rw [if_neg (by decide)]; exact hq1
  have hs2 : dat.share 2 = fullShare.right := by unfold Pipeline.Dat.share; rw [if_neg (by decide)]; exact hq2
  have hs3 : dat.share 3 = fullShare := by unfold Pipeline.Dat.share; rw [if_pos (by decide)]
  have hs4 : dat.share 4 = fullShare := by unfold Pipeline.Dat.share; rw [if_pos (by decide)]
  rw [hs0, hs1, hs2, hs3, hs4, (arr_whole1 0).set_eq_univ, (arr_whole1 1).set_eq_univ, (arr_whole1 3).set_eq_univ, (arr_whole1 4).set_eq_univ,
    hA 0, hA 1, hA 2, hA 3, hA 4]
  rw [bigSep_refs1]
  have hsh : ((c : Thread nD τ).loc main_v0 ↦{fullShare} V main_v0 : sProp 𝕄)
      ⊣⊢ iprop(((c : Thread nD τ).loc main_v0 ↦{fullShare.left} V main_v0) ∗ (c : Thread nD τ).loc main_v0 ↦{fullShare.right} V main_v0) :=
    pointsTo_share (PosShare.mem_left_op_right fullShare)
  show iprop(((c : Thread nD τ).loc main_v0 ↦{fullShare} V main_v0) ∗ ((c : Thread nD τ).loc main_v12 ↦{fullShare} V main_v12)
        ∗ ((c : Thread nD τ).loc main_v13_0 ↦{fullShare} V main_v13_0) ∗ (c : Thread nD τ).loc main_v13_1 ↦{fullShare} V main_v13_1)
      ⊣⊢ (iprop(((c : Thread nD τ).loc main_v0 ↦{fullShare.left} V main_v0) ∗ ((c : Thread nD τ).loc main_v12 ↦{fullShare} V main_v12)
        ∗ ((c : Thread nD τ).loc main_v0 ↦{fullShare.right} V main_v0)
        ∗ ((c : Thread nD τ).loc main_v13_0 ↦{fullShare} V main_v13_0) ∗ (c : Thread nD τ).loc main_v13_1 ↦{fullShare} V main_v13_1) : sProp 𝕄)
  constructor
  · refine (sep_mono hsh.1 .rfl).trans ?_
    iintro ⟨⟨Hl, Hr⟩, H1, H3, H4⟩
    isplitl [Hl]; · iexact Hl
    isplitl [H1]; · iexact H1
    isplitl [Hr]; · iexact Hr
    isplitl [H3]; · iexact H3
    iexact H4
  · refine (show iprop(((c : Thread nD τ).loc main_v0 ↦{fullShare.left} V main_v0) ∗ ((c : Thread nD τ).loc main_v12 ↦{fullShare} V main_v12)
        ∗ ((c : Thread nD τ).loc main_v0 ↦{fullShare.right} V main_v0)
        ∗ ((c : Thread nD τ).loc main_v13_0 ↦{fullShare} V main_v13_0) ∗ (c : Thread nD τ).loc main_v13_1 ↦{fullShare} V main_v13_1)
      ⊢ (iprop((((c : Thread nD τ).loc main_v0 ↦{fullShare.left} V main_v0) ∗ (c : Thread nD τ).loc main_v0 ↦{fullShare.right} V main_v0)
        ∗ ((c : Thread nD τ).loc main_v12 ↦{fullShare} V main_v12)
        ∗ ((c : Thread nD τ).loc main_v13_0 ↦{fullShare} V main_v13_0) ∗ (c : Thread nD τ).loc main_v13_1 ↦{fullShare} V main_v13_1) : sProp 𝕄) from ?_).trans
      (sep_mono hsh.2 .rfl)
    iintro ⟨Hl, H1, Hr, H3, H4⟩
    isplitl [Hl Hr]
    · isplitl [Hl] <;> iassumption
    isplitl [H1]; · iexact H1
    isplitl [H3]; · iexact H3
    iexact H4

end Cert.Kernel.Frame

end
-- ==== Proof.BitsRun.lean ====
/-
  The whole program as a run. The host lines between the seven kernel calls are pure array
  operations; each kernel call rewrites only its result arrays. So the contents of every array at
  every boundary between a host stretch and a call are a fold from the launch memory: a host stretch
  applies its operations, a call leaves its result arrays at what its grid's write-backs sum up to
  and everything else as entered. This module names those contents boundary by boundary, gives every
  call its proof data at its entry contents, and launches the program over them: every execution
  ends, nothing faults, and at the end every array holds the last boundary's contents. The first
  blend reads one array through two windows, and so holds it as two half shares (the split is the
  module before this one); every other call holds each of its arrays whole.
-/
import proofs.«166718_j26491358281938_2_alg».proof.Proof.BitsScale0
import proofs.«166718_j26491358281938_2_alg».proof.Proof.BitsBlend1
import proofs.«166718_j26491358281938_2_alg».proof.Proof.BitsScale2
import proofs.«166718_j26491358281938_2_alg».proof.Proof.BitsBlend3
import proofs.«166718_j26491358281938_2_alg».proof.Proof.BitsScale4
import proofs.«166718_j26491358281938_2_alg».proof.Proof.BitsBlend5
import proofs.«166718_j26491358281938_2_alg».proof.Proof.BitsDot6
import proofs.«166718_j26491358281938_2_alg».proof.Proof.BitsSharedArrays
import proofs.«166718_j26491358281938_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => m (c, b)
/-- After host stretch 0: what call 0 is entered from. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- After call 0: its arrays at what its write-backs leave, every other array as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After host stretch 1: what call 1 is entered from. -/
abbrev W3 : Dev nD → Valuation τ sig (Elt F) := fun c => StableHlo.after hostOps1 (W2 m c)
/-- The same, read at the TensorCore's references. -/
abbrev U3 : (c : Dev nD) → (b : Ref sig .tc) → Buf (Elt F) ((c : Thread nD τ).loc b) := fun c b => W3 m c b
/-- After call 1: its two result arrays at what its write-backs leave, every other array as entered (the
    array its windows 0 and 2 share is an input of both and stays). -/
def W4 (c : Dev nD) : Valuation τ sig (Elt F) :=
  Function.update (Function.update (W3 m c) (Proc.devRef .tc (Pipeline.arrRef spec1 3)) ((dat1 (U3 m) c).arrAt 3 cfg1.N))
    (Proc.devRef .tc (Pipeline.arrRef spec1 4)) ((dat1 (U3 m) c).arrAt 4 cfg1.N)
abbrev U4 : (c : Dev nD) → (b : Ref sig .tc) → Buf (Elt F) ((c : Thread nD τ).loc b) := fun c b => W4 m c b
theorem W4_of_ne (c : Dev nD) (b : Ref sig .tc) (h3 : b ≠ Pipeline.arrRef spec1 3) (h4 : b ≠ Pipeline.arrRef spec1 4) :
    W4 m c (Proc.devRef .tc b) = W3 m c (Proc.devRef .tc b) := by
  unfold W4
  rw [Function.update_of_ne (StableHlo.devRef_ne_of_ne h4), Function.update_of_ne (StableHlo.devRef_ne_of_ne h3)]
theorem hF1 (c : Dev nD) : ∀ w : Fin cfg1.W, (dat1 (U3 m) c).arrAt w cfg1.N = U4 m c (Pipeline.arrRef spec1 w)
  | ⟨0, _⟩ => (((dat1 (U3 m) c).arrAt_in 0 rfl _).trans (A_eq1 (U3 m) c 0)).trans (W4_of_ne m c _ (by decide) (by decide)).symm
  | ⟨1, _⟩ => (((dat1 (U3 m) c).arrAt_in 1 rfl _).trans (A_eq1 (U3 m) c 1)).trans (W4_of_ne m c _ (by decide) (by decide)).symm
  | ⟨2, _⟩ => (((dat1 (U3 m) c).arrAt_in 2 rfl _).trans (A_eq1 (U3 m) c 2)).trans (W4_of_ne m c _ (by decide) (by decide)).symm
  | ⟨3, _⟩ => by
      show _ = W4 m c (Proc.devRef .tc (Pipeline.arrRef spec1 3))
      unfold W4
      rw [Function.update_of_ne (StableHlo.devRef_ne_of_ne (by decide)), Function.update_self]
      rfl
  | ⟨4, _⟩ => by
      show _ = W4 m c (Proc.devRef .tc (Pipeline.arrRef spec1 4))
      unfold W4
      rw [Function.update_self]
      rfl
theorem hrest1 (c : Dev nD) : ∀ b, b ∉ Finset.univ.image (Pipeline.arrRef spec1) → U4 m c b = U3 m c b :=
  fun b hb => W4_of_ne m c b (fun e => hb (Finset.mem_image.mpr ⟨3, Finset.mem_univ _, e.symm⟩))
    (fun e => hb (Finset.mem_image.mpr ⟨4, Finset.mem_univ _, e.symm⟩))
/-- After host stretch 2: what call 2 is entered from. -/
abbrev W5 : Dev nD → Valuation τ sig (Elt F) := fun c => StableHlo.after hostOps2 (W4 m c)
/-- The same, read at the TensorCore's references. -/
abbrev U5 : (c : Dev nD) → (b : Ref sig .tc) → Buf (Elt F) ((c : Thread nD τ).loc b) := fun c b => W5 m c b
/-- After call 2: its arrays at what its write-backs leave, every other array as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After host stretch 3: what call 3 is entered from. -/
abbrev W7 : Dev nD → Valuation τ sig (Elt F) := fun c => StableHlo.after hostOps3 (W6 m c)
/-- The same, read at the TensorCore's references. -/
abbrev U7 : (c : Dev nD) → (b : Ref sig .tc) → Buf (Elt F) ((c : Thread nD τ).loc b) := fun c b => W7 m c b
/-- After call 3: its arrays at what its write-backs leave, every other array as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- After host stretch 4: what call 4 is entered from. -/
abbrev W9 : Dev nD → Valuation τ sig (Elt F) := fun c => StableHlo.after hostOps4 (W8 m c)
/-- The same, read at the TensorCore's references. -/
abbrev U9 : (c : Dev nD) → (b : Ref sig .tc) → Buf (Elt F) ((c : Thread nD τ).loc b) := fun c b => W9 m c b
/-- After call 4: its arrays at what its write-backs leave, every other array as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- After host stretch 5: what call 5 is entered from. -/
abbrev W11 : Dev nD → Valuation τ sig (Elt F) := fun c => StableHlo.after hostOps5 (W10 m c)
/-- The same, read at the TensorCore's references. -/
abbrev U11 : (c : Dev nD) → (b : Ref sig .tc) → Buf (Elt F) ((c : Thread nD τ).loc b) := fun c b => W11 m c b
/-- After call 5: its arrays at what its write-backs leave, every other array as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
/-- After host stretch 6: what call 6 is entered from. -/
abbrev W13 : Dev nD → Valuation τ sig (Elt F) := fun c => StableHlo.after hostOps6 (W12 m c)
/-- The same, read at the TensorCore's references. -/
abbrev U13 : (c : Dev nD) → (b : Ref sig .tc) → Buf (Elt F) ((c : Thread nD τ).loc b) := fun c b => W13 m c b
/-- After call 6: its arrays at what its write-backs leave, every other array as entered. -/
def W14 (c : Dev nD) : Valuation τ sig (Elt F) :=
  Pipeline.withArrays spec6 c (W13 m c) fun w => (dat6 (U13 m) c).arrAt w cfg6.N
theorem W14_arr (c : Dev nD) (w : Fin cfg6.W) :
    W14 m c (Proc.devRef .tc (Pipeline.arrRef spec6 w)) = (dat6 (U13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev U14 : (c : Dev nD) → (b : Ref sig .tc) → Buf (Elt F) ((c : Thread nD τ).loc b) := fun c b => W14 m c b
theorem hF6 (c : Dev nD) (w : Fin cfg6.W) : (dat6 (U13 m) c).arrAt w cfg6.N = U14 m c (Pipeline.arrRef spec6 w) :=
  (W14_arr m c w).symm
theorem hrest6 (c : Dev nD) : ∀ b, b ∉ Finset.univ.image (Pipeline.arrRef spec6) → U14 m c b = U13 m c b :=
  fun b hb => W14_of_ne m c b fun w e => hb (Finset.mem_image.mpr ⟨w, Finset.mem_univ _, e⟩)
/-- After the last host line: the end. -/
abbrev W15 : Dev nD → Valuation τ sig (Elt F) := fun c => StableHlo.after hostOps7 (W14 m c)

/-! ## The proof data family and the thread state -/

/-- No call has a prefetched table. -/
abbrev admK : (p : Fin 7) → (pcfgs (F := F) p).Adm := fun p => (cfgs p).toPCfg_adm
/-- Every call's proof data, each at its own entry contents. -/
def pdats : (p : Fin 7) → (c : Dev nD) → Dat τ (Elt F) Unit ℕ (UR sig nD τ) ℕ (Pipeline.pin (pcfgs (F := F)) admK p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
abbrev 𝒱₀ : Variants := Variants.none
/-- No core owes another anything. -/
abbrev L : GSem nD τ sig → Finset Unit := fun _ => ∅
abbrev lv : GSem nD τ sig → Unit → ℕ := fun _ _ => 0
/-- What rides beside the arrays through every segment: the random-number register at some state, and nothing owed. -/
abbrev Rest (c : Dev nD) : sProp 𝕄 := iprop((∃ r, prngReg c r) ∗ ∃ W, owes (c : Thread nD τ) (0 : CellTallies nD τ sig Unit) W)
/-- A host stretch as a segment over the unscoped arrays from the contents `W`. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped array at the last contents, the random-number register. -/
abbrev Tₙ (c : Dev nD) : sProp 𝕄 := iprop(StableHlo.held (c : Thread nD τ) (Pipeline.ucRefs τ sig) (W15 m c) ∗ ∃ r, prngReg c r)

/-! ## The first blend's arrays out of the unscoped arrays and back -/

/-- Entry of call 1: its five windows' arrays (the shared one as two halves) and the other unscoped arrays. -/
theorem split1 (c : Dev nD) :
    (unscopedBufs c (U3 m c) : sProp 𝕄)
      ⊢ iprop((dat1 (U3 m) c).arrays ((dat1 (U3 m) c).arrAt · 0) ∗ Pipeline.unscopedRest spec1 c (U3 m c)) := by
  rw [Pipeline.unscopedBufs_split₀ (Pipeline.pin (pcfgs (F := F)) admK) 1 winFacts₀1.arr_unscoped c (U3 m c)]
  exact sep_mono (arrays1_iff (dat1 (U3 m) c) (q1_0 (U3 m) c) (q1_1 (U3 m) c) (q1_2 (U3 m) c) (U3 m c) _ (fun w => A_eq1 (U3 m) c w)).1 .rfl

/-- Exit of call 1: the five windows' arrays at what the call leaves and the other unscoped arrays are the
    unscoped arrays at the next boundary's contents. -/
theorem join1 (c : Dev nD) :
    iprop((dat1 (U3 m) c).arrays ((dat1 (U3 m) c).arrAt · cfg1.N) ∗ Pipeline.unscopedRest spec1 c (U3 m c))
      ⊢ (unscopedBufs c (U4 m c) : sProp 𝕄) := by
  rw [Pipeline.unscopedBufs_split₀ (Pipeline.pin (pcfgs (F := F)) admK) 1 winFacts₀1.arr_unscoped c (U4 m c)]
  refine sep_mono (arrays1_iff (dat1 (U3 m) c) (q1_0 (U3 m) c) (q1_1 (U3 m) c) (q1_2 (U3 m) c) (U4 m c) _ (hF1 m c)).2 (Entails.of_eq ?_)
  unfold Pipeline.unscopedRest
  exact bigSep_congr fun b hb => by rw [hrest1 m c b (Finset.mem_sdiff.mp hb).2]

/-! ## The calls as segments -/

set_option backward.isDefEq.respectTransparency.types false in
/-- Call 0 over the thread state: entered from every unscoped array at `W1`, left at `W2`; its arrays split out
    of the unscoped arrays and put back at the exit contents; the random-number register into the invariant and out. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped array at `W3`, left at `W4`; its arrays split out
    of the unscoped arrays and put back at the exit contents; the random-number register into the invariant and out. -/
def reg1 : Pipeline.RegionSeg (pcfgs (F := F)) admK (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := split1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped array at `W5`, left at `W6`; its arrays split out
    of the unscoped arrays and put back at the exit contents; the random-number register into the invariant and out. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped array at `W7`, left at `W8`; its arrays split out
    of the unscoped arrays and put back at the exit contents; the random-number register into the invariant and out. -/
def reg3 : Pipeline.RegionSeg (pcfgs (F := F)) admK (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admK (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped array at `W9`, left at `W10`; its arrays split out
    of the unscoped arrays and put back at the exit contents; the random-number register into the invariant and out. -/
def reg4 : Pipeline.RegionSeg (pcfgs (F := F)) admK (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admK (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered from every unscoped array at `W11`, left at `W12`; its arrays split out
    of the unscoped arrays and put back at the exit contents; the random-number register into the invariant and out. -/
def reg5 : Pipeline.RegionSeg (pcfgs (F := F)) admK (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ Rest c)
  post c := iprop(StableHlo.held (c : Thread nD τ) (Pipeline.ucRefs τ sig) (W12 m c) ∗ Rest c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admK (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admK (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6 over the thread state: entered from every unscoped array at `W13`, left at `W14`; its arrays split out
    of the unscoped arrays and put back at the exit contents; the random-number register into the invariant and out. -/
def reg6 : Pipeline.RegionSeg (pcfgs (F := F)) admK (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ L lv 6 fun _ _ => rfl
  pre c := iprop(StableHlo.held (c : Thread nD τ) (Pipeline.ucRefs τ sig) (W13 m c) ∗ Rest c)
  post c := iprop(StableHlo.held (c : Thread nD τ) (Pipeline.ucRefs τ sig) (W14 m c) ∗ Rest c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) admK (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admK (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen segments in order: a host segment per stretch, a region per call. -/
abbrev allSegs : List (Pipeline.Seg (pcfgs (F := F)) admK (pdats m) () defs₀ 𝒱₀ L lv) :=
  [ .host (hsegOf hostOps0 hostOps0_sub hostOps0_fresh (W0 m)),
    .region (reg0 m),
    .host (hsegOf hostOps1 hostOps1_sub hostOps1_fresh (W2 m)),
    .region (reg1 m),
    .host (hsegOf hostOps2 hostOps2_sub hostOps2_fresh (W4 m)),
    .region (reg2 m),
    .host (hsegOf hostOps3 hostOps3_sub hostOps3_fresh (W6 m)),
    .region (reg3 m),
    .host (hsegOf hostOps4 hostOps4_sub hostOps4_fresh (W8 m)),
    .region (reg4 m),
    .host (hsegOf hostOps5 hostOps5_sub hostOps5_fresh (W10 m)),
    .region (reg5 m),
    .host (hsegOf hostOps6 hostOps6_sub hostOps6_fresh (W12 m)),
    .region (reg6 m),
    .host (hsegOf hostOps7 hostOps7_sub hostOps7_fresh (W14 m)) ]
/-- The program IS the run of the segments. -/
theorem main_run (c : Dev nD) : main (F := F) c = Pipeline.Seg.run (allSegs m) := (main_chain c).trans (by chain_rfl)

set_option backward.isDefEq.respectTransparency.types false in
/-- THE RUN. From any memory with zero counters every weakly fair execution of the program ends, nothing faulting, and
    at the end every unscoped array holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) admK (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W15 m c) ∗ Rest c)
          ⊢ (iprop(Tₙ m c ∗ ∃ W, owes (c : Thread nD τ) (0 : CellTallies nD τ sig Unit) W) : sProp 𝕄) from by
        iintro ⟨Hh, Hp, Ho⟩
        isplitl [Hh Hp]
        · isplitl [Hh] <;> iassumption
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.Kernel.Frame

end
-- ==== Proof.BitsFrame.lean ====
/-
  The arguments end as launched, and the frame. No host line writes an argument array and no kernel
  call has one among its windows' arrays, so the fold of the boundary contents, read at an argument,
  walks back to the launch memory; the run of the whole program then says that every execution ends,
  nothing faults, and the seven argument arrays hold what they were launched with.
-/
import proofs.«166718_j26491358281938_2_alg».proof.Proof.BitsRun

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W0_arg0 (c : Dev nD) : W0 m c (Proc.devRef .tc main_arg0) = m ((c : Thread nD τ).loc main_arg0) := rfl
theorem W1_arg0 (c : Dev nD) : W1 m c (Proc.devRef .tc main_arg0) = m ((c : Thread nD τ).loc main_arg0) :=
  (StableHlo.after_of_writes_sub hostOps0 _ hostOps0_writes (by decide : main_arg0 ∉ hostOps0_W)).trans (W0_arg0 m c)
theorem W2_arg0 (c : Dev nD) : W2 m c (Proc.devRef .tc main_arg0) = m ((c : Thread nD τ).loc main_arg0) :=
  (W2_of_ne m c main_arg0 (by decide)).trans (W1_arg0 m c)
theorem W3_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_arg0 m c)
theorem W4_arg0 (c : Dev nD) : W4 m c (Proc.devRef .tc main_arg0) = m ((c : Thread nD τ).loc main_arg0) :=
  (W4_of_ne m c main_arg0 (by decide) (by decide)).trans (W3_arg0 m c)
theorem W5_arg0 (c : Dev nD) : W5 m c (Proc.devRef .tc main_arg0) = m ((c : Thread nD τ).loc main_arg0) :=
  (StableHlo.after_of_writes_sub hostOps2 _ hostOps2_writes (by decide : main_arg0 ∉ hostOps2_W)).trans (W4_arg0 m c)
theorem W6_arg0 (c : Dev nD) : W6 m c (Proc.devRef .tc main_arg0) = m ((c : Thread nD τ).loc main_arg0) :=
  (W6_of_ne m c main_arg0 (by decide)).trans (W5_arg0 m c)
theorem W7_arg0 (c : Dev nD) : W7 m c (Proc.devRef .tc main_arg0) = m ((c : Thread nD τ).loc main_arg0) :=
  (StableHlo.after_of_writes_sub hostOps3 _ hostOps3_writes (by decide : main_arg0 ∉ hostOps3_W)).trans (W6_arg0 m c)
theorem W8_arg0 (c : Dev nD) : W8 m c (Proc.devRef .tc main_arg0) = m ((c : Thread nD τ).loc main_arg0) :=
  (W8_of_ne m c main_arg0 (by decide)).trans (W7_arg0 m c)
theorem W9_arg0 (c : Dev nD) : W9 m c (Proc.devRef .tc main_arg0) = m ((c : Thread nD τ).loc main_arg0) :=
  (StableHlo.after_of_writes_sub hostOps4 _ hostOps4_writes (by decide : main_arg0 ∉ hostOps4_W)).trans (W8_arg0 m c)
theorem W10_arg0 (c : Dev nD) : W10 m c (Proc.devRef .tc main_arg0) = m ((c : Thread nD τ).loc main_arg0) :=
  (W10_of_ne m c main_arg0 (by decide)).trans (W9_arg0 m c)
theorem W11_arg0 (c : Dev nD) : W11 m c (Proc.devRef .tc main_arg0) = m ((c : Thread nD τ).loc main_arg0) :=
  (StableHlo.after_of_writes_sub hostOps5 _ hostOps5_writes (by decide : main_arg0 ∉ hostOps5_W)).trans (W10_arg0 m c)
theorem W12_arg0 (c : Dev nD) : W12 m c (Proc.devRef .tc main_arg0) = m ((c : Thread nD τ).loc main_arg0) :=
  (W12_of_ne m c main_arg0 (by decide)).trans (W11_arg0 m c)
theorem W13_arg0 (c : Dev nD) : W13 m c (Proc.devRef .tc main_arg0) = m ((c : Thread nD τ).loc main_arg0) :=
  (StableHlo.after_of_writes_sub hostOps6 _ hostOps6_writes (by decide : main_arg0 ∉ hostOps6_W)).trans (W12_arg0 m c)
theorem W14_arg0 (c : Dev nD) : W14 m c (Proc.devRef .tc main_arg0) = m ((c : Thread nD τ).loc main_arg0) :=
  (W14_of_ne m c main_arg0 (by decide)).trans (W13_arg0 m c)
theorem W15_arg0 (c : Dev nD) : W15 m c (Proc.devRef .tc main_arg0) = m ((c : Thread nD τ).loc main_arg0) :=
  (StableHlo.after_of_writes_sub hostOps7 _ hostOps7_writes (by decide : main_arg0 ∉ hostOps7_W)).trans (W14_arg0 m c)
theorem W0_arg1 (c : Dev nD) : W0 m c (Proc.devRef .tc main_arg1) = m ((c : Thread nD τ).loc main_arg1) := rfl
theorem W1_arg1 (c : Dev nD) : W1 m c (Proc.devRef .tc main_arg1) = m ((c : Thread nD τ).loc main_arg1) :=
  (StableHlo.after_of_writes_sub hostOps0 _ hostOps0_writes (by decide : main_arg1 ∉ hostOps0_W)).trans (W0_arg1 m c)
theorem W2_arg1 (c : Dev nD) : W2 m c (Proc.devRef .tc main_arg1) = m ((c : Thread nD τ).loc main_arg1) :=
  (W2_of_ne m c main_arg1 (by decide)).trans (W1_arg1 m c)
theorem W3_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_arg1 m c)
theorem W4_arg1 (c : Dev nD) : W4 m c (Proc.devRef .tc main_arg1) = m ((c : Thread nD τ).loc main_arg1) :=
  (W4_of_ne m c main_arg1 (by decide) (by decide)).trans (W3_arg1 m c)
theorem W5_arg1 (c : Dev nD) : W5 m c (Proc.devRef .tc main_arg1) = m ((c : Thread nD τ).loc main_arg1) :=
  (StableHlo.after_of_writes_sub hostOps2 _ hostOps2_writes (by decide : main_arg1 ∉ hostOps2_W)).trans (W4_arg1 m c)
theorem W6_arg1 (c : Dev nD) : W6 m c (Proc.devRef .tc main_arg1) = m ((c : Thread nD τ).loc main_arg1) :=
  (W6_of_ne m c main_arg1 (by decide)).trans (W5_arg1 m c)
theorem W7_arg1 (c : Dev nD) : W7 m c (Proc.devRef .tc main_arg1) = m ((c : Thread nD τ).loc main_arg1) :=
  (StableHlo.after_of_writes_sub hostOps3 _ hostOps3_writes (by decide : main_arg1 ∉ hostOps3_W)).trans (W6_arg1 m c)
theorem W8_arg1 (c : Dev nD) : W8 m c (Proc.devRef .tc main_arg1) = m ((c : Thread nD τ).loc main_arg1) :=
  (W8_of_ne m c main_arg1 (by decide)).trans (W7_arg1 m c)
theorem W9_arg1 (c : Dev nD) : W9 m c (Proc.devRef .tc main_arg1) = m ((c : Thread nD τ).loc main_arg1) :=
  (StableHlo.after_of_writes_sub hostOps4 _ hostOps4_writes (by decide : main_arg1 ∉ hostOps4_W)).trans (W8_arg1 m c)
theorem W10_arg1 (c : Dev nD) : W10 m c (Proc.devRef .tc main_arg1) = m ((c : Thread nD τ).loc main_arg1) :=
  (W10_of_ne m c main_arg1 (by decide)).trans (W9_arg1 m c)
theorem W11_arg1 (c : Dev nD) : W11 m c (Proc.devRef .tc main_arg1) = m ((c : Thread nD τ).loc main_arg1) :=
  (StableHlo.after_of_writes_sub hostOps5 _ hostOps5_writes (by decide : main_arg1 ∉ hostOps5_W)).trans (W10_arg1 m c)
theorem W12_arg1 (c : Dev nD) : W12 m c (Proc.devRef .tc main_arg1) = m ((c : Thread nD τ).loc main_arg1) :=
  (W12_of_ne m c main_arg1 (by decide)).trans (W11_arg1 m c)
theorem W13_arg1 (c : Dev nD) : W13 m c (Proc.devRef .tc main_arg1) = m ((c : Thread nD τ).loc main_arg1) :=
  (StableHlo.after_of_writes_sub hostOps6 _ hostOps6_writes (by decide : main_arg1 ∉ hostOps6_W)).trans (W12_arg1 m c)
theorem W14_arg1 (c : Dev nD) : W14 m c (Proc.devRef .tc main_arg1) = m ((c : Thread nD τ).loc main_arg1) :=
  (W14_of_ne m c main_arg1 (by decide)).trans (W13_arg1 m c)
theorem W15_arg1 (c : Dev nD) : W15 m c (Proc.devRef .tc main_arg1) = m ((c : Thread nD τ).loc main_arg1) :=
  (StableHlo.after_of_writes_sub hostOps7 _ hostOps7_writes (by decide : main_arg1 ∉ hostOps7_W)).trans (W14_arg1 m c)
theorem W0_arg2 (c : Dev nD) : W0 m c (Proc.devRef .tc main_arg2) = m ((c : Thread nD τ).loc main_arg2) := rfl
theorem W1_arg2 (c : Dev nD) : W1 m c (Proc.devRef .tc main_arg2) = m ((c : Thread nD τ).loc main_arg2) :=
  (StableHlo.after_of_writes_sub hostOps0 _ hostOps0_writes (by decide : main_arg2 ∉ hostOps0_W)).trans (W0_arg2 m c)
theorem W2_arg2 (c : Dev nD) : W2 m c (Proc.devRef .tc main_arg2) = m ((c : Thread nD τ).loc main_arg2) :=
  (W2_of_ne m c main_arg2 (by decide)).trans (W1_arg2 m c)
theorem W3_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_arg2 m c)
theorem W4_arg2 (c : Dev nD) : W4 m c (Proc.devRef .tc main_arg2) = m ((c : Thread nD τ).loc main_arg2) :=
  (W4_of_ne m c main_arg2 (by decide) (by decide)).trans (W3_arg2 m c)
theorem W5_arg2 (c : Dev nD) : W5 m c (Proc.devRef .tc main_arg2) = m ((c : Thread nD τ).loc main_arg2) :=
  (StableHlo.after_of_writes_sub hostOps2 _ hostOps2_writes (by decide : main_arg2 ∉ hostOps2_W)).trans (W4_arg2 m c)
theorem W6_arg2 (c : Dev nD) : W6 m c (Proc.devRef .tc main_arg2) = m ((c : Thread nD τ).loc main_arg2) :=
  (W6_of_ne m c main_arg2 (by decide)).trans (W5_arg2 m c)
theorem W7_arg2 (c : Dev nD) : W7 m c (Proc.devRef .tc main_arg2) = m ((c : Thread nD τ).loc main_arg2) :=
  (StableHlo.after_of_writes_sub hostOps3 _ hostOps3_writes (by decide : main_arg2 ∉ hostOps3_W)).trans (W6_arg2 m c)
theorem W8_arg2 (c : Dev nD) : W8 m c (Proc.devRef .tc main_arg2) = m ((c : Thread nD τ).loc main_arg2) :=
  (W8_of_ne m c main_arg2 (by decide)).trans (W7_arg2 m c)
theorem W9_arg2 (c : Dev nD) : W9 m c (Proc.devRef .tc main_arg2) = m ((c : Thread nD τ).loc main_arg2) :=
  (StableHlo.after_of_writes_sub hostOps4 _ hostOps4_writes (by decide : main_arg2 ∉ hostOps4_W)).trans (W8_arg2 m c)
theorem W10_arg2 (c : Dev nD) : W10 m c (Proc.devRef .tc main_arg2) = m ((c : Thread nD τ).loc main_arg2) :=
  (W10_of_ne m c main_arg2 (by decide)).trans (W9_arg2 m c)
theorem W11_arg2 (c : Dev nD) : W11 m c (Proc.devRef .tc main_arg2) = m ((c : Thread nD τ).loc main_arg2) :=
  (StableHlo.after_of_writes_sub hostOps5 _ hostOps5_writes (by decide : main_arg2 ∉ hostOps5_W)).trans (W10_arg2 m c)
theorem W12_arg2 (c : Dev nD) : W12 m c (Proc.devRef .tc main_arg2) = m ((c : Thread nD τ).loc main_arg2) :=
  (W12_of_ne m c main_arg2 (by decide)).trans (W11_arg2 m c)
theorem W13_arg2 (c : Dev nD) : W13 m c (Proc.devRef .tc main_arg2) = m ((c : Thread nD τ).loc main_arg2) :=
  (StableHlo.after_of_writes_sub hostOps6 _ hostOps6_writes (by decide : main_arg2 ∉ hostOps6_W)).trans (W12_arg2 m c)
theorem W14_arg2 (c : Dev nD) : W14 m c (Proc.devRef .tc main_arg2) = m ((c : Thread nD τ).loc main_arg2) :=
  (W14_of_ne m c main_arg2 (by decide)).trans (W13_arg2 m c)
theorem W15_arg2 (c : Dev nD) : W15 m c (Proc.devRef .tc main_arg2) = m ((c : Thread nD τ).loc main_arg2) :=
  (StableHlo.after_of_writes_sub hostOps7 _ hostOps7_writes (by decide : main_arg2 ∉ hostOps7_W)).trans (W14_arg2 m c)
theorem W0_arg3 (c : Dev nD) : W0 m c (Proc.devRef .tc main_arg3) = m ((c : Thread nD τ).loc main_arg3) := rfl
theorem W1_arg3 (c : Dev nD) : W1 m c (Proc.devRef .tc main_arg3) = m ((c : Thread nD τ).loc main_arg3) :=
  (StableHlo.after_of_writes_sub hostOps0 _ hostOps0_writes (by decide : main_arg3 ∉ hostOps0_W)).trans (W0_arg3 m c)
theorem W2_arg3 (c : Dev nD) : W2 m c (Proc.devRef .tc main_arg3) = m ((c : Thread nD τ).loc main_arg3) :=
  (W2_of_ne m c main_arg3 (by decide)).trans (W1_arg3 m c)
theorem W3_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_arg3 m c)
theorem W4_arg3 (c : Dev nD) : W4 m c (Proc.devRef .tc main_arg3) = m ((c : Thread nD τ).loc main_arg3) :=
  (W4_of_ne m c main_arg3 (by decide) (by decide)).trans (W3_arg3 m c)
theorem W5_arg3 (c : Dev nD) : W5 m c (Proc.devRef .tc main_arg3) = m ((c : Thread nD τ).loc main_arg3) :=
  (StableHlo.after_of_writes_sub hostOps2 _ hostOps2_writes (by decide : main_arg3 ∉ hostOps2_W)).trans (W4_arg3 m c)
theorem W6_arg3 (c : Dev nD) : W6 m c (Proc.devRef .tc main_arg3) = m ((c : Thread nD τ).loc main_arg3) :=
  (W6_of_ne m c main_arg3 (by decide)).trans (W5_arg3 m c)
theorem W7_arg3 (c : Dev nD) : W7 m c (Proc.devRef .tc main_arg3) = m ((c : Thread nD τ).loc main_arg3) :=
  (StableHlo.after_of_writes_sub hostOps3 _ hostOps3_writes (by decide : main_arg3 ∉ hostOps3_W)).trans (W6_arg3 m c)
theorem W8_arg3 (c : Dev nD) : W8 m c (Proc.devRef .tc main_arg3) = m ((c : Thread nD τ).loc main_arg3) :=
  (W8_of_ne m c main_arg3 (by decide)).trans (W7_arg3 m c)
theorem W9_arg3 (c : Dev nD) : W9 m c (Proc.devRef .tc main_arg3) = m ((c : Thread nD τ).loc main_arg3) :=
  (StableHlo.after_of_writes_sub hostOps4 _ hostOps4_writes (by decide : main_arg3 ∉ hostOps4_W)).trans (W8_arg3 m c)
theorem W10_arg3 (c : Dev nD) : W10 m c (Proc.devRef .tc main_arg3) = m ((c : Thread nD τ).loc main_arg3) :=
  (W10_of_ne m c main_arg3 (by decide)).trans (W9_arg3 m c)
theorem W11_arg3 (c : Dev nD) : W11 m c (Proc.devRef .tc main_arg3) = m ((c : Thread nD τ).loc main_arg3) :=
  (StableHlo.after_of_writes_sub hostOps5 _ hostOps5_writes (by decide : main_arg3 ∉ hostOps5_W)).trans (W10_arg3 m c)
theorem W12_arg3 (c : Dev nD) : W12 m c (Proc.devRef .tc main_arg3) = m ((c : Thread nD τ).loc main_arg3) :=
  (W12_of_ne m c main_arg3 (by decide)).trans (W11_arg3 m c)
theorem W13_arg3 (c : Dev nD) : W13 m c (Proc.devRef .tc main_arg3) = m ((c : Thread nD τ).loc main_arg3) :=
  (StableHlo.after_of_writes_sub hostOps6 _ hostOps6_writes (by decide : main_arg3 ∉ hostOps6_W)).trans (W12_arg3 m c)
theorem W14_arg3 (c : Dev nD) : W14 m c (Proc.devRef .tc main_arg3) = m ((c : Thread nD τ).loc main_arg3) :=
  (W14_of_ne m c main_arg3 (by decide)).trans (W13_arg3 m c)
theorem W15_arg3 (c : Dev nD) : W15 m c (Proc.devRef .tc main_arg3) = m ((c : Thread nD τ).loc main_arg3) :=
  (StableHlo.after_of_writes_sub hostOps7 _ hostOps7_writes (by decide : main_arg3 ∉ hostOps7_W)).trans (W14_arg3 m c)
theorem W0_arg4 (c : Dev nD) : W0 m c (Proc.devRef .tc main_arg4) = m ((c : Thread nD τ).loc main_arg4) := rfl
theorem W1_arg4 (c : Dev nD) : W1 m c (Proc.devRef .tc main_arg4) = m ((c : Thread nD τ).loc main_arg4) :=
  (StableHlo.after_of_writes_sub hostOps0 _ hostOps0_writes (by decide : main_arg4 ∉ hostOps0_W)).trans (W0_arg4 m c)
theorem W2_arg4 (c : Dev nD) : W2 m c (Proc.devRef .tc main_arg4) = m ((c : Thread nD τ).loc main_arg4) :=
  (W2_of_ne m c main_arg4 (by decide)).trans (W1_arg4 m c)
theorem W3_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_arg4 m c)
theorem W4_arg4 (c : Dev nD) : W4 m c (Proc.devRef .tc main_arg4) = m ((c : Thread nD τ).loc main_arg4) :=
  (W4_of_ne m c main_arg4 (by decide) (by decide)).trans (W3_arg4 m c)
theorem W5_arg4 (c : Dev nD) : W5 m c (Proc.devRef .tc main_arg4) = m ((c : Thread nD τ).loc main_arg4) :=
  (StableHlo.after_of_writes_sub hostOps2 _ hostOps2_writes (by decide : main_arg4 ∉ hostOps2_W)).trans (W4_arg4 m c)
theorem W6_arg4 (c : Dev nD) : W6 m c (Proc.devRef .tc main_arg4) = m ((c : Thread nD τ).loc main_arg4) :=
  (W6_of_ne m c main_arg4 (by decide)).trans (W5_arg4 m c)
theorem W7_arg4 (c : Dev nD) : W7 m c (Proc.devRef .tc main_arg4) = m ((c : Thread nD τ).loc main_arg4) :=
  (StableHlo.after_of_writes_sub hostOps3 _ hostOps3_writes (by decide : main_arg4 ∉ hostOps3_W)).trans (W6_arg4 m c)
theorem W8_arg4 (c : Dev nD) : W8 m c (Proc.devRef .tc main_arg4) = m ((c : Thread nD τ).loc main_arg4) :=
  (W8_of_ne m c main_arg4 (by decide)).trans (W7_arg4 m c)
theorem W9_arg4 (c : Dev nD) : W9 m c (Proc.devRef .tc main_arg4) = m ((c : Thread nD τ).loc main_arg4) :=
  (StableHlo.after_of_writes_sub hostOps4 _ hostOps4_writes (by decide : main_arg4 ∉ hostOps4_W)).trans (W8_arg4 m c)
theorem W10_arg4 (c : Dev nD) : W10 m c (Proc.devRef .tc main_arg4) = m ((c : Thread nD τ).loc main_arg4) :=
  (W10_of_ne m c main_arg4 (by decide)).trans (W9_arg4 m c)
theorem W11_arg4 (c : Dev nD) : W11 m c (Proc.devRef .tc main_arg4) = m ((c : Thread nD τ).loc main_arg4) :=
  (StableHlo.after_of_writes_sub hostOps5 _ hostOps5_writes (by decide : main_arg4 ∉ hostOps5_W)).trans (W10_arg4 m c)
theorem W12_arg4 (c : Dev nD) : W12 m c (Proc.devRef .tc main_arg4) = m ((c : Thread nD τ).loc main_arg4) :=
  (W12_of_ne m c main_arg4 (by decide)).trans (W11_arg4 m c)
theorem W13_arg4 (c : Dev nD) : W13 m c (Proc.devRef .tc main_arg4) = m ((c : Thread nD τ).loc main_arg4) :=
  (StableHlo.after_of_writes_sub hostOps6 _ hostOps6_writes (by decide : main_arg4 ∉ hostOps6_W)).trans (W12_arg4 m c)
theorem W14_arg4 (c : Dev nD) : W14 m c (Proc.devRef .tc main_arg4) = m ((c : Thread nD τ).loc main_arg4) :=
  (W14_of_ne m c main_arg4 (by decide)).trans (W13_arg4 m c)
theorem W15_arg4 (c : Dev nD) : W15 m c (Proc.devRef .tc main_arg4) = m ((c : Thread nD τ).loc main_arg4) :=
  (StableHlo.after_of_writes_sub hostOps7 _ hostOps7_writes (by decide : main_arg4 ∉ hostOps7_W)).trans (W14_arg4 m c)
theorem W0_arg5 (c : Dev nD) : W0 m c (Proc.devRef .tc main_arg5) = m ((c : Thread nD τ).loc main_arg5) := rfl
theorem W1_arg5 (c : Dev nD) : W1 m c (Proc.devRef .tc main_arg5) = m ((c : Thread nD τ).loc main_arg5) :=
  (StableHlo.after_of_writes_sub hostOps0 _ hostOps0_writes (by decide : main_arg5 ∉ hostOps0_W)).trans (W0_arg5 m c)
theorem W2_arg5 (c : Dev nD) : W2 m c (Proc.devRef .tc main_arg5) = m ((c : Thread nD τ).loc main_arg5) :=
  (W2_of_ne m c main_arg5 (by decide)).trans (W1_arg5 m c)
theorem W3_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_arg5 m c)
theorem W4_arg5 (c : Dev nD) : W4 m c (Proc.devRef .tc main_arg5) = m ((c : Thread nD τ).loc main_arg5) :=
  (W4_of_ne m c main_arg5 (by decide) (by decide)).trans (W3_arg5 m c)
theorem W5_arg5 (c : Dev nD) : W5 m c (Proc.devRef .tc main_arg5) = m ((c : Thread nD τ).loc main_arg5) :=
  (StableHlo.after_of_writes_sub hostOps2 _ hostOps2_writes (by decide : main_arg5 ∉ hostOps2_W)).trans (W4_arg5 m c)
theorem W6_arg5 (c : Dev nD) : W6 m c (Proc.devRef .tc main_arg5) = m ((c : Thread nD τ).loc main_arg5) :=
  (W6_of_ne m c main_arg5 (by decide)).trans (W5_arg5 m c)
theorem W7_arg5 (c : Dev nD) : W7 m c (Proc.devRef .tc main_arg5) = m ((c : Thread nD τ).loc main_arg5) :=
  (StableHlo.after_of_writes_sub hostOps3 _ hostOps3_writes (by decide : main_arg5 ∉ hostOps3_W)).trans (W6_arg5 m c)
theorem W8_arg5 (c : Dev nD) : W8 m c (Proc.devRef .tc main_arg5) = m ((c : Thread nD τ).loc main_arg5) :=
  (W8_of_ne m c main_arg5 (by decide)).trans (W7_arg5 m c)
theorem W9_arg5 (c : Dev nD) : W9 m c (Proc.devRef .tc main_arg5) = m ((c : Thread nD τ).loc main_arg5) :=
  (StableHlo.after_of_writes_sub hostOps4 _ hostOps4_writes (by decide : main_arg5 ∉ hostOps4_W)).trans (W8_arg5 m c)
theorem W10_arg5 (c : Dev nD) : W10 m c (Proc.devRef .tc main_arg5) = m ((c : Thread nD τ).loc main_arg5) :=
  (W10_of_ne m c main_arg5 (by decide)).trans (W9_arg5 m c)
theorem W11_arg5 (c : Dev nD) : W11 m c (Proc.devRef .tc main_arg5) = m ((c : Thread nD τ).loc main_arg5) :=
  (StableHlo.after_of_writes_sub hostOps5 _ hostOps5_writes (by decide : main_arg5 ∉ hostOps5_W)).trans (W10_arg5 m c)
theorem W12_arg5 (c : Dev nD) : W12 m c (Proc.devRef .tc main_arg5) = m ((c : Thread nD τ).loc main_arg5) :=
  (W12_of_ne m c main_arg5 (by decide)).trans (W11_arg5 m c)
theorem W13_arg5 (c : Dev nD) : W13 m c (Proc.devRef .tc main_arg5) = m ((c : Thread nD τ).loc main_arg5) :=
  (StableHlo.after_of_writes_sub hostOps6 _ hostOps6_writes (by decide : main_arg5 ∉ hostOps6_W)).trans (W12_arg5 m c)
theorem W14_arg5 (c : Dev nD) : W14 m c (Proc.devRef .tc main_arg5) = m ((c : Thread nD τ).loc main_arg5) :=
  (W14_of_ne m c main_arg5 (by decide)).trans (W13_arg5 m c)
theorem W15_arg5 (c : Dev nD) : W15 m c (Proc.devRef .tc main_arg5) = m ((c : Thread nD τ).loc main_arg5) :=
  (StableHlo.after_of_writes_sub hostOps7 _ hostOps7_writes (by decide : main_arg5 ∉ hostOps7_W)).trans (W14_arg5 m c)
theorem W0_arg6 (c : Dev nD) : W0 m c (Proc.devRef .tc main_arg6) = m ((c : Thread nD τ).loc main_arg6) := rfl
theorem W1_arg6 (c : Dev nD) : W1 m c (Proc.devRef .tc main_arg6) = m ((c : Thread nD τ).loc main_arg6) :=
  (StableHlo.after_of_writes_sub hostOps0 _ hostOps0_writes (by decide : main_arg6 ∉ hostOps0_W)).trans (W0_arg6 m c)
theorem W2_arg6 (c : Dev nD) : W2 m c (Proc.devRef .tc main_arg6) = m ((c : Thread nD τ).loc main_arg6) :=
  (W2_of_ne m c main_arg6 (by decide)).trans (W1_arg6 m c)
theorem W3_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_arg6 m c)
theorem W4_arg6 (c : Dev nD) : W4 m c (Proc.devRef .tc main_arg6) = m ((c : Thread nD τ).loc main_arg6) :=
  (W4_of_ne m c main_arg6 (by decide) (by decide)).trans (W3_arg6 m c)
theorem W5_arg6 (c : Dev nD) : W5 m c (Proc.devRef .tc main_arg6) = m ((c : Thread nD τ).loc main_arg6) :=
  (StableHlo.after_of_writes_sub hostOps2 _ hostOps2_writes (by decide : main_arg6 ∉ hostOps2_W)).trans (W4_arg6 m c)
theorem W6_arg6 (c : Dev nD) : W6 m c (Proc.devRef .tc main_arg6) = m ((c : Thread nD τ).loc main_arg6) :=
  (W6_of_ne m c main_arg6 (by decide)).trans (W5_arg6 m c)
theorem W7_arg6 (c : Dev nD) : W7 m c (Proc.devRef .tc main_arg6) = m ((c : Thread nD τ).loc main_arg6) :=
  (StableHlo.after_of_writes_sub hostOps3 _ hostOps3_writes (by decide : main_arg6 ∉ hostOps3_W)).trans (W6_arg6 m c)
theorem W8_arg6 (c : Dev nD) : W8 m c (Proc.devRef .tc main_arg6) = m ((c : Thread nD τ).loc main_arg6) :=
  (W8_of_ne m c main_arg6 (by decide)).trans (W7_arg6 m c)
theorem W9_arg6 (c : Dev nD) : W9 m c (Proc.devRef .tc main_arg6) = m ((c : Thread nD τ).loc main_arg6) :=
  (StableHlo.after_of_writes_sub hostOps4 _ hostOps4_writes (by decide : main_arg6 ∉ hostOps4_W)).trans (W8_arg6 m c)
theorem W10_arg6 (c : Dev nD) : W10 m c (Proc.devRef .tc main_arg6) = m ((c : Thread nD τ).loc main_arg6) :=
  (W10_of_ne m c main_arg6 (by decide)).trans (W9_arg6 m c)
theorem W11_arg6 (c : Dev nD) : W11 m c (Proc.devRef .tc main_arg6) = m ((c : Thread nD τ).loc main_arg6) :=
  (StableHlo.after_of_writes_sub hostOps5 _ hostOps5_writes (by decide : main_arg6 ∉ hostOps5_W)).trans (W10_arg6 m c)
theorem W12_arg6 (c : Dev nD) : W12 m c (Proc.devRef .tc main_arg6) = m ((c : Thread nD τ).loc main_arg6) :=
  (W12_of_ne m c main_arg6 (by decide)).trans (W11_arg6 m c)
theorem W13_arg6 (c : Dev nD) : W13 m c (Proc.devRef .tc main_arg6) = m ((c : Thread nD τ).loc main_arg6) :=
  (StableHlo.after_of_writes_sub hostOps6 _ hostOps6_writes (by decide : main_arg6 ∉ hostOps6_W)).trans (W12_arg6 m c)
theorem W14_arg6 (c : Dev nD) : W14 m c (Proc.devRef .tc main_arg6) = m ((c : Thread nD τ).loc main_arg6) :=
  (W14_of_ne m c main_arg6 (by decide)).trans (W13_arg6 m c)
theorem W15_arg6 (c : Dev nD) : W15 m c (Proc.devRef .tc main_arg6) = m ((c : Thread nD τ).loc main_arg6) :=
  (StableHlo.after_of_writes_sub hostOps7 _ hostOps7_writes (by decide : main_arg6 ∉ hostOps7_W)).trans (W14_arg6 m c)

/-- THE FRAME, at any float instance: every weakly fair execution of the program from any memory with zero counters ends,
    nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W15_arg0 m c),
      (h c _ (mem_uc main_arg1 (by decide))).trans (W15_arg1 m c),
      (h c _ (mem_uc main_arg2 (by decide))).trans (W15_arg2 m c),
      (h c _ (mem_uc main_arg3 (by decide))).trans (W15_arg3 m c),
      (h c _ (mem_uc main_arg4 (by decide))).trans (W15_arg4 m c),
      (h c _ (mem_uc main_arg5 (by decide))).trans (W15_arg5 m c),
      (h c _ (mem_uc main_arg6 (by decide))).trans (W15_arg6 m c)⟩)
    (run_all m ρ)

/-- The same run, keeping also what the result array ends holding: the last boundary's contents. -/
theorem run_value : θ_run defs (onTc (τ := τ) (main (F := F))) ⟨m, fun _ => 0, ρ⟩ (fun r => ∀ c : Dev nD,
      r.2.mem ((c.tc : Thread nD τ).loc main_v57) = W15 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v57 (by decide)),
      (h c _ (mem_uc main_arg0 (by decide))).trans (W15_arg0 m c),
      (h c _ (mem_uc main_arg1 (by decide))).trans (W15_arg1 m c),
      (h c _ (mem_uc main_arg2 (by decide))).trans (W15_arg2 m c),
      (h c _ (mem_uc main_arg3 (by decide))).trans (W15_arg3 m c),
      (h c _ (mem_uc main_arg4 (by decide))).trans (W15_arg4 m c),
      (h c _ (mem_uc main_arg5 (by decide))).trans (W15_arg5 m c),
      (h c _ (mem_uc main_arg6 (by decide))).trans (W15_arg6 m c)⟩)
    (run_all m ρ)

end Cert.Kernel.Frame

end
-- ==== Proof.IdealScale0.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 0: out[8000,64] = x[8000,64] * broadcast(v[8000,1]), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is one whole block -/

abbrev r0_0 : Rect S8000x64 := Rect.unit (s := S8000x64) ![0, 0] S8000x64.size inb_S8000x64_S8000x64_0_0
abbrev r0_1 : Rect S8000x1 := Rect.unit (s := S8000x1) ![0, 0] S8000x1.size inb_S8000x1_S8000x1_0_0

/-! ## What the body leaves in the output window's buffer -/

/-- Window 2's staging buffer after the body, from the input windows' blocks: its one store as a piece. -/
def out0_2 (x0 : Vec F S8000x64 .f32) (x1 : Vec F S8000x1 .f32) : Vec F S8000x64 .f32 :=
  View.canon [⟨r0_0, k0_pay1 (View.ld x0 r0_0) (View.ld x1 r0_1)⟩]

/-- The store is the whole buffer (checked by evaluation), so it covers it. -/
theorem cover0_2 (p0 : Vec F S8000x64 .f32) (y : S8000x64.Idx) :
    ∃ pc ∈ ([⟨r0_0, p0⟩] : List (View.Piece (Elt F) S8000x64 .f32)), y ∈ pc.1.set :=
  View.cover_of_tiled [⟨r0_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The
    output buffer is read once before it is written; the value read is not used. -/
theorem sound_kernel0 (c : Dev nD) (E : Set ℕ) (i : grid0.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    that leaves the scoped rest and the random-number register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealBlend1.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of the program: the blend kernel `out₃ = 0.2·x₀ + 0.8·x₁`, `out₄ = x₂ + out₃` on blocks of
    4000×64 (here windows 0 and 2 read one and the same array), at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x64 := Rect.unit (s := S4000x64) ![0, 0] S4000x64.size inb_S4000x64_S4000x64_0_0

/-! ## What the body leaves in each output window's buffer -/

/-- Window 3's staging buffer after the body, from the input windows' blocks: its one store. -/
def out1_3 (x0 x1 : Vec F S4000x64 .f32) : Vec F S4000x64 .f32 :=
  View.canon [⟨r1_0, k1_pay1 (View.ld x0 r1_0) (View.ld x1 r1_0)⟩]

/-- Window 4's staging buffer after the body, from the input windows' blocks: its one store. -/
def out1_4 (x0 x1 x2 : Vec F S4000x64 .f32) : Vec F S4000x64 .f32 :=
  View.canon [⟨r1_0, k1_pay2 (View.ld x0 r1_0) (View.ld x1 r1_0) (View.ld x2 r1_0)⟩]

/-- The one store is of the whole block, so it covers the buffer. -/
theorem cover1_3 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

theorem cover1_4 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__blend_kernel i arg1 harg1 arg2 harg2 arg3 harg3 arg4 harg4 arg5 harg5) K := by
  simp only [cc1__blend_kernel_eq_skeleton]; unfold cc1__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the random-number register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the arrays: windows 0 and 2 read one array, each through a half of the full share; window 1's
    and the outputs' arrays are whole. -/
theorem q1_0 (c : Dev nD) : (dat1 V c).q 0 = fullShare.left := by dsimp only [dat1]
theorem q1_2 (c : Dev nD) : (dat1 V c).q 2 = fullShare.right := by dsimp only [dat1]
theorem q1_1 (c : Dev nD) : (dat1 V c).q 1 = fullShare := by dsimp only [dat1]
theorem q1_3 (c : Dev nD) : (dat1 V c).q 3 = fullShare := by dsimp only [dat1]
theorem q1_4 (c : Dev nD) : (dat1 V c).q 4 = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IdealScale2.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 2: out[8000,64] = x[8000,64] * broadcast(v[8000,1]), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is one whole block -/

abbrev r2_0 : Rect S8000x64 := Rect.unit (s := S8000x64) ![0, 0] S8000x64.size inb_S8000x64_S8000x64_0_0
abbrev r2_1 : Rect S8000x1 := Rect.unit (s := S8000x1) ![0, 0] S8000x1.size inb_S8000x1_S8000x1_0_0

/-! ## What the body leaves in the output window's buffer -/

/-- Window 2's staging buffer after the body, from the input windows' blocks: its one store as a piece. -/
def out2_2 (x0 : Vec F S8000x64 .f32) (x1 : Vec F S8000x1 .f32) : Vec F S8000x64 .f32 :=
  View.canon [⟨r2_0, k2_pay1 (View.ld x0 r2_0) (View.ld x1 r2_1)⟩]

/-- The store is the whole buffer (checked by evaluation), so it covers it. -/
theorem cover2_2 (p0 : Vec F S8000x64 .f32) (y : S8000x64.Idx) :
    ∃ pc ∈ ([⟨r2_0, p0⟩] : List (View.Piece (Elt F) S8000x64 .f32)), y ∈ pc.1.set :=
  View.cover_of_tiled [⟨r2_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out2_2` of the inputs'. The
    output buffer is read once before it is written; the value read is not used. -/
theorem sound_kernel2 (c : Dev nD) (E : Set ℕ) (i : grid2.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    that leaves the scoped rest and the random-number register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.IdealBlend3.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program: the blend kernel `out₃ = 0.2·x₀ + 0.8·x₁`, `out₄ = x₂ + out₃` on blocks of
    4000×64, at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x64 := Rect.unit (s := S4000x64) ![0, 0] S4000x64.size inb_S4000x64_S4000x64_0_0

/-! ## What the body leaves in each output window's buffer -/

/-- Window 3's staging buffer after the body, from the input windows' blocks: its one store. -/
def out3_3 (x0 x1 : Vec F S4000x64 .f32) : Vec F S4000x64 .f32 :=
  View.canon [⟨r3_0, k3_pay1 (View.ld x0 r3_0) (View.ld x1 r3_0)⟩]

/-- Window 4's staging buffer after the body, from the input windows' blocks: its one store. -/
def out3_4 (x0 x1 x2 : Vec F S4000x64 .f32) : Vec F S4000x64 .f32 :=
  View.canon [⟨r3_0, k3_pay2 (View.ld x0 r3_0) (View.ld x1 r3_0) (View.ld x2 r3_0)⟩]

/-- The one store is of the whole block, so it covers the buffer. -/
theorem cover3_3 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

theorem cover3_4 (p0 : Vec F S4000x64 .f32) (y : S4000x64.Idx) :
    ∃ pc ∈ ([⟨r3_0, p0⟩] : List (View.Piece (Elt F) S4000x64 .f32)), y ∈ pc.1.set :=
  View.cover_of_tiled [⟨r3_0, p0⟩] S4000x64.size (by rfl) y

/-! ## The body's triple -/

set_option maxHeartbeats 1000000 in
/-- The kernel body on whole staging memrefs, the inputs' at read contents `xW` and the outputs' at anything, runs to
    the continuation holding the inputs' as they were and each output's at `out3_W` of the inputs'. -/
theorem sound_kernel3 (c : Dev nD) (E : Set ℕ) (i : grid3.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__blend_kernel i arg1 harg1 arg2 harg2 arg3 harg3 arg4 harg4 arg5 harg5) K := by
  simp only [cc3__blend_kernel_eq_skeleton]; unfold cc3__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    the scoped rest and the random-number register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.IdealScale4.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The scale region 4: out[8000,64] = x[8000,64] * broadcast(v[8000,1]), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is one whole block -/

abbrev r4_0 : Rect S8000x64 := Rect.unit (s := S8000x64) ![0, 0] S8000x64.size inb_S8000x64_S8000x64_0_0
abbrev r4_1 : Rect S8000x1 := Rect.unit (s := S8000x1) ![0, 0] S8000x1.size inb_S8000x1_S8000x1_0_0

/-! ## What the body leaves in the output window's buffer -/

/-- Window 2's staging buffer after the body, from the input windows' blocks: its one store as a piece. -/
def out4_2 (x0 : Vec F S8000x64 .f32) (x1 : Vec F S8000x1 .f32) : Vec F S8000x64 .f32 :=
  View.canon [⟨r4_0, k4_pay1 (View.ld x0 r4_0) (View.ld x1 r4_1)⟩]

/-- The store is the whole buffer (checked by evaluation), so it covers it. -/
theorem cover4_2 (p0 : Vec F S8000x64 .f32) (y : S8000x64.Idx) :
    ∃ pc ∈ ([⟨r4_0, p0⟩] : List (View.Piece (Elt F) S8000x64 .f32)), y ∈ pc.1.set :=
  View.cover_of_tiled [⟨r4_0, p0⟩] S8000x64.size (by rfl) y

/-! ## The body's triple -/

set_option maxHeartbeats 1000000 in
/-- The kernel body on whole staging memrefs, the inputs' at read contents `x0`, `x1` and the output's at anything,
    runs to the continuation holding the inputs' as they were and the output's at `out4_2` of the inputs'. The
    output buffer is read once before it is written; the value read is not used. -/
theorem sound_kernel4 (c : Dev nD) (E : Set ℕ) (i : grid4.Coords)
    (arg1 : Memref sig .tc .vmem S8000x64 .f32) (harg1 : arg1.IsWhole) (arg2 : Memref sig .tc .vmem S8000x1 .f32) (harg2 : arg2.IsWhole)
    (arg3 : Memref sig .tc .vmem S8000x64 .f32) (harg3 : arg3.IsWhole)
    (x0 : Vec F S8000x64 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    that leaves the scoped rest and the random-number register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.IdealBlend5.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program: the blend kernel `out₃ = 0.2·x₀ + 0.8·x₁`, `out₄ = x₂ + out₃` on blocks of
    4000×64, at a parameter `V` (the buffer contents when the region is entered): each window's block at a point,
    what the body leaves in each output's staging buffer, the body's triple, the proof data and the body
    obligation. -/

-- membership in a rectangle of 4000 rows is decided by evaluation, one step per coordinate
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S4000x64 := Rect.unit (s := S4000x64) ![0, 0] S4000x64.size inb_S4000x64_S4000x64_0_0

/-! ## What the body leaves in each output window's buffer -/

/-- Window 3's staging buffer after the body, from the input windows' blocks: its one store. -/
def out5_3 (x0 x1 : Vec F S4000x64 .f32) : Vec F S4000x64 .f32 :=
  View.canon [⟨r5_0, k5_pay1 (View.ld x0 r5_0) (View.ld x1 r5_0)⟩]

/-- Window 4's staging buffer after the body, from the input windows' blocks: its one store. -/
def out5_4 (x0 x1 x2 : Vec F S4000x64 .f32) : Vec F S4000x64 .f32 :=
  View.canon [⟨r5_0, k5_pay2 (View.ld x0 r5_0) (View.ld x1 r5_0) (View.ld x2 r5_0)⟩]

/-- The one store is of the whole block, so it covers the buffer. -/
theorem cover5_3 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

theorem cover5_4 (p0 : Vec F S4000x64 .f32) (y : S4000x64.Idx) :
    ∃ pc ∈ ([⟨r5_0, p0⟩] : List (View.Piece (Elt F) S4000x64 .f32)), y ∈ pc.1.set :=
  View.cover_of_tiled [⟨r5_0, p0⟩] S4000x64.size (by rfl) y

/-! ## The body's triple -/

set_option maxHeartbeats 1000000 in
/-- The kernel body on whole staging memrefs, the inputs' at read contents `xW` and the outputs' at anything, runs to
    the continuation holding the inputs' as they were and each output's at `out5_W` of the inputs'. -/
theorem sound_kernel5 (c : Dev nD) (E : Set ℕ) (i : grid5.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1) ∗ owns (c : Thread nD τ) arg5 fullShare (out5_4 x0 x1 x2)) -∗ K ⟨⟩))
      ⊢ wp frame (wpE (defs₀ (F := F)) Variants.none c none) E (cc5__blend_kernel i arg1 harg1 arg2 harg2 arg3 harg3 arg4 harg4 arg5 harg5) K := by
  simp only [cc5__blend_kernel_eq_skeleton]; unfold cc5__blend_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant
    the scoped rest and the random-number register, untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.IdealDot6.lean ====
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by evaluation, one step per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! # The dot region 6: out[4000,1] = the sum along the second axis of x[4000,64] * y[4000,64], at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is one whole block -/

abbrev r6_0 : Rect S4000x64 := Rect.unit (s := S4000x64) ![0, 0] S4000x64.size inb_S4000x64_S4000x64_0_0
abbrev r6_1 : Rect S4000x1 := Rect.unit (s := S4000x1) ![0, 0] S4000x1.size inb_S4000x1_S4000x1_0_0

/-! ## What the body leaves in the output window's buffer -/

/-- Window 2's staging buffer after the body, from the input windows' blocks: its one store as a piece. -/
def out6_2 (x0 : Vec F S4000x64 .f32) (x1 : Vec F S4000x64 .f32) : Vec F S4000x1 .f32 :=
  View.canon [⟨r6_1, k6_pay1 (View.ld x0 r6_0) (View.ld x1 r6_0)⟩]

/-- The store is the whole buffer (checked by evaluation), so it covers it. -/
theorem cover6_2 (p0 : Vec F S4000x1 .f32) (y : S4000x1.Idx) :
    ∃ pc ∈ ([⟨r6_1, p0⟩] : List (View.Piece (Elt F) S4000x1 .f32)), y ∈ pc.1.set :=
  View.cover_of_tiled [⟨r6_1, p0⟩] S4000x1.size (by rfl) y

/-! ## The body's triple -/

set_option maxHeartbeats 1000000 in
/-- The kernel body on whole staging memrefs, the inputs' at read contents `x0`, `x1` and the output's at anything,
    runs to the continuation holding the inputs' as they were and the output's at `out6_2` of the inputs'. The
    output buffer is read once before it is written; the value read is not used. -/
theorem sound_kernel6 (c : Dev nD) (E : Set ℕ) (i : grid6.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dotred_kernel i arg1 harg1 arg2 harg2 arg3 harg3) K := by
  simp only [cc6__dotred_kernel_eq_skeleton]; unfold cc6__dotred_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant
    that leaves the scoped rest and the random-number register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.IdealSharedArrays.lean ====
/-
  One array read through two input windows. The blend of the first layer takes the concatenated
  embedding table twice: as the residual's base (window 0) and as the running sum it adds to
  (window 2). The buffer behind both windows is one, so the pipeline holds it as two halves of the
  full share, one per window; the other three windows (the propagated table and the two results) have
  buffers of their own at the full share. This module says that the four distinct buffers, each whole
  at the full share, are exactly the five windows' arrays at those shares, in both directions.
-/
import proofs.«166718_j26491358281938_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind the five windows of the first blend. -/
theorem arrRefs1 : Finset.univ.image (Pipeline.arrRef spec1) = {main_v0, main_v12, main_v13_0, main_v13_1} := by decide

/-- A conjunction over those four buffers, one by one. -/
theorem bigSep_refs1 {M : Type} [URA M] (Φ : Ref sig .tc → sProp M) :
    bigSep ({main_v0, main_v12, main_v13_0, main_v13_1} : Finset (Ref sig .tc)) Φ
      = iprop(Φ main_v0 ∗ Φ main_v12 ∗ Φ main_v13_0 ∗ Φ main_v13_1) := by
  have h1 : main_v0 ∉ ({main_v12, main_v13_0, main_v13_1} : Finset (Ref sig .tc)) := by decide
  have h2 : main_v12 ∉ ({main_v13_0, main_v13_1} : Finset (Ref sig .tc)) := by decide
  have h3 : main_v13_0 ∉ ({main_v13_1} : Finset (Ref sig .tc)) := by decide
  rw [bigSep_insert h1, bigSep_insert h2, bigSep_insert h3, bigSep_singleton]
  rfl

/-- The four buffers whole at the full share at contents `V` are the five windows' arrays at contents `A`
    (which are `V`'s, window by window), the shared buffer split into its two halves: a full share is its left
    half beside its right half. -/
theorem arrays1_iff {c : Dev nD} (dat : Dat τ (Elt F) Unit ℕ (UR sig nD τ) ℕ cfg1 c)
    (hq0 : dat.q 0 = fullShare.left) (hq1 : dat.q 1 = fullShare) (hq2 : dat.q 2 = fullShare.right)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs spec1 c V : sProp 𝕄) ⊣⊢ dat.arrays A := by
  unfold Pipeline.arrBufs Pipeline.Dat.arrays
  rw [arrRefs1, bigSep_W1]
  have hs0 : dat.share 0 = fullShare.left := by unfold Pipeline.Dat.share; rw [if_neg (by decide)]; exact hq0
  have hs1 : dat.share 1 = fullShare := by unfold Pipeline.Dat.share; rw [if_neg (by decide)]; exact hq1
  have hs2 : dat.share 2 = fullShare.right := by unfold Pipeline.Dat.share; rw [if_neg (by decide)]; exact hq2
  have hs3 : dat.share 3 = fullShare := by unfold Pipeline.Dat.share; rw [if_pos (by decide)]
  have hs4 : dat.share 4 = fullShare := by unfold Pipeline.Dat.share; rw [if_pos (by decide)]
  rw [hs0, hs1, hs2, hs3, hs4, (arr_whole1 0).set_eq_univ, (arr_whole1 1).set_eq_univ, (arr_whole1 3).set_eq_univ, (arr_whole1 4).set_eq_univ,
    hA 0, hA 1, hA 2, hA 3, hA 4]
  rw [bigSep_refs1]
  have hsh : ((c : Thread nD τ).loc main_v0 ↦{fullShare} V main_v0 : sProp 𝕄)
      ⊣⊢ iprop(((c : Thread nD τ).loc main_v0 ↦{fullShare.left} V main_v0) ∗ (c : Thread nD τ).loc main_v0 ↦{fullShare.right} V main_v0) :=
    pointsTo_share (PosShare.mem_left_op_right fullShare)
  show iprop(((c : Thread nD τ).loc main_v0 ↦{fullShare} V main_v0) ∗ ((c : Thread nD τ).loc main_v12 ↦{fullShare} V main_v12)
        ∗ ((c : Thread nD τ).loc main_v13_0 ↦{fullShare} V main_v13_0) ∗ (c : Thread nD τ).loc main_v13_1 ↦{fullShare} V main_v13_1)
      ⊣⊢ (iprop(((c : Thread nD τ).loc main_v0 ↦{fullShare.left} V main_v0) ∗ ((c : Thread nD τ).loc main_v12 ↦{fullShare} V main_v12)
        ∗ ((c : Thread nD τ).loc main_v0 ↦{fullShare.right} V main_v0)
        ∗ ((c : Thread nD τ).loc main_v13_0 ↦{fullShare} V main_v13_0) ∗ (c : Thread nD τ).loc main_v13_1 ↦{fullShare} V main_v13_1) : sProp 𝕄)
  constructor
  · refine (sep_mono hsh.1 .rfl).trans ?_
    iintro ⟨⟨Hl, Hr⟩, H1, H3, H4⟩
    isplitl [Hl]; · iexact Hl
    isplitl [H1]; · iexact H1
    isplitl [Hr]; · iexact Hr
    isplitl [H3]; · iexact H3
    iexact H4
  · refine (show iprop(((c : Thread nD τ).loc main_v0 ↦{fullShare.left} V main_v0) ∗ ((c : Thread nD τ).loc main_v12 ↦{fullShare} V main_v12)
        ∗ ((c : Thread nD τ).loc main_v0 ↦{fullShare.right} V main_v0)
        ∗ ((c : Thread nD τ).loc main_v13_0 ↦{fullShare} V main_v13_0) ∗ (c : Thread nD τ).loc main_v13_1 ↦{fullShare} V main_v13_1)
      ⊢ (iprop((((c : Thread nD τ).loc main_v0 ↦{fullShare.left} V main_v0) ∗ (c : Thread nD τ).loc main_v0 ↦{fullShare.right} V main_v0)
        ∗ ((c : Thread nD τ).loc main_v12 ↦{fullShare} V main_v12)
        ∗ ((c : Thread nD τ).loc main_v13_0 ↦{fullShare} V main_v13_0) ∗ (c : Thread nD τ).loc main_v13_1 ↦{fullShare} V main_v13_1) : sProp 𝕄) from ?_).trans
      (sep_mono hsh.2 .rfl)
    iintro ⟨Hl, H1, Hr, H3, H4⟩
    isplitl [Hl Hr]
    · isplitl [Hl] <;> iassumption
    isplitl [H1]; · iexact H1
    isplitl [H3]; · iexact H3
    iexact H4

end Cert.KernelIdeal.Frame

end
-- ==== Proof.IdealRun.lean ====
/-
  The whole program as a run. The host lines between the seven kernel calls are pure array
  operations; each kernel call rewrites only its result arrays. So the contents of every array at
  every boundary between a host stretch and a call are a fold from the launch memory: a host stretch
  applies its operations, a call leaves its result arrays at what its grid's write-backs sum up to
  and everything else as entered. This module names those contents boundary by boundary, gives every
  call its proof data at its entry contents, and launches the program over them: every execution
  ends, nothing faults, and at the end every array holds the last boundary's contents. The first
  blend reads one array through two windows, and so holds it as two half shares (the split is the
  module before this one); every other call holds each of its arrays whole.
-/
import proofs.«166718_j26491358281938_2_alg».proof.Proof.IdealScale0
import proofs.«166718_j26491358281938_2_alg».proof.Proof.IdealBlend1
import proofs.«166718_j26491358281938_2_alg».proof.Proof.IdealScale2
import proofs.«166718_j26491358281938_2_alg».proof.Proof.IdealBlend3
import proofs.«166718_j26491358281938_2_alg».proof.Proof.IdealScale4
import proofs.«166718_j26491358281938_2_alg».proof.Proof.IdealBlend5
import proofs.«166718_j26491358281938_2_alg».proof.Proof.IdealDot6
import proofs.«166718_j26491358281938_2_alg».proof.Proof.IdealSharedArrays
import proofs.«166718_j26491358281938_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => m (c, b)
/-- After host stretch 0: what call 0 is entered from. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- After call 0: its arrays at what its write-backs leave, every other array as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After host stretch 1: what call 1 is entered from. -/
abbrev W3 : Dev nD → Valuation τ sig (Elt F) := fun c => StableHlo.after hostOps1 (W2 m c)
/-- The same, read at the TensorCore's references. -/
abbrev U3 : (c : Dev nD) → (b : Ref sig .tc) → Buf (Elt F) ((c : Thread nD τ).loc b) := fun c b => W3 m c b
/-- After call 1: its two result arrays at what its write-backs leave, every other array as entered (the
    array its windows 0 and 2 share is an input of both and stays). -/
def W4 (c : Dev nD) : Valuation τ sig (Elt F) :=
  Function.update (Function.update (W3 m c) (Proc.devRef .tc (Pipeline.arrRef spec1 3)) ((dat1 (U3 m) c).arrAt 3 cfg1.N))
    (Proc.devRef .tc (Pipeline.arrRef spec1 4)) ((dat1 (U3 m) c).arrAt 4 cfg1.N)
abbrev U4 : (c : Dev nD) → (b : Ref sig .tc) → Buf (Elt F) ((c : Thread nD τ).loc b) := fun c b => W4 m c b
theorem W4_of_ne (c : Dev nD) (b : Ref sig .tc) (h3 : b ≠ Pipeline.arrRef spec1 3) (h4 : b ≠ Pipeline.arrRef spec1 4) :
    W4 m c (Proc.devRef .tc b) = W3 m c (Proc.devRef .tc b) := by
  unfold W4
  rw [Function.update_of_ne (StableHlo.devRef_ne_of_ne h4), Function.update_of_ne (StableHlo.devRef_ne_of_ne h3)]
theorem hF1 (c : Dev nD) : ∀ w : Fin cfg1.W, (dat1 (U3 m) c).arrAt w cfg1.N = U4 m c (Pipeline.arrRef spec1 w)
  | ⟨0, _⟩ => (((dat1 (U3 m) c).arrAt_in 0 rfl _).trans (A_eq1 (U3 m) c 0)).trans (W4_of_ne m c _ (by decide) (by decide)).symm
  | ⟨1, _⟩ => (((dat1 (U3 m) c).arrAt_in 1 rfl _).trans (A_eq1 (U3 m) c 1)).trans (W4_of_ne m c _ (by decide) (by decide)).symm
  | ⟨2, _⟩ => (((dat1 (U3 m) c).arrAt_in 2 rfl _).trans (A_eq1 (U3 m) c 2)).trans (W4_of_ne m c _ (by decide) (by decide)).symm
  | ⟨3, _⟩ => by
      show _ = W4 m c (Proc.devRef .tc (Pipeline.arrRef spec1 3))
      unfold W4
      rw [Function.update_of_ne (StableHlo.devRef_ne_of_ne (by decide)), Function.update_self]
      rfl
  | ⟨4, _⟩ => by
      show _ = W4 m c (Proc.devRef .tc (Pipeline.arrRef spec1 4))
      unfold W4
      rw [Function.update_self]
      rfl
theorem hrest1 (c : Dev nD) : ∀ b, b ∉ Finset.univ.image (Pipeline.arrRef spec1) → U4 m c b = U3 m c b :=
  fun b hb => W4_of_ne m c b (fun e => hb (Finset.mem_image.mpr ⟨3, Finset.mem_univ _, e.symm⟩))
    (fun e => hb (Finset.mem_image.mpr ⟨4, Finset.mem_univ _, e.symm⟩))
/-- After host stretch 2: what call 2 is entered from. -/
abbrev W5 : Dev nD → Valuation τ sig (Elt F) := fun c => StableHlo.after hostOps2 (W4 m c)
/-- The same, read at the TensorCore's references. -/
abbrev U5 : (c : Dev nD) → (b : Ref sig .tc) → Buf (Elt F) ((c : Thread nD τ).loc b) := fun c b => W5 m c b
/-- After call 2: its arrays at what its write-backs leave, every other array as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After host stretch 3: what call 3 is entered from. -/
abbrev W7 : Dev nD → Valuation τ sig (Elt F) := fun c => StableHlo.after hostOps3 (W6 m c)
/-- The same, read at the TensorCore's references. -/
abbrev U7 : (c : Dev nD) → (b : Ref sig .tc) → Buf (Elt F) ((c : Thread nD τ).loc b) := fun c b => W7 m c b
/-- After call 3: its arrays at what its write-backs leave, every other array as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- After host stretch 4: what call 4 is entered from. -/
abbrev W9 : Dev nD → Valuation τ sig (Elt F) := fun c => StableHlo.after hostOps4 (W8 m c)
/-- The same, read at the TensorCore's references. -/
abbrev U9 : (c : Dev nD) → (b : Ref sig .tc) → Buf (Elt F) ((c : Thread nD τ).loc b) := fun c b => W9 m c b
/-- After call 4: its arrays at what its write-backs leave, every other array as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- After host stretch 5: what call 5 is entered from. -/
abbrev W11 : Dev nD → Valuation τ sig (Elt F) := fun c => StableHlo.after hostOps5 (W10 m c)
/-- The same, read at the TensorCore's references. -/
abbrev U11 : (c : Dev nD) → (b : Ref sig .tc) → Buf (Elt F) ((c : Thread nD τ).loc b) := fun c b => W11 m c b
/-- After call 5: its arrays at what its write-backs leave, every other array as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
/-- After host stretch 6: what call 6 is entered from. -/
abbrev W13 : Dev nD → Valuation τ sig (Elt F) := fun c => StableHlo.after hostOps6 (W12 m c)
/-- The same, read at the TensorCore's references. -/
abbrev U13 : (c : Dev nD) → (b : Ref sig .tc) → Buf (Elt F) ((c : Thread nD τ).loc b) := fun c b => W13 m c b
/-- After call 6: its arrays at what its write-backs leave, every other array as entered. -/
def W14 (c : Dev nD) : Valuation τ sig (Elt F) :=
  Pipeline.withArrays spec6 c (W13 m c) fun w => (dat6 (U13 m) c).arrAt w cfg6.N
theorem W14_arr (c : Dev nD) (w : Fin cfg6.W) :
    W14 m c (Proc.devRef .tc (Pipeline.arrRef spec6 w)) = (dat6 (U13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev U14 : (c : Dev nD) → (b : Ref sig .tc) → Buf (Elt F) ((c : Thread nD τ).loc b) := fun c b => W14 m c b
theorem hF6 (c : Dev nD) (w : Fin cfg6.W) : (dat6 (U13 m) c).arrAt w cfg6.N = U14 m c (Pipeline.arrRef spec6 w) :=
  (W14_arr m c w).symm
theorem hrest6 (c : Dev nD) : ∀ b, b ∉ Finset.univ.image (Pipeline.arrRef spec6) → U14 m c b = U13 m c b :=
  fun b hb => W14_of_ne m c b fun w e => hb (Finset.mem_image.mpr ⟨w, Finset.mem_univ _, e⟩)
/-- After the last host line: the end. -/
abbrev W15 : Dev nD → Valuation τ sig (Elt F) := fun c => StableHlo.after hostOps7 (W14 m c)

/-! ## The proof data family and the thread state -/

/-- No call has a prefetched table. -/
abbrev admK : (p : Fin 7) → (pcfgs (F := F) p).Adm := fun p => (cfgs p).toPCfg_adm
/-- Every call's proof data, each at its own entry contents. -/
def pdats : (p : Fin 7) → (c : Dev nD) → Dat τ (Elt F) Unit ℕ (UR sig nD τ) ℕ (Pipeline.pin (pcfgs (F := F)) admK p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
abbrev 𝒱₀ : Variants := Variants.none
/-- No core owes another anything. -/
abbrev L : GSem nD τ sig → Finset Unit := fun _ => ∅
abbrev lv : GSem nD τ sig → Unit → ℕ := fun _ _ => 0
/-- What rides beside the arrays through every segment: the random-number register at some state, and nothing owed. -/
abbrev Rest (c : Dev nD) : sProp 𝕄 := iprop((∃ r, prngReg c r) ∗ ∃ W, owes (c : Thread nD τ) (0 : CellTallies nD τ sig Unit) W)
/-- A host stretch as a segment over the unscoped arrays from the contents `W`. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped array at the last contents, the random-number register. -/
abbrev Tₙ (c : Dev nD) : sProp 𝕄 := iprop(StableHlo.held (c : Thread nD τ) (Pipeline.ucRefs τ sig) (W15 m c) ∗ ∃ r, prngReg c r)

/-! ## The first blend's arrays out of the unscoped arrays and back -/

/-- Entry of call 1: its five windows' arrays (the shared one as two halves) and the other unscoped arrays. -/
theorem split1 (c : Dev nD) :
    (unscopedBufs c (U3 m c) : sProp 𝕄)
      ⊢ iprop((dat1 (U3 m) c).arrays ((dat1 (U3 m) c).arrAt · 0) ∗ Pipeline.unscopedRest spec1 c (U3 m c)) := by
  rw [Pipeline.unscopedBufs_split₀ (Pipeline.pin (pcfgs (F := F)) admK) 1 winFacts₀1.arr_unscoped c (U3 m c)]
  exact sep_mono (arrays1_iff (dat1 (U3 m) c) (q1_0 (U3 m) c) (q1_1 (U3 m) c) (q1_2 (U3 m) c) (U3 m c) _ (fun w => A_eq1 (U3 m) c w)).1 .rfl

/-- Exit of call 1: the five windows' arrays at what the call leaves and the other unscoped arrays are the
    unscoped arrays at the next boundary's contents. -/
theorem join1 (c : Dev nD) :
    iprop((dat1 (U3 m) c).arrays ((dat1 (U3 m) c).arrAt · cfg1.N) ∗ Pipeline.unscopedRest spec1 c (U3 m c))
      ⊢ (unscopedBufs c (U4 m c) : sProp 𝕄) := by
  rw [Pipeline.unscopedBufs_split₀ (Pipeline.pin (pcfgs (F := F)) admK) 1 winFacts₀1.arr_unscoped c (U4 m c)]
  refine sep_mono (arrays1_iff (dat1 (U3 m) c) (q1_0 (U3 m) c) (q1_1 (U3 m) c) (q1_2 (U3 m) c) (U4 m c) _ (hF1 m c)).2 (Entails.of_eq ?_)
  unfold Pipeline.unscopedRest
  exact bigSep_congr fun b hb => by rw [hrest1 m c b (Finset.mem_sdiff.mp hb).2]

/-! ## The calls as segments -/

set_option backward.isDefEq.respectTransparency.types false in
/-- Call 0 over the thread state: entered from every unscoped array at `W1`, left at `W2`; its arrays split out
    of the unscoped arrays and put back at the exit contents; the random-number register into the invariant and out. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped array at `W3`, left at `W4`; its arrays split out
    of the unscoped arrays and put back at the exit contents; the random-number register into the invariant and out. -/
def reg1 : Pipeline.RegionSeg (pcfgs (F := F)) admK (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := split1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped array at `W5`, left at `W6`; its arrays split out
    of the unscoped arrays and put back at the exit contents; the random-number register into the invariant and out. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped array at `W7`, left at `W8`; its arrays split out
    of the unscoped arrays and put back at the exit contents; the random-number register into the invariant and out. -/
def reg3 : Pipeline.RegionSeg (pcfgs (F := F)) admK (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admK (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped array at `W9`, left at `W10`; its arrays split out
    of the unscoped arrays and put back at the exit contents; the random-number register into the invariant and out. -/
def reg4 : Pipeline.RegionSeg (pcfgs (F := F)) admK (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admK (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered from every unscoped array at `W11`, left at `W12`; its arrays split out
    of the unscoped arrays and put back at the exit contents; the random-number register into the invariant and out. -/
def reg5 : Pipeline.RegionSeg (pcfgs (F := F)) admK (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ Rest c)
  post c := iprop(StableHlo.held (c : Thread nD τ) (Pipeline.ucRefs τ sig) (W12 m c) ∗ Rest c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admK (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admK (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6 over the thread state: entered from every unscoped array at `W13`, left at `W14`; its arrays split out
    of the unscoped arrays and put back at the exit contents; the random-number register into the invariant and out. -/
def reg6 : Pipeline.RegionSeg (pcfgs (F := F)) admK (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ L lv 6 fun _ _ => rfl
  pre c := iprop(StableHlo.held (c : Thread nD τ) (Pipeline.ucRefs τ sig) (W13 m c) ∗ Rest c)
  post c := iprop(StableHlo.held (c : Thread nD τ) (Pipeline.ucRefs τ sig) (W14 m c) ∗ Rest c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) admK (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admK (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen segments in order: a host segment per stretch, a region per call. -/
abbrev allSegs : List (Pipeline.Seg (pcfgs (F := F)) admK (pdats m) () defs₀ 𝒱₀ L lv) :=
  [ .host (hsegOf hostOps0 hostOps0_sub hostOps0_fresh (W0 m)),
    .region (reg0 m),
    .host (hsegOf hostOps1 hostOps1_sub hostOps1_fresh (W2 m)),
    .region (reg1 m),
    .host (hsegOf hostOps2 hostOps2_sub hostOps2_fresh (W4 m)),
    .region (reg2 m),
    .host (hsegOf hostOps3 hostOps3_sub hostOps3_fresh (W6 m)),
    .region (reg3 m),
    .host (hsegOf hostOps4 hostOps4_sub hostOps4_fresh (W8 m)),
    .region (reg4 m),
    .host (hsegOf hostOps5 hostOps5_sub hostOps5_fresh (W10 m)),
    .region (reg5 m),
    .host (hsegOf hostOps6 hostOps6_sub hostOps6_fresh (W12 m)),
    .region (reg6 m),
    .host (hsegOf hostOps7 hostOps7_sub hostOps7_fresh (W14 m)) ]
/-- The program IS the run of the segments. -/
theorem main_run (c : Dev nD) : main (F := F) c = Pipeline.Seg.run (allSegs m) := (main_chain c).trans (by chain_rfl)

set_option backward.isDefEq.respectTransparency.types false in
/-- THE RUN. From any memory with zero counters every weakly fair execution of the program ends, nothing faulting, and
    at the end every unscoped array holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) admK (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W15 m c) ∗ Rest c)
          ⊢ (iprop(Tₙ m c ∗ ∃ W, owes (c : Thread nD τ) (0 : CellTallies nD τ sig Unit) W) : sProp 𝕄) from by
        iintro ⟨Hh, Hp, Ho⟩
        isplitl [Hh Hp]
        · isplitl [Hh] <;> iassumption
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.KernelIdeal.Frame

end
-- ==== Proof.IdealFrame.lean ====
/-
  The arguments end as launched, and the frame. No host line writes an argument array and no kernel
  call has one among its windows' arrays, so the fold of the boundary contents, read at an argument,
  walks back to the launch memory; the run of the whole program then says that every execution ends,
  nothing faults, and the seven argument arrays hold what they were launched with.
-/
import proofs.«166718_j26491358281938_2_alg».proof.Proof.IdealRun

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W0_arg0 (c : Dev nD) : W0 m c (Proc.devRef .tc main_arg0) = m ((c : Thread nD τ).loc main_arg0) := rfl
theorem W1_arg0 (c : Dev nD) : W1 m c (Proc.devRef .tc main_arg0) = m ((c : Thread nD τ).loc main_arg0) :=
  (StableHlo.after_of_writes_sub hostOps0 _ hostOps0_writes (by decide : main_arg0 ∉ hostOps0_W)).trans (W0_arg0 m c)
theorem W2_arg0 (c : Dev nD) : W2 m c (Proc.devRef .tc main_arg0) = m ((c : Thread nD τ).loc main_arg0) :=
  (W2_of_ne m c main_arg0 (by decide)).trans (W1_arg0 m c)
theorem W3_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_arg0 m c)
theorem W4_arg0 (c : Dev nD) : W4 m c (Proc.devRef .tc main_arg0) = m ((c : Thread nD τ).loc main_arg0) :=
  (W4_of_ne m c main_arg0 (by decide) (by decide)).trans (W3_arg0 m c)
theorem W5_arg0 (c : Dev nD) : W5 m c (Proc.devRef .tc main_arg0) = m ((c : Thread nD τ).loc main_arg0) :=
  (StableHlo.after_of_writes_sub hostOps2 _ hostOps2_writes (by decide : main_arg0 ∉ hostOps2_W)).trans (W4_arg0 m c)
theorem W6_arg0 (c : Dev nD) : W6 m c (Proc.devRef .tc main_arg0) = m ((c : Thread nD τ).loc main_arg0) :=
  (W6_of_ne m c main_arg0 (by decide)).trans (W5_arg0 m c)
theorem W7_arg0 (c : Dev nD) : W7 m c (Proc.devRef .tc main_arg0) = m ((c : Thread nD τ).loc main_arg0) :=
  (StableHlo.after_of_writes_sub hostOps3 _ hostOps3_writes (by decide : main_arg0 ∉ hostOps3_W)).trans (W6_arg0 m c)
theorem W8_arg0 (c : Dev nD) : W8 m c (Proc.devRef .tc main_arg0) = m ((c : Thread nD τ).loc main_arg0) :=
  (W8_of_ne m c main_arg0 (by decide)).trans (W7_arg0 m c)
theorem W9_arg0 (c : Dev nD) : W9 m c (Proc.devRef .tc main_arg0) = m ((c : Thread nD τ).loc main_arg0) :=
  (StableHlo.after_of_writes_sub hostOps4 _ hostOps4_writes (by decide : main_arg0 ∉ hostOps4_W)).trans (W8_arg0 m c)
theorem W10_arg0 (c : Dev nD) : W10 m c (Proc.devRef .tc main_arg0) = m ((c : Thread nD τ).loc main_arg0) :=
  (W10_of_ne m c main_arg0 (by decide)).trans (W9_arg0 m c)
theorem W11_arg0 (c : Dev nD) : W11 m c (Proc.devRef .tc main_arg0) = m ((c : Thread nD τ).loc main_arg0) :=
  (StableHlo.after_of_writes_sub hostOps5 _ hostOps5_writes (by decide : main_arg0 ∉ hostOps5_W)).trans (W10_arg0 m c)
theorem W12_arg0 (c : Dev nD) : W12 m c (Proc.devRef .tc main_arg0) = m ((c : Thread nD τ).loc main_arg0) :=
  (W12_of_ne m c main_arg0 (by decide)).trans (W11_arg0 m c)
theorem W13_arg0 (c : Dev nD) : W13 m c (Proc.devRef .tc main_arg0) = m ((c : Thread nD τ).loc main_arg0) :=
  (StableHlo.after_of_writes_sub hostOps6 _ hostOps6_writes (by decide : main_arg0 ∉ hostOps6_W)).trans (W12_arg0 m c)
theorem W14_arg0 (c : Dev nD) : W14 m c (Proc.devRef .tc main_arg0) = m ((c : Thread nD τ).loc main_arg0) :=
  (W14_of_ne m c main_arg0 (by decide)).trans (W13_arg0 m c)
theorem W15_arg0 (c : Dev nD) : W15 m c (Proc.devRef .tc main_arg0) = m ((c : Thread nD τ).loc main_arg0) :=
  (StableHlo.after_of_writes_sub hostOps7 _ hostOps7_writes (by decide : main_arg0 ∉ hostOps7_W)).trans (W14_arg0 m c)
theorem W0_arg1 (c : Dev nD) : W0 m c (Proc.devRef .tc main_arg1) = m ((c : Thread nD τ).loc main_arg1) := rfl
theorem W1_arg1 (c : Dev nD) : W1 m c (Proc.devRef .tc main_arg1) = m ((c : Thread nD τ).loc main_arg1) :=
  (StableHlo.after_of_writes_sub hostOps0 _ hostOps0_writes (by decide : main_arg1 ∉ hostOps0_W)).trans (W0_arg1 m c)
theorem W2_arg1 (c : Dev nD) : W2 m c (Proc.devRef .tc main_arg1) = m ((c : Thread nD τ).loc main_arg1) :=
  (W2_of_ne m c main_arg1 (by decide)).trans (W1_arg1 m c)
theorem W3_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_arg1 m c)
theorem W4_arg1 (c : Dev nD) : W4 m c (Proc.devRef .tc main_arg1) = m ((c : Thread nD τ).loc main_arg1) :=
  (W4_of_ne m c main_arg1 (by decide) (by decide)).trans (W3_arg1 m c)
theorem W5_arg1 (c : Dev nD) : W5 m c (Proc.devRef .tc main_arg1) = m ((c : Thread nD τ).loc main_arg1) :=
  (StableHlo.after_of_writes_sub hostOps2 _ hostOps2_writes (by decide : main_arg1 ∉ hostOps2_W)).trans (W4_arg1 m c)
theorem W6_arg1 (c : Dev nD) : W6 m c (Proc.devRef .tc main_arg1) = m ((c : Thread nD τ).loc main_arg1) :=
  (W6_of_ne m c main_arg1 (by decide)).trans (W5_arg1 m c)
theorem W7_arg1 (c : Dev nD) : W7 m c (Proc.devRef .tc main_arg1) = m ((c : Thread nD τ).loc main_arg1) :=
  (StableHlo.after_of_writes_sub hostOps3 _ hostOps3_writes (by decide : main_arg1 ∉ hostOps3_W)).trans (W6_arg1 m c)
theorem W8_arg1 (c : Dev nD) : W8 m c (Proc.devRef .tc main_arg1) = m ((c : Thread nD τ).loc main_arg1) :=
  (W8_of_ne m c main_arg1 (by decide)).trans (W7_arg1 m c)
theorem W9_arg1 (c : Dev nD) : W9 m c (Proc.devRef .tc main_arg1) = m ((c : Thread nD τ).loc main_arg1) :=
  (StableHlo.after_of_writes_sub hostOps4 _ hostOps4_writes (by decide : main_arg1 ∉ hostOps4_W)).trans (W8_arg1 m c)
theorem W10_arg1 (c : Dev nD) : W10 m c (Proc.devRef .tc main_arg1) = m ((c : Thread nD τ).loc main_arg1) :=
  (W10_of_ne m c main_arg1 (by decide)).trans (W9_arg1 m c)
theorem W11_arg1 (c : Dev nD) : W11 m c (Proc.devRef .tc main_arg1) = m ((c : Thread nD τ).loc main_arg1) :=
  (StableHlo.after_of_writes_sub hostOps5 _ hostOps5_writes (by decide : main_arg1 ∉ hostOps5_W)).trans (W10_arg1 m c)
theorem W12_arg1 (c : Dev nD) : W12 m c (Proc.devRef .tc main_arg1) = m ((c : Thread nD τ).loc main_arg1) :=
  (W12_of_ne m c main_arg1 (by decide)).trans (W11_arg1 m c)
theorem W13_arg1 (c : Dev nD) : W13 m c (Proc.devRef .tc main_arg1) = m ((c : Thread nD τ).loc main_arg1) :=
  (StableHlo.after_of_writes_sub hostOps6 _ hostOps6_writes (by decide : main_arg1 ∉ hostOps6_W)).trans (W12_arg1 m c)
theorem W14_arg1 (c : Dev nD) : W14 m c (Proc.devRef .tc main_arg1) = m ((c : Thread nD τ).loc main_arg1) :=
  (W14_of_ne m c main_arg1 (by decide)).trans (W13_arg1 m c)
theorem W15_arg1 (c : Dev nD) : W15 m c (Proc.devRef .tc main_arg1) = m ((c : Thread nD τ).loc main_arg1) :=
  (StableHlo.after_of_writes_sub hostOps7 _ hostOps7_writes (by decide : main_arg1 ∉ hostOps7_W)).trans (W14_arg1 m c)
theorem W0_arg2 (c : Dev nD) : W0 m c (Proc.devRef .tc main_arg2) = m ((c : Thread nD τ).loc main_arg2) := rfl
theorem W1_arg2 (c : Dev nD) : W1 m c (Proc.devRef .tc main_arg2) = m ((c : Thread nD τ).loc main_arg2) :=
  (StableHlo.after_of_writes_sub hostOps0 _ hostOps0_writes (by decide : main_arg2 ∉ hostOps0_W)).trans (W0_arg2 m c)
theorem W2_arg2 (c : Dev nD) : W2 m c (Proc.devRef .tc main_arg2) = m ((c : Thread nD τ).loc main_arg2) :=
  (W2_of_ne m c main_arg2 (by decide)).trans (W1_arg2 m c)
theorem W3_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_arg2 m c)
theorem W4_arg2 (c : Dev nD) : W4 m c (Proc.devRef .tc main_arg2) = m ((c : Thread nD τ).loc main_arg2) :=
  (W4_of_ne m c main_arg2 (by decide) (by decide)).trans (W3_arg2 m c)
theorem W5_arg2 (c : Dev nD) : W5 m c (Proc.devRef .tc main_arg2) = m ((c : Thread nD τ).loc main_arg2) :=
  (StableHlo.after_of_writes_sub hostOps2 _ hostOps2_writes (by decide : main_arg2 ∉ hostOps2_W)).trans (W4_arg2 m c)
theorem W6_arg2 (c : Dev nD) : W6 m c (Proc.devRef .tc main_arg2) = m ((c : Thread nD τ).loc main_arg2) :=
  (W6_of_ne m c main_arg2 (by decide)).trans (W5_arg2 m c)
theorem W7_arg2 (c : Dev nD) : W7 m c (Proc.devRef .tc main_arg2) = m ((c : Thread nD τ).loc main_arg2) :=
  (StableHlo.after_of_writes_sub hostOps3 _ hostOps3_writes (by decide : main_arg2 ∉ hostOps3_W)).trans (W6_arg2 m c)
theorem W8_arg2 (c : Dev nD) : W8 m c (Proc.devRef .tc main_arg2) = m ((c : Thread nD τ).loc main_arg2) :=
  (W8_of_ne m c main_arg2 (by decide)).trans (W7_arg2 m c)
theorem W9_arg2 (c : Dev nD) : W9 m c (Proc.devRef .tc main_arg2) = m ((c : Thread nD τ).loc main_arg2) :=
  (StableHlo.after_of_writes_sub hostOps4 _ hostOps4_writes (by decide : main_arg2 ∉ hostOps4_W)).trans (W8_arg2 m c)
theorem W10_arg2 (c : Dev nD) : W10 m c (Proc.devRef .tc main_arg2) = m ((c : Thread nD τ).loc main_arg2) :=
  (W10_of_ne m c main_arg2 (by decide)).trans (W9_arg2 m c)
theorem W11_arg2 (c : Dev nD) : W11 m c (Proc.devRef .tc main_arg2) = m ((c : Thread nD τ).loc main_arg2) :=
  (StableHlo.after_of_writes_sub hostOps5 _ hostOps5_writes (by decide : main_arg2 ∉ hostOps5_W)).trans (W10_arg2 m c)
theorem W12_arg2 (c : Dev nD) : W12 m c (Proc.devRef .tc main_arg2) = m ((c : Thread nD τ).loc main_arg2) :=
  (W12_of_ne m c main_arg2 (by decide)).trans (W11_arg2 m c)
theorem W13_arg2 (c : Dev nD) : W13 m c (Proc.devRef .tc main_arg2) = m ((c : Thread nD τ).loc main_arg2) :=
  (StableHlo.after_of_writes_sub hostOps6 _ hostOps6_writes (by decide : main_arg2 ∉ hostOps6_W)).trans (W12_arg2 m c)
theorem W14_arg2 (c : Dev nD) : W14 m c (Proc.devRef .tc main_arg2) = m ((c : Thread nD τ).loc main_arg2) :=
  (W14_of_ne m c main_arg2 (by decide)).trans (W13_arg2 m c)
theorem W15_arg2 (c : Dev nD) : W15 m c (Proc.devRef .tc main_arg2) = m ((c : Thread nD τ).loc main_arg2) :=
  (StableHlo.after_of_writes_sub hostOps7 _ hostOps7_writes (by decide : main_arg2 ∉ hostOps7_W)).trans (W14_arg2 m c)
theorem W0_arg3 (c : Dev nD) : W0 m c (Proc.devRef .tc main_arg3) = m ((c : Thread nD τ).loc main_arg3) := rfl
theorem W1_arg3 (c : Dev nD) : W1 m c (Proc.devRef .tc main_arg3) = m ((c : Thread nD τ).loc main_arg3) :=
  (StableHlo.after_of_writes_sub hostOps0 _ hostOps0_writes (by decide : main_arg3 ∉ hostOps0_W)).trans (W0_arg3 m c)
theorem W2_arg3 (c : Dev nD) : W2 m c (Proc.devRef .tc main_arg3) = m ((c : Thread nD τ).loc main_arg3) :=
  (W2_of_ne m c main_arg3 (by decide)).trans (W1_arg3 m c)
theorem W3_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_arg3 m c)
theorem W4_arg3 (c : Dev nD) : W4 m c (Proc.devRef .tc main_arg3) = m ((c : Thread nD τ).loc main_arg3) :=
  (W4_of_ne m c main_arg3 (by decide) (by decide)).trans (W3_arg3 m c)
theorem W5_arg3 (c : Dev nD) : W5 m c (Proc.devRef .tc main_arg3) = m ((c : Thread nD τ).loc main_arg3) :=
  (StableHlo.after_of_writes_sub hostOps2 _ hostOps2_writes (by decide : main_arg3 ∉ hostOps2_W)).trans (W4_arg3 m c)
theorem W6_arg3 (c : Dev nD) : W6 m c (Proc.devRef .tc main_arg3) = m ((c : Thread nD τ).loc main_arg3) :=
  (W6_of_ne m c main_arg3 (by decide)).trans (W5_arg3 m c)
theorem W7_arg3 (c : Dev nD) : W7 m c (Proc.devRef .tc main_arg3) = m ((c : Thread nD τ).loc main_arg3) :=
  (StableHlo.after_of_writes_sub hostOps3 _ hostOps3_writes (by decide : main_arg3 ∉ hostOps3_W)).trans (W6_arg3 m c)
theorem W8_arg3 (c : Dev nD) : W8 m c (Proc.devRef .tc main_arg3) = m ((c : Thread nD τ).loc main_arg3) :=
  (W8_of_ne m c main_arg3 (by decide)).trans (W7_arg3 m c)
theorem W9_arg3 (c : Dev nD) : W9 m c (Proc.devRef .tc main_arg3) = m ((c : Thread nD τ).loc main_arg3) :=
  (StableHlo.after_of_writes_sub hostOps4 _ hostOps4_writes (by decide : main_arg3 ∉ hostOps4_W)).trans (W8_arg3 m c)
theorem W10_arg3 (c : Dev nD) : W10 m c (Proc.devRef .tc main_arg3) = m ((c : Thread nD τ).loc main_arg3) :=
  (W10_of_ne m c main_arg3 (by decide)).trans (W9_arg3 m c)
theorem W11_arg3 (c : Dev nD) : W11 m c (Proc.devRef .tc main_arg3) = m ((c : Thread nD τ).loc main_arg3) :=
  (StableHlo.after_of_writes_sub hostOps5 _ hostOps5_writes (by decide : main_arg3 ∉ hostOps5_W)).trans (W10_arg3 m c)
theorem W12_arg3 (c : Dev nD) : W12 m c (Proc.devRef .tc main_arg3) = m ((c : Thread nD τ).loc main_arg3) :=
  (W12_of_ne m c main_arg3 (by decide)).trans (W11_arg3 m c)
theorem W13_arg3 (c : Dev nD) : W13 m c (Proc.devRef .tc main_arg3) = m ((c : Thread nD τ).loc main_arg3) :=
  (StableHlo.after_of_writes_sub hostOps6 _ hostOps6_writes (by decide : main_arg3 ∉ hostOps6_W)).trans (W12_arg3 m c)
theorem W14_arg3 (c : Dev nD) : W14 m c (Proc.devRef .tc main_arg3) = m ((c : Thread nD τ).loc main_arg3) :=
  (W14_of_ne m c main_arg3 (by decide)).trans (W13_arg3 m c)
theorem W15_arg3 (c : Dev nD) : W15 m c (Proc.devRef .tc main_arg3) = m ((c : Thread nD τ).loc main_arg3) :=
  (StableHlo.after_of_writes_sub hostOps7 _ hostOps7_writes (by decide : main_arg3 ∉ hostOps7_W)).trans (W14_arg3 m c)
theorem W0_arg4 (c : Dev nD) : W0 m c (Proc.devRef .tc main_arg4) = m ((c : Thread nD τ).loc main_arg4) := rfl
theorem W1_arg4 (c : Dev nD) : W1 m c (Proc.devRef .tc main_arg4) = m ((c : Thread nD τ).loc main_arg4) :=
  (StableHlo.after_of_writes_sub hostOps0 _ hostOps0_writes (by decide : main_arg4 ∉ hostOps0_W)).trans (W0_arg4 m c)
theorem W2_arg4 (c : Dev nD) : W2 m c (Proc.devRef .tc main_arg4) = m ((c : Thread nD τ).loc main_arg4) :=
  (W2_of_ne m c main_arg4 (by decide)).trans (W1_arg4 m c)
theorem W3_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_arg4 m c)
theorem W4_arg4 (c : Dev nD) : W4 m c (Proc.devRef .tc main_arg4) = m ((c : Thread nD τ).loc main_arg4) :=
  (W4_of_ne m c main_arg4 (by decide) (by decide)).trans (W3_arg4 m c)
theorem W5_arg4 (c : Dev nD) : W5 m c (Proc.devRef .tc main_arg4) = m ((c : Thread nD τ).loc main_arg4) :=
  (StableHlo.after_of_writes_sub hostOps2 _ hostOps2_writes (by decide : main_arg4 ∉ hostOps2_W)).trans (W4_arg4 m c)
theorem W6_arg4 (c : Dev nD) : W6 m c (Proc.devRef .tc main_arg4) = m ((c : Thread nD τ).loc main_arg4) :=
  (W6_of_ne m c main_arg4 (by decide)).trans (W5_arg4 m c)
theorem W7_arg4 (c : Dev nD) : W7 m c (Proc.devRef .tc main_arg4) = m ((c : Thread nD τ).loc main_arg4) :=
  (StableHlo.after_of_writes_sub hostOps3 _ hostOps3_writes (by decide : main_arg4 ∉ hostOps3_W)).trans (W6_arg4 m c)
theorem W8_arg4 (c : Dev nD) : W8 m c (Proc.devRef .tc main_arg4) = m ((c : Thread nD τ).loc main_arg4) :=
  (W8_of_ne m c main_arg4 (by decide)).trans (W7_arg4 m c)
theorem W9_arg4 (c : Dev nD) : W9 m c (Proc.devRef .tc main_arg4) = m ((c : Thread nD τ).loc main_arg4) :=
  (StableHlo.after_of_writes_sub hostOps4 _ hostOps4_writes (by decide : main_arg4 ∉ hostOps4_W)).trans (W8_arg4 m c)
theorem W10_arg4 (c : Dev nD) : W10 m c (Proc.devRef .tc main_arg4) = m ((c : Thread nD τ).loc main_arg4) :=
  (W10_of_ne m c main_arg4 (by decide)).trans (W9_arg4 m c)
theorem W11_arg4 (c : Dev nD) : W11 m c (Proc.devRef .tc main_arg4) = m ((c : Thread nD τ).loc main_arg4) :=
  (StableHlo.after_of_writes_sub hostOps5 _ hostOps5_writes (by decide : main_arg4 ∉ hostOps5_W)).trans (W10_arg4 m c)
theorem W12_arg4 (c : Dev nD) : W12 m c (Proc.devRef .tc main_arg4) = m ((c : Thread nD τ).loc main_arg4) :=
  (W12_of_ne m c main_arg4 (by decide)).trans (W11_arg4 m c)
theorem W13_arg4 (c : Dev nD) : W13 m c (Proc.devRef .tc main_arg4) = m ((c : Thread nD τ).loc main_arg4) :=
  (StableHlo.after_of_writes_sub hostOps6 _ hostOps6_writes (by decide : main_arg4 ∉ hostOps6_W)).trans (W12_arg4 m c)
theorem W14_arg4 (c : Dev nD) : W14 m c (Proc.devRef .tc main_arg4) = m ((c : Thread nD τ).loc main_arg4) :=
  (W14_of_ne m c main_arg4 (by decide)).trans (W13_arg4 m c)
theorem W15_arg4 (c : Dev nD) : W15 m c (Proc.devRef .tc main_arg4) = m ((c : Thread nD τ).loc main_arg4) :=
  (StableHlo.after_of_writes_sub hostOps7 _ hostOps7_writes (by decide : main_arg4 ∉ hostOps7_W)).trans (W14_arg4 m c)
theorem W0_arg5 (c : Dev nD) : W0 m c (Proc.devRef .tc main_arg5) = m ((c : Thread nD τ).loc main_arg5) := rfl
theorem W1_arg5 (c : Dev nD) : W1 m c (Proc.devRef .tc main_arg5) = m ((c : Thread nD τ).loc main_arg5) :=
  (StableHlo.after_of_writes_sub hostOps0 _ hostOps0_writes (by decide : main_arg5 ∉ hostOps0_W)).trans (W0_arg5 m c)
theorem W2_arg5 (c : Dev nD) : W2 m c (Proc.devRef .tc main_arg5) = m ((c : Thread nD τ).loc main_arg5) :=
  (W2_of_ne m c main_arg5 (by decide)).trans (W1_arg5 m c)
theorem W3_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_arg5 m c)
theorem W4_arg5 (c : Dev nD) : W4 m c (Proc.devRef .tc main_arg5) = m ((c : Thread nD τ).loc main_arg5) :=
  (W4_of_ne m c main_arg5 (by decide) (by decide)).trans (W3_arg5 m c)
theorem W5_arg5 (c : Dev nD) : W5 m c (Proc.devRef .tc main_arg5) = m ((c : Thread nD τ).loc main_arg5) :=
  (StableHlo.after_of_writes_sub hostOps2 _ hostOps2_writes (by decide : main_arg5 ∉ hostOps2_W)).trans (W4_arg5 m c)
theorem W6_arg5 (c : Dev nD) : W6 m c (Proc.devRef .tc main_arg5) = m ((c : Thread nD τ).loc main_arg5) :=
  (W6_of_ne m c main_arg5 (by decide)).trans (W5_arg5 m c)
theorem W7_arg5 (c : Dev nD) : W7 m c (Proc.devRef .tc main_arg5) = m ((c : Thread nD τ).loc main_arg5) :=
  (StableHlo.after_of_writes_sub hostOps3 _ hostOps3_writes (by decide : main_arg5 ∉ hostOps3_W)).trans (W6_arg5 m c)
theorem W8_arg5 (c : Dev nD) : W8 m c (Proc.devRef .tc main_arg5) = m ((c : Thread nD τ).loc main_arg5) :=
  (W8_of_ne m c main_arg5 (by decide)).trans (W7_arg5 m c)
theorem W9_arg5 (c : Dev nD) : W9 m c (Proc.devRef .tc main_arg5) = m ((c : Thread nD τ).loc main_arg5) :=
  (StableHlo.after_of_writes_sub hostOps4 _ hostOps4_writes (by decide : main_arg5 ∉ hostOps4_W)).trans (W8_arg5 m c)
theorem W10_arg5 (c : Dev nD) : W10 m c (Proc.devRef .tc main_arg5) = m ((c : Thread nD τ).loc main_arg5) :=
  (W10_of_ne m c main_arg5 (by decide)).trans (W9_arg5 m c)
theorem W11_arg5 (c : Dev nD) : W11 m c (Proc.devRef .tc main_arg5) = m ((c : Thread nD τ).loc main_arg5) :=
  (StableHlo.after_of_writes_sub hostOps5 _ hostOps5_writes (by decide : main_arg5 ∉ hostOps5_W)).trans (W10_arg5 m c)
theorem W12_arg5 (c : Dev nD) : W12 m c (Proc.devRef .tc main_arg5) = m ((c : Thread nD τ).loc main_arg5) :=
  (W12_of_ne m c main_arg5 (by decide)).trans (W11_arg5 m c)
theorem W13_arg5 (c : Dev nD) : W13 m c (Proc.devRef .tc main_arg5) = m ((c : Thread nD τ).loc main_arg5) :=
  (StableHlo.after_of_writes_sub hostOps6 _ hostOps6_writes (by decide : main_arg5 ∉ hostOps6_W)).trans (W12_arg5 m c)
theorem W14_arg5 (c : Dev nD) : W14 m c (Proc.devRef .tc main_arg5) = m ((c : Thread nD τ).loc main_arg5) :=
  (W14_of_ne m c main_arg5 (by decide)).trans (W13_arg5 m c)
theorem W15_arg5 (c : Dev nD) : W15 m c (Proc.devRef .tc main_arg5) = m ((c : Thread nD τ).loc main_arg5) :=
  (StableHlo.after_of_writes_sub hostOps7 _ hostOps7_writes (by decide : main_arg5 ∉ hostOps7_W)).trans (W14_arg5 m c)
theorem W0_arg6 (c : Dev nD) : W0 m c (Proc.devRef .tc main_arg6) = m ((c : Thread nD τ).loc main_arg6) := rfl
theorem W1_arg6 (c : Dev nD) : W1 m c (Proc.devRef .tc main_arg6) = m ((c : Thread nD τ).loc main_arg6) :=
  (StableHlo.after_of_writes_sub hostOps0 _ hostOps0_writes (by decide : main_arg6 ∉ hostOps0_W)).trans (W0_arg6 m c)
theorem W2_arg6 (c : Dev nD) : W2 m c (Proc.devRef .tc main_arg6) = m ((c : Thread nD τ).loc main_arg6) :=
  (W2_of_ne m c main_arg6 (by decide)).trans (W1_arg6 m c)
theorem W3_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_arg6 m c)
theorem W4_arg6 (c : Dev nD) : W4 m c (Proc.devRef .tc main_arg6) = m ((c : Thread nD τ).loc main_arg6) :=
  (W4_of_ne m c main_arg6 (by decide) (by decide)).trans (W3_arg6 m c)
theorem W5_arg6 (c : Dev nD) : W5 m c (Proc.devRef .tc main_arg6) = m ((c : Thread nD τ).loc main_arg6) :=
  (StableHlo.after_of_writes_sub hostOps2 _ hostOps2_writes (by decide : main_arg6 ∉ hostOps2_W)).trans (W4_arg6 m c)
theorem W6_arg6 (c : Dev nD) : W6 m c (Proc.devRef .tc main_arg6) = m ((c : Thread nD τ).loc main_arg6) :=
  (W6_of_ne m c main_arg6 (by decide)).trans (W5_arg6 m c)
theorem W7_arg6 (c : Dev nD) : W7 m c (Proc.devRef .tc main_arg6) = m ((c : Thread nD τ).loc main_arg6) :=
  (StableHlo.after_of_writes_sub hostOps3 _ hostOps3_writes (by decide : main_arg6 ∉ hostOps3_W)).trans (W6_arg6 m c)
theorem W8_arg6 (c : Dev nD) : W8 m c (Proc.devRef .tc main_arg6) = m ((c : Thread nD τ).loc main_arg6) :=
  (W8_of_ne m c main_arg6 (by decide)).trans (W7_arg6 m c)
theorem W9_arg6 (c : Dev nD) : W9 m c (Proc.devRef .tc main_arg6) = m ((c : Thread nD τ).loc main_arg6) :=
  (StableHlo.after_of_writes_sub hostOps4 _ hostOps4_writes (by decide : main_arg6 ∉ hostOps4_W)).trans (W8_arg6 m c)
theorem W10_arg6 (c : Dev nD) : W10 m c (Proc.devRef .tc main_arg6) = m ((c : Thread nD τ).loc main_arg6) :=
  (W10_of_ne m c main_arg6 (by decide)).trans (W9_arg6 m c)
theorem W11_arg6 (c : Dev nD) : W11 m c (Proc.devRef .tc main_arg6) = m ((c : Thread nD τ).loc main_arg6) :=
  (StableHlo.after_of_writes_sub hostOps5 _ hostOps5_writes (by decide : main_arg6 ∉ hostOps5_W)).trans (W10_arg6 m c)
theorem W12_arg6 (c : Dev nD) : W12 m c (Proc.devRef .tc main_arg6) = m ((c : Thread nD τ).loc main_arg6) :=
  (W12_of_ne m c main_arg6 (by decide)).trans (W11_arg6 m c)
theorem W13_arg6 (c : Dev nD) : W13 m c (Proc.devRef .tc main_arg6) = m ((c : Thread nD τ).loc main_arg6) :=
  (StableHlo.after_of_writes_sub hostOps6 _ hostOps6_writes (by decide : main_arg6 ∉ hostOps6_W)).trans (W12_arg6 m c)
theorem W14_arg6 (c : Dev nD) : W14 m c (Proc.devRef .tc main_arg6) = m ((c : Thread nD τ).loc main_arg6) :=
  (W14_of_ne m c main_arg6 (by decide)).trans (W13_arg6 m c)
theorem W15_arg6 (c : Dev nD) : W15 m c (Proc.devRef .tc main_arg6) = m ((c : Thread nD τ).loc main_arg6) :=
  (StableHlo.after_of_writes_sub hostOps7 _ hostOps7_writes (by decide : main_arg6 ∉ hostOps7_W)).trans (W14_arg6 m c)

/-- THE FRAME, at any float instance: every weakly fair execution of the program from any memory with zero counters ends,
    nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W15_arg0 m c),
      (h c _ (mem_uc main_arg1 (by decide))).trans (W15_arg1 m c),
      (h c _ (mem_uc main_arg2 (by decide))).trans (W15_arg2 m c),
      (h c _ (mem_uc main_arg3 (by decide))).trans (W15_arg3 m c),
      (h c _ (mem_uc main_arg4 (by decide))).trans (W15_arg4 m c),
      (h c _ (mem_uc main_arg5 (by decide))).trans (W15_arg5 m c),
      (h c _ (mem_uc main_arg6 (by decide))).trans (W15_arg6 m c)⟩)
    (run_all m ρ)

/-- The same run, keeping also what the result array ends holding: the last boundary's contents. -/
theorem run_value : θ_run defs (onTc (τ := τ) (main (F := F))) ⟨m, fun _ => 0, ρ⟩ (fun r => ∀ c : Dev nD,
      r.2.mem ((c.tc : Thread nD τ).loc main_v57) = W15 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v57 (by decide)),
      (h c _ (mem_uc main_arg0 (by decide))).trans (W15_arg0 m c),
      (h c _ (mem_uc main_arg1 (by decide))).trans (W15_arg1 m c),
      (h c _ (mem_uc main_arg2 (by decide))).trans (W15_arg2 m c),
      (h c _ (mem_uc main_arg3 (by decide))).trans (W15_arg3 m c),
      (h c _ (mem_uc main_arg4 (by decide))).trans (W15_arg4 m c),
      (h c _ (mem_uc main_arg5 (by decide))).trans (W15_arg5 m c),
      (h c _ (mem_uc main_arg6 (by decide))).trans (W15_arg6 m c)⟩)
    (run_all m ρ)

end Cert.KernelIdeal.Frame

end
-- ==== Proof.LayerSpec.lean ====
/-
  The four dense steps of the propagation, as functions of whole arrays read index by index over
  the extended reals.
  * scaling the gathered edge rows: entry (e, d) of the result is row e's entry d times edge e's
    weight, the weights kept as a column [edges, 1];
  * the residual blend: a fifth of the base table plus four fifths of the propagated table (the two
    constants are the single-precision words the programs carry; both programs carry the same words,
    so they are never evaluated);
  * the running sum: what was accumulated so far plus the blend;
  * the pairwise score: entry r is the sum over the 64 features of the products of the two gathered
    rows r, kept as a column [pairs, 1].
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- One fifth and four fifths, as the single-precision words both programs carry. -/
abbrev cFifth : EReal := Ideal.ofBits .f32 0x3E4CCCCD#32
abbrev cFourFifths : EReal := Ideal.ofBits .f32 0x3F4CCCCD#32

/-- Row `e` of the gathered table times edge `e`'s weight. -/
def scaleRows (x : FVec Ideal ⟨2, ![3200000, 64]⟩ .f32) (v : FVec Ideal ⟨2, ![3200000, 1]⟩ .f32) :
    FVec Ideal ⟨2, ![3200000, 64]⟩ .f32 :=
  fun i => x i * v (ix2 (⟨(i 0).val, idx2_lt0 i⟩ : Fin 3200000) (0 : Fin 1))

/-- The residual blend of the base table and the propagated table. -/
def blendCur (base s : FVec Ideal ⟨2, ![200000, 64]⟩ .f32) : FVec Ideal ⟨2, ![200000, 64]⟩ .f32 :=
  fun i => cFifth * base i + cFourFifths * s i

/-- The running sum after a layer. -/
def blendOut (acc base s : FVec Ideal ⟨2, ![200000, 64]⟩ .f32) : FVec Ideal ⟨2, ![200000, 64]⟩ .f32 :=
  fun i => acc i + blendCur base s i

/-- The pairwise scores as a column: row `r`'s entry is the dot product of the two gathered rows `r`. -/
def rowDot (u w : FVec Ideal ⟨2, ![500000, 64]⟩ .f32) : FVec Ideal ⟨2, ![500000, 1]⟩ .f32 :=
  fun i => ∑ k : Fin 64, u (ix2 (⟨(i 0).val, idx2_lt0 i⟩ : Fin 500000) k) * w (ix2 (⟨(i 0).val, idx2_lt0 i⟩ : Fin 500000) k)

end Cert.Spec

end
-- ==== Proof.RefBridge.lean ====
/-
  Where the reference spells a dense step differently from the specification.
  * It scales the gathered rows by the weights broadcast first to a column and then across the 64
    features; entry (e, d) of that broadcast is weight e, so the product is the rows scaled by the
    column of weights.
  * It blends with the two constants broadcast to whole tables; a broadcast constant reads the
    constant everywhere.
  * It sums the products of the two gathered tables over the feature axis from zero; that sum is
    the row's dot product.
  Nothing here needs the inputs finite: no law of the extended reals beyond `0 + x = x` is used.
-/
import proofs.«166718_j26491358281938_2_alg».proof.Proof.Gen.ReferenceIdeal.Read
import proofs.«166718_j26491358281938_2_alg».proof.Proof.LayerSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The weights broadcast to [edges, 64] times the gathered rows is the rows scaled by any column that holds the
    weights. -/
theorem scale_eq (x : (⟨S3200000x64, .f32⟩ : BufTy).Contents (Elt Ideal)) (vals : (⟨S3200000, .f32⟩ : BufTy).Contents (Elt Ideal))
    (v2 : (⟨S3200000x1, .f32⟩ : BufTy).Contents (Elt Ideal)) (hv : ∀ r : Fin 3200000, v2 (ix2 r (0 : Fin 1)) = vals (ix1 r)) :
    Cert.Spec.scaleRows x v2 = mulf x (val_main_v9 (F := Ideal) vals) := by
  funext i
  show x i * v2 (ix2 (⟨(i 0).val, idx2_lt0 i⟩ : Fin 3200000) (0 : Fin 1)) = x i * val_main_v9 (F := Ideal) vals i
  rw [val_main_v9_apply, val_main_v8_apply, hv]
  exact congrArg (fun j => x i * vals j) (funext fun a => by match a with | ⟨0, _⟩ => rfl)

/-- The second and third layers broadcast the weights by the same two steps. -/
theorem v28_eq (vals : (⟨S3200000, .f32⟩ : BufTy).Contents (Elt Ideal)) : val_main_v28 (F := Ideal) vals = val_main_v9 (F := Ideal) vals := rfl
theorem v47_eq (vals : (⟨S3200000, .f32⟩ : BufTy).Contents (Elt Ideal)) : val_main_v47 (F := Ideal) vals = val_main_v9 (F := Ideal) vals := rfl

/-- The blend with broadcast constants is the blend. -/
theorem blendCur_eq (b s : (⟨S200000x64, .f32⟩ : BufTy).Contents (Elt Ideal)) :
    Cert.Spec.blendCur b s = addf (mulf (val_main_v14 (F := Ideal)) b) (mulf (val_main_v16 (F := Ideal)) s) := by
  funext i
  show Cert.Spec.cFifth * b i + Cert.Spec.cFourFifths * s i = val_main_v14 (F := Ideal) i * b i + val_main_v16 (F := Ideal) i * s i
  rw [val_main_v14_apply, val_main_cst_1_apply, val_main_v16_apply, val_main_cst_2_apply]
  rfl

theorem v33_eq : val_main_v33 (F := Ideal) = val_main_v14 (F := Ideal) := rfl
theorem v35_eq : val_main_v35 (F := Ideal) = val_main_v16 (F := Ideal) := rfl
theorem v52_eq : val_main_v52 (F := Ideal) = val_main_v14 (F := Ideal) := rfl
theorem v54_eq : val_main_v54 (F := Ideal) = val_main_v16 (F := Ideal) := rfl

/-- The running sum is what was accumulated plus the blend. -/
theorem blendOut_eq (acc b s : (⟨S200000x64, .f32⟩ : BufTy).Contents (Elt Ideal)) :
    Cert.Spec.blendOut acc b s = addf acc (Cert.Spec.blendCur b s) := rfl

/-- A flat vector that holds the column of row dot products is the reference's sum of the products over the
    feature axis. -/
theorem dot_eq (x0 x1 : (⟨S100000x64, .f32⟩ : BufTy).Contents (Elt Ideal)) (x2 x3 : (⟨S3200000, .i32⟩ : BufTy).Contents (Elt Ideal))
    (x4 : (⟨S3200000, .f32⟩ : BufTy).Contents (Elt Ideal)) (x5 x6 : (⟨S500000, .i32⟩ : BufTy).Contents (Elt Ideal))
    (y : (⟨S500000, .f32⟩ : BufTy).Contents (Elt Ideal))
    (hy : ∀ r : Fin 500000, y (ix1 r) = Cert.Spec.rowDot (val_main_v68 (F := Ideal) x0 x1 x2 x3 x4 x5) (val_main_v75 (F := Ideal) x0 x1 x2 x3 x4 x6) (ix2 r (0 : Fin 1))) :
    y = val_main_v77 (F := Ideal) x0 x1 x2 x3 x4 x5 x6 := by
  funext i
  obtain ⟨r, rfl⟩ : ∃ r : Fin 500000, i = ix1 r := ⟨i 0, eq_ix1 i⟩
  rw [hy, val_main_v77_apply, val_main_cst_18_apply, Ideal.ofBits_def, Ideal.ofBits_zero_f32, zero_add]
  unfold Cert.Spec.rowDot
  refine Finset.sum_congr rfl fun k _ => ?_
  rw [val_main_v76_apply]
  show _ = val_main_v68 (F := Ideal) x0 x1 x2 x3 x4 x5 (idx_main_v77 (ix1 r) k) * val_main_v75 (F := Ideal) x0 x1 x2 x3 x4 x6 (idx_main_v77 (ix1 r) k)
  have e : idx_main_v77 (ix1 r) k = ix2 (⟨((ix2 r (0 : Fin 1) : (⟨2, ![500000, 1]⟩ : Shape).Idx) 0).val, idx2_lt0 _⟩ : Fin 500000) k :=
    funext fun a => by match a with | ⟨0, _⟩ => rfl | ⟨1, _⟩ => rfl
  rw [e]

end Cert.ReferenceIdeal.RefValue

end
-- ==== Proof.ColumnReshape.lean ====
/-
  A flat vector reshaped to a one-column table has the vector's entry r at (r, 0); a one-column table
  reshaped to a flat vector has the table's entry (r, 0) at r. Both reshapes keep the row-major position,
  and the row-major position of (r, 0) in a table of one column is r.
-/
import Idealize.ShloMosaic.Lib.Pipeline.Value
import Idealize.ShloMosaic.Lib.ValueIdx
import Idealize.ShloMosaic.Lib.ValueLayout

namespace Cert.Spec

open Idealize.ShloMosaic Idealize.ShloMosaic.ValueIdx

/-- Entry (r, 0) of the one-column table made from a flat vector is the vector's entry r. -/
theorem column_of_flat {α : Type} (x : (⟨1, ![3200000]⟩ : Shape).Idx → α)
    (h : (⟨1, ![3200000]⟩ : Shape).ShapeCasts ⟨2, ![3200000, 1]⟩) (r : Fin 3200000) :
    shapeCast ⟨2, ![3200000, 1]⟩ x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

/-- Entry r of the flat vector made from a one-column table is the table's entry (r, 0). -/
theorem flat_of_column {α : Type} (y : (⟨2, ![500000, 1]⟩ : Shape).Idx → α)
    (h : (⟨2, ![500000, 1]⟩ : Shape).ShapeCasts ⟨1, ![500000]⟩) (r : Fin 500000) :
    shapeCast ⟨1, ![500000]⟩ y h (ix1 r) = y (ix2 r (0 : Fin 1)) := by
  refine shapeCast_apply y h (ix1 r) (ix2 r (0 : Fin 1)) ?_
  rw [Shape.rowMajor_val_one, Shape.rowMajor_val_two]
  show r.val * 1 + 0 = r.val
  omega

end Cert.Spec
-- ==== Proof.IdealScale0Value.lean ====
import proofs.«166718_j26491358281938_2_alg».proof.Proof.IdealScale0
import proofs.«166718_j26491358281938_2_alg».proof.Proof.LayerSpec
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents when the region is entered, over the extended reals
variable (V : (c : Dev nD) → (b : Ref sig .tc) → Buf (Elt Ideal) ((c : Thread nD τ).loc b))

/-! # The scale region 0: its result array is `Cert.Spec.scaleRows` of its two argument arrays -/

/-- The zero offsets of a whole-block access. -/
theorem zero_off0 : (![0, 0] : Fin 2 → Nat) = fun _ => 0 := funext fun a => by fin_cases a <;> rfl

/-- The product stored at an index of a block: the row's entry times the row's weight. -/
theorem scale_pay0_apply (x0 : Vec Ideal S8000x64 .f32) (x1 : Vec Ideal S8000x1 .f32) (j : S8000x64.Idx) :
    k0_pay1 x0 x1 j = x0 j * x1 (ix2 (⟨(j 0).val, idx2_lt0 j⟩ : Fin 8000) (0 : Fin 1)) := by
  unfold k0_pay1
  dsimp only
  rw [mulf_apply, shapeCast_self, shapeCast_self]
  congr 1
  refine broadcastTo_apply x1 broadcasts_S8000x1_S8000x64 j (ix2 (⟨(j 0).val, idx2_lt0 j⟩ : Fin 8000) (0 : Fin 1)) fun a => ?_
  match a with
  | ⟨0, _⟩ => rfl
  | ⟨1, _⟩ => rfl

/-- So a block whose entries are those of the arrays `A0`, `A1` at the matching rows stores the scaled rows' entries. -/
theorem scale_block0 (A0 : FVec Ideal S3200000x64 .f32) (A1 : FVec Ideal S3200000x1 .f32)
    (x0 : Vec Ideal S8000x64 .f32) (x1 : Vec Ideal S8000x1 .f32) (j : S8000x64.Idx) (i : S3200000x64.Idx)
    (h0 : x0 j = A0 i)
    (h1 : x1 (ix2 (⟨(j 0).val, idx2_lt0 j⟩ : Fin 8000) (0 : Fin 1)) = A1 (ix2 (⟨(i 0).val, idx2_lt0 i⟩ : Fin 3200000) (0 : Fin 1))) :
    k0_pay1 x0 x1 j = Cert.Spec.scaleRows A0 A1 i := by
  rw [scale_pay0_apply, h0, h1]
  rfl

/-- The printed index maps, decided over the grid: every window's block at point `t` is block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled rows of the argument arrays as the region finds them. -/
theorem flushed0_2_eq (c : Dev nD) (t : Fin cfg0.N) :
    (dat0 (F := Ideal) V c).flushed 2 t = ((cfg0.win 2).blk t).view.read (Elt Ideal)
      (Cert.Spec.scaleRows (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off0]
  simp only [View.ld_unit_zero (S := S8000x64) zero_off0, View.ld_unit_zero (S := S8000x1) zero_off0]
  obtain ⟨e00, e01, e10, e11, e20, e21⟩ := idx_facts0 t
  funext j
  show k0_pay1 (iblk0 V c 0 t) (iblk0 V c 1 t) j
    = Cert.Spec.scaleRows (V c (Pipeline.arrRef spec0 0)) (V c (Pipeline.arrRef spec0 1)) (((cfg0.win 2).blk t).view.emb j)
  have hj0 : (j 0).val < 8000 := (j 0).isLt
  have hj1 : (j 1).val < 64 := (j 1).isLt
  refine scale_block0 _ _ _ _ j _ ?_ ?_
  · refine congrArg (V c main_v8) (?_ : ((cfg0.win 0).blk t).view.emb j = ((cfg0.win 2).blk t).view.emb j)
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  · refine congrArg (V c main_v1) (?_ : ((cfg0.win 1).blk t).view.emb (ix2 (⟨(j 0).val, idx2_lt0 j⟩ : Fin 8000) (0 : Fin 1))
      = ix2 (⟨((((cfg0.win 2).blk t).view.emb j) 0).val, idx2_lt0 _⟩ : Fin 3200000) (0 : Fin 1))
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega

/-- An index of the array is in point `t`'s block iff each coordinate is in the block's range on its axis. -/
theorem mem_blk0_2 (t : Fin cfg0.N) (i : S3200000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v9).slice (win0_2.rect t)).set ↔ _
  rw [View.set_slice_whole, Rect.mem_set_unit]
  exact Iff.rfl

/-- Row `r` of the array is in the block of point `r / 8000`, and every point writes back: the blocks cover the array. -/
theorem covered0_2 (i : S3200000x64.Idx) :
    ∃ t : Fin cfg0.N, (cfg0.win 2).flush t = true ∧ i ∈ ((cfg0.win 2).blk t).view.set := by
  have hi0 : (i 0).val < 3200000 := idx2_lt0 i
  have hi1 : (i 1).val < 64 := idx2_lt1 i
  have hN : cfg0.N = 400 := N_0
  have ht : (i 0).val / 8000 < cfg0.N := by rw [hN]; omega
  obtain ⟨-, -, -, -, e20, e21⟩ := idx_facts0 ⟨(i 0).val / 8000, ht⟩
  refine ⟨⟨(i 0).val / 8000, ht⟩, flush0_2 _, ?_⟩
  rw [mem_blk0_2]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    rw [e20]; show (i 0).val / 8000 * 8000 ≤ (i 0).val ∧ (i 0).val < (i 0).val / 8000 * 8000 + 8000; omega
  | ⟨1, _⟩ =>
    show win0_2.index ⟨(i 0).val / 8000, ht⟩ (1 : Fin 2) * 64 ≤ (i 1).val ∧ (i 1).val < win0_2.index ⟨(i 0).val / 8000, ht⟩ (1 : Fin 2) * 64 + 64
    rw [e21]; omega

/-- The result array after the region: the scaled rows of its two argument arrays as the region finds them. -/
theorem final0_2 (c : Dev nD) : (dat0 (F := Ideal) V c).arrAt 2 cfg0.N
    = Cert.Spec.scaleRows (V c (Pipeline.arrRef spec0 0)) (V c (Pipeline.arrRef spec0 1)) :=
  (dat0 (F := Ideal) V c).arrAt_eq_of_cover 2 _ (fun t _ => flushed0_2_eq V c t) (covered0_2)

end Cert.KernelIdeal.Frame

end
-- ==== Proof.IdealScale2Value.lean ====
import proofs.«166718_j26491358281938_2_alg».proof.Proof.IdealScale2
import proofs.«166718_j26491358281938_2_alg».proof.Proof.LayerSpec
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents when the region is entered, over the extended reals
variable (V : (c : Dev nD) → (b : Ref sig .tc) → Buf (Elt Ideal) ((c : Thread nD τ).loc b))

/-! # The scale region 2: its result array is `Cert.Spec.scaleRows` of its two argument arrays -/

/-- The zero offsets of a whole-block access. -/
theorem zero_off2 : (![0, 0] : Fin 2 → Nat) = fun _ => 0 := funext fun a => by fin_cases a <;> rfl

/-- The product stored at an index of a block: the row's entry times the row's weight. -/
theorem scale_pay2_apply (x0 : Vec Ideal S8000x64 .f32) (x1 : Vec Ideal S8000x1 .f32) (j : S8000x64.Idx) :
    k2_pay1 x0 x1 j = x0 j * x1 (ix2 (⟨(j 0).val, idx2_lt0 j⟩ : Fin 8000) (0 : Fin 1)) := by
  unfold k2_pay1
  dsimp only
  rw [mulf_apply, shapeCast_self, shapeCast_self]
  congr 1
  refine broadcastTo_apply x1 broadcasts_S8000x1_S8000x64 j (ix2 (⟨(j 0).val, idx2_lt0 j⟩ : Fin 8000) (0 : Fin 1)) fun a => ?_
  match a with
  | ⟨0, _⟩ => rfl
  | ⟨1, _⟩ => rfl

/-- So a block whose entries are those of the arrays `A0`, `A1` at the matching rows stores the scaled rows' entries. -/
theorem scale_block2 (A0 : FVec Ideal S3200000x64 .f32) (A1 : FVec Ideal S3200000x1 .f32)
    (x0 : Vec Ideal S8000x64 .f32) (x1 : Vec Ideal S8000x1 .f32) (j : S8000x64.Idx) (i : S3200000x64.Idx)
    (h0 : x0 j = A0 i)
    (h1 : x1 (ix2 (⟨(j 0).val, idx2_lt0 j⟩ : Fin 8000) (0 : Fin 1)) = A1 (ix2 (⟨(i 0).val, idx2_lt0 i⟩ : Fin 3200000) (0 : Fin 1))) :
    k2_pay1 x0 x1 j = Cert.Spec.scaleRows A0 A1 i := by
  rw [scale_pay2_apply, h0, h1]
  rfl

/-- The printed index maps, decided over the grid: every window's block at point `t` is block row `t`, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled rows of the argument arrays as the region finds them. -/
theorem flushed2_2_eq (c : Dev nD) (t : Fin cfg2.N) :
    (dat2 (F := Ideal) V c).flushed 2 t = ((cfg2.win 2).blk t).view.read (Elt Ideal)
      (Cert.Spec.scaleRows (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off2]
  simp only [View.ld_unit_zero (S := S8000x64) zero_off2, View.ld_unit_zero (S := S8000x1) zero_off2]
  obtain ⟨e00, e01, e10, e11, e20, e21⟩ := idx_facts2 t
  funext j
  show k2_pay1 (iblk2 V c 0 t) (iblk2 V c 1 t) j
    = Cert.Spec.scaleRows (V c (Pipeline.arrRef spec2 0)) (V c (Pipeline.arrRef spec2 1)) (((cfg2.win 2).blk t).view.emb j)
  have hj0 : (j 0).val < 8000 := (j 0).isLt
  have hj1 : (j 1).val < 64 := (j 1).isLt
  refine scale_block2 _ _ _ _ j _ ?_ ?_
  · refine congrArg (V c main_v20) (?_ : ((cfg2.win 0).blk t).view.emb j = ((cfg2.win 2).blk t).view.emb j)
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  · refine congrArg (V c main_v1) (?_ : ((cfg2.win 1).blk t).view.emb (ix2 (⟨(j 0).val, idx2_lt0 j⟩ : Fin 8000) (0 : Fin 1))
      = ix2 (⟨((((cfg2.win 2).blk t).view.emb j) 0).val, idx2_lt0 _⟩ : Fin 3200000) (0 : Fin 1))
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 1 + 1 * 0 = 0; omega

/-- An index of the array is in point `t`'s block iff each coordinate is in the block's range on its axis. -/
theorem mem_blk2_2 (t : Fin cfg2.N) (i : S3200000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v21).slice (win2_2.rect t)).set ↔ _
  rw [View.set_slice_whole, Rect.mem_set_unit]
  exact Iff.rfl

/-- Row `r` of the array is in the block of point `r / 8000`, and every point writes back: the blocks cover the array. -/
theorem covered2_2 (i : S3200000x64.Idx) :
    ∃ t : Fin cfg2.N, (cfg2.win 2).flush t = true ∧ i ∈ ((cfg2.win 2).blk t).view.set := by
  have hi0 : (i 0).val < 3200000 := idx2_lt0 i
  have hi1 : (i 1).val < 64 := idx2_lt1 i
  have hN : cfg2.N = 400 := N_2
  have ht : (i 0).val / 8000 < cfg2.N := by rw [hN]; omega
  obtain ⟨-, -, -, -, e20, e21⟩ := idx_facts2 ⟨(i 0).val / 8000, ht⟩
  refine ⟨⟨(i 0).val / 8000, ht⟩, flush2_2 _, ?_⟩
  rw [mem_blk2_2]
  intro a
  match a with
  | ⟨0, _⟩ =>
    show win2_2.index ⟨(i 0).val / 8000, ht⟩ (0 : Fin 2) * 8000 ≤ (i 0).val ∧ (i 0).val < win2_2.index ⟨(i 0).val / 8000, ht⟩ (0 : Fin 2) * 8000 + 8000
    rw [e20]; show (i 0).val / 8000 * 8000 ≤ (i 0).val ∧ (i 0).val < (i 0).val / 8000 * 8000 + 8000; omega
  | ⟨1, _⟩ =>
    show win2_2.index ⟨(i 0).val / 8000, ht⟩ (1 : Fin 2) * 64 ≤ (i 1).val ∧ (i 1).val < win2_2.index ⟨(i 0).val / 8000, ht⟩ (1 : Fin 2) * 64 + 64
    rw [e21]; omega

/-- The result array after the region: the scaled rows of its two argument arrays as the region finds them. -/
theorem final2_2 (c : Dev nD) : (dat2 (F := Ideal) V c).arrAt 2 cfg2.N
    = Cert.Spec.scaleRows (V c (Pipeline.arrRef spec2 0)) (V c (Pipeline.arrRef spec2 1)) :=
  (dat2 (F := Ideal) V c).arrAt_eq_of_cover 2 _ (fun t _ => flushed2_2_eq V c t) (covered2_2)

end Cert.KernelIdeal.Frame

end
-- ==== Proof.IdealScale4Value.lean ====
import proofs.«166718_j26491358281938_2_alg».proof.Proof.IdealScale4
import proofs.«166718_j26491358281938_2_alg».proof.Proof.LayerSpec
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents when the region is entered, over the extended reals
variable (V : (c : Dev nD) → (b : Ref sig .tc) → Buf (Elt Ideal) ((c : Thread nD τ).loc b))

/-! # The scale region 4: its result array is `Cert.Spec.scaleRows` of its two argument arrays -/

/-- The zero offsets of a whole-block access. -/
theorem zero_off4 : (![0, 0] : Fin 2 → Nat) = fun _ => 0 := funext fun a => by fin_cases a <;> rfl

/-- The product stored at an index of a block: the row's entry times the row's weight. -/
theorem scale_pay4_apply (x0 : Vec Ideal S8000x64 .f32) (x1 : Vec Ideal S8000x1 .f32) (j : S8000x64.Idx) :
    k4_pay1 x0 x1 j = x0 j * x1 (ix2 (⟨(j 0).val, idx2_lt0 j⟩ : Fin 8000) (0 : Fin 1)) := by
  unfold k4_pay1
  dsimp only
  rw [mulf_apply, shapeCast_self, shapeCast_self]
  congr 1
  refine broadcastTo_apply x1 broadcasts_S8000x1_S8000x64 j (ix2 (⟨(j 0).val, idx2_lt0 j⟩ : Fin 8000) (0 : Fin 1)) fun a => ?_
  match a with
  | ⟨0, _⟩ => rfl
  | ⟨1, _⟩ => rfl

/-- So a block whose entries are those of the arrays `A0`, `A1` at the matching rows stores the scaled rows' entries. -/
theorem scale_block4 (A0 : FVec Ideal S3200000x64 .f32) (A1 : FVec Ideal S3200000x1 .f32)
    (x0 : Vec Ideal S8000x64 .f32) (x1 : Vec Ideal S8000x1 .f32) (j : S8000x64.Idx) (i : S3200000x64.Idx)
    (h0 : x0 j = A0 i)
    (h1 : x1 (ix2 (⟨(j 0).val, idx2_lt0 j⟩ : Fin 8000) (0 : Fin 1)) = A1 (ix2 (⟨(i 0).val, idx2_lt0 i⟩ : Fin 3200000) (0 : Fin 1))) :
    k4_pay1 x0 x1 j = Cert.Spec.scaleRows A0 A1 i := by
  rw [scale_pay4_apply, h0, h1]
  rfl

/-- The printed index maps, decided over the grid: every window's block at point `t` is block row `t`, block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled rows of the argument arrays as the region finds them. -/
theorem flushed4_2_eq (c : Dev nD) (t : Fin cfg4.N) :
    (dat4 (F := Ideal) V c).flushed 2 t = ((cfg4.win 2).blk t).view.read (Elt Ideal)
      (Cert.Spec.scaleRows (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_off4]
  simp only [View.ld_unit_zero (S := S8000x64) zero_off4, View.ld_unit_zero (S := S8000x1) zero_off4]
  obtain ⟨e00, e01, e10, e11, e20, e21⟩ := idx_facts4 t
  funext j
  show k4_pay1 (iblk4 V c 0 t) (iblk4 V c 1 t) j
    = Cert.Spec.scaleRows (V c (Pipeline.arrRef spec4 0)) (V c (Pipeline.arrRef spec4 1)) (((cfg4.win 2).blk t).view.emb j)
  have hj0 : (j 0).val < 8000 := (j 0).isLt
  have hj1 : (j 1).val < 64 := (j 1).isLt
  refine scale_block4 _ _ _ _ j _ ?_ ?_
  · refine congrArg (V c main_v32) (?_ : ((cfg4.win 0).blk t).view.emb j = ((cfg4.win 2).blk t).view.emb j)
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 64 + 1 * (j 1).val = win4_2.index t (1 : Fin 2) * 64 + 1 * (j 1).val; omega
  · refine congrArg (V c main_v1) (?_ : ((cfg4.win 1).blk t).view.emb (ix2 (⟨(j 0).val, idx2_lt0 j⟩ : Fin 8000) (0 : Fin 1))
      = ix2 (⟨((((cfg4.win 2).blk t).view.emb j) 0).val, idx2_lt0 _⟩ : Fin 3200000) (0 : Fin 1))
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega

/-- An index of the array is in point `t`'s block iff each coordinate is in the block's range on its axis. -/
theorem mem_blk4_2 (t : Fin cfg4.N) (i : S3200000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v33).slice (win4_2.rect t)).set ↔ _
  rw [View.set_slice_whole, Rect.mem_set_unit]
  exact Iff.rfl

/-- Row `r` of the array is in the block of point `r / 8000`, and every point writes back: the blocks cover the array. -/
theorem covered4_2 (i : S3200000x64.Idx) :
    ∃ t : Fin cfg4.N, (cfg4.win 2).flush t = true ∧ i ∈ ((cfg4.win 2).blk t).view.set := by
  have hi0 : (i 0).val < 3200000 := idx2_lt0 i
  have hi1 : (i 1).val < 64 := idx2_lt1 i
  have hN : cfg4.N = 400 := N_4
  have ht : (i 0).val / 8000 < cfg4.N := by rw [hN]; omega
  obtain ⟨-, -, -, -, e20, e21⟩ := idx_facts4 ⟨(i 0).val / 8000, ht⟩
  refine ⟨⟨(i 0).val / 8000, ht⟩, flush4_2 _, ?_⟩
  rw [mem_blk4_2]
  intro a
  match a with
  | ⟨0, _⟩ =>
    show win4_2.index ⟨(i 0).val / 8000, ht⟩ (0 : Fin 2) * 8000 ≤ (i 0).val ∧ (i 0).val < win4_2.index ⟨(i 0).val / 8000, ht⟩ (0 : Fin 2) * 8000 + 8000
    rw [e20]; show (i 0).val / 8000 * 8000 ≤ (i 0).val ∧ (i 0).val < (i 0).val / 8000 * 8000 + 8000; omega
  | ⟨1, _⟩ =>
    show win4_2.index ⟨(i 0).val / 8000, ht⟩ (1 : Fin 2) * 64 ≤ (i 1).val ∧ (i 1).val < win4_2.index ⟨(i 0).val / 8000, ht⟩ (1 : Fin 2) * 64 + 64
    rw [e21]; omega

/-- The result array after the region: the scaled rows of its two argument arrays as the region finds them. -/
theorem final4_2 (c : Dev nD) : (dat4 (F := Ideal) V c).arrAt 2 cfg4.N
    = Cert.Spec.scaleRows (V c (Pipeline.arrRef spec4 0)) (V c (Pipeline.arrRef spec4 1)) :=
  (dat4 (F := Ideal) V c).arrAt_eq_of_cover 2 _ (fun t _ => flushed4_2_eq V c t) (covered4_2)

end Cert.KernelIdeal.Frame

end
-- ==== Proof.IdealBlend1Value.lean ====
import proofs.«166718_j26491358281938_2_alg».proof.Proof.IdealBlend1
import proofs.«166718_j26491358281938_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

/-! Region 1, the value side over the extended reals: the two result arrays after the region, each as one function of
    the arrays the region reads, index by index. Point `t` of the grid reads and writes rows `4000 t … 4000 t + 3999`
    of every one of the five [200000, 64] arrays, so what it writes back is those rows of the blend of the whole
    arrays, and the fifty blocks cover the arrays. -/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-! ## The payloads at an index -/

/-- The first payload at an index: a fifth of the first block's element plus four fifths of the second's (the casts are
    of a shape to itself). -/
theorem pay1_1_apply (x0 x1 : Vec Ideal S4000x64 .f32) (j : S4000x64.Idx) :
    k1_pay1 x0 x1 j = Cert.Spec.cFifth * x0 j + Cert.Spec.cFourFifths * x1 j := by
  unfold k1_pay1
  simp only [shapeCast_self]
  rfl

/-- The second payload at an index: the third block's element plus the first payload's. -/
theorem pay1_2_apply (x0 x1 x2 : Vec Ideal S4000x64 .f32) (j : S4000x64.Idx) :
    k1_pay2 x0 x1 x2 j = x2 j + (Cert.Spec.cFifth * x0 j + Cert.Spec.cFourFifths * x1 j) := by
  unfold k1_pay2
  simp only [shapeCast_self]
  exact congrArg (x2 j + ·) (pay1_1_apply x0 x1 j)

/-- The running sum at an index, its three arrays read at indices that are all that index. -/
theorem blendOut_at1 (acc base s : FVec Ideal ⟨2, ![200000, 64]⟩ .f32) {i0 i1 i2 i : (⟨2, ![200000, 64]⟩ : Shape).Idx}
    (h0 : i0 = i) (h1 : i1 = i) (h2 : i2 = i) :
    acc i2 + (Cert.Spec.cFifth * base i0 + Cert.Spec.cFourFifths * s i1) = Cert.Spec.blendOut acc base s i := by
  subst h0 h1 h2; rfl

/-! ## The index maps -/

/-- The printed index maps, decided over the grid: every window's block at point `t` is block `(t, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0) :=
  (by decide +kernel : ∀ t : Fin grid1.N, _)

/-- So an input window's block sits in its array where output window 3's sits in its own. -/
theorem emb1_0 (t : Fin cfg1.N) (j : S4000x64.Idx) : ((cfg1.win 0).blk t).view.emb j = ((cfg1.win 3).blk t).view.emb j := by
  obtain ⟨⟨a0, a1⟩, -, -, ⟨d0, d1⟩, -⟩ := idx_facts1 t
  funext a; apply Fin.ext
  match a with
  | ⟨0, _⟩ => show win1_0.index t (0 : Fin 2) * 4000 + 1 * (j 0).val = win1_3.index t (0 : Fin 2) * 4000 + 1 * (j 0).val; omega
  | ⟨1, _⟩ => show win1_0.index t (1 : Fin 2) * 64 + 1 * (j 1).val = win1_3.index t (1 : Fin 2) * 64 + 1 * (j 1).val; omega
theorem emb1_1 (t : Fin cfg1.N) (j : S4000x64.Idx) : ((cfg1.win 1).blk t).view.emb j = ((cfg1.win 3).blk t).view.emb j := by
  obtain ⟨-, ⟨a0, a1⟩, -, ⟨d0, d1⟩, -⟩ := idx_facts1 t
  funext a; apply Fin.ext
  match a with
  | ⟨0, _⟩ => show win1_1.index t (0 : Fin 2) * 4000 + 1 * (j 0).val = win1_3.index t (0 : Fin 2) * 4000 + 1 * (j 0).val; omega
  | ⟨1, _⟩ => show win1_1.index t (1 : Fin 2) * 64 + 1 * (j 1).val = win1_3.index t (1 : Fin 2) * 64 + 1 * (j 1).val; omega
theorem emb1_2 (t : Fin cfg1.N) (j : S4000x64.Idx) : ((cfg1.win 2).blk t).view.emb j = ((cfg1.win 3).blk t).view.emb j := by
  obtain ⟨-, -, ⟨a0, a1⟩, ⟨d0, d1⟩, -⟩ := idx_facts1 t
  funext a; apply Fin.ext
  match a with
  | ⟨0, _⟩ => show win1_2.index t (0 : Fin 2) * 4000 + 1 * (j 0).val = win1_3.index t (0 : Fin 2) * 4000 + 1 * (j 0).val; omega
  | ⟨1, _⟩ => show win1_2.index t (1 : Fin 2) * 64 + 1 * (j 1).val = win1_3.index t (1 : Fin 2) * 64 + 1 * (j 1).val; omega
theorem emb1_4 (t : Fin cfg1.N) (j : S4000x64.Idx) : ((cfg1.win 4).blk t).view.emb j = ((cfg1.win 3).blk t).view.emb j := by
  obtain ⟨-, -, -, ⟨d0, d1⟩, ⟨a0, a1⟩⟩ := idx_facts1 t
  funext a; apply Fin.ext
  match a with
  | ⟨0, _⟩ => show win1_4.index t (0 : Fin 2) * 4000 + 1 * (j 0).val = win1_3.index t (0 : Fin 2) * 4000 + 1 * (j 0).val; omega
  | ⟨1, _⟩ => show win1_4.index t (1 : Fin 2) * 64 + 1 * (j 1).val = win1_3.index t (1 : Fin 2) * 64 + 1 * (j 1).val; omega

/-! ## What a point writes back -/

/-- Point `t` writes back to window 3's array block `t` of the blend of the first two arrays as the region finds them. -/
theorem flushed1_3_eq (c : Dev nD) (t : Fin cfg1.N) :
    (dat1 (F := Ideal) V c).flushed 3 t = ((cfg1.win 3).blk t).view.read (Elt Ideal)
      (Cert.Spec.blendCur (V c (Pipeline.arrRef spec1 0)) (V c (Pipeline.arrRef spec1 1))) := by
  show (cfg1.win 3).cut (grid1.coords t) ((dat1 (F := Ideal) V c).after 3 t) = _
  rw [after1_3]
  unfold out1_3
  rw [View.canon_unit_zero hz1]
  simp only [View.ld_unit_zero (S := S4000x64) hz1]
  funext j
  refine (pay1_1_apply (iblk1 V c 0 t) (iblk1 V c 1 t) j).trans ?_
  show Cert.Spec.cFifth * V c (Pipeline.arrRef spec1 0) (((cfg1.win 0).blk t).view.emb j)
      + Cert.Spec.cFourFifths * V c (Pipeline.arrRef spec1 1) (((cfg1.win 1).blk t).view.emb j)
    = Cert.Spec.cFifth * V c (Pipeline.arrRef spec1 0) (((cfg1.win 3).blk t).view.emb j)
      + Cert.Spec.cFourFifths * V c (Pipeline.arrRef spec1 1) (((cfg1.win 3).blk t).view.emb j)
  rw [emb1_0, emb1_1]

/-- Point `t` writes back to window 4's array block `t` of the third array plus that blend. -/
theorem flushed1_4_eq (c : Dev nD) (t : Fin cfg1.N) :
    (dat1 (F := Ideal) V c).flushed 4 t = ((cfg1.win 4).blk t).view.read (Elt Ideal)
      (Cert.Spec.blendOut (V c (Pipeline.arrRef spec1 2)) (V c (Pipeline.arrRef spec1 0)) (V c (Pipeline.arrRef spec1 1))) := by
  show (cfg1.win 4).cut (grid1.coords t) ((dat1 (F := Ideal) V c).after 4 t) = _
  rw [after1_4]
  unfold out1_4
  rw [View.canon_unit_zero hz1]
  simp only [View.ld_unit_zero (S := S4000x64) hz1]
  funext j
  refine (pay1_2_apply (iblk1 V c 0 t) (iblk1 V c 1 t) (iblk1 V c 2 t) j).trans ?_
  exact blendOut_at1 (V c (Pipeline.arrRef spec1 2)) (V c (Pipeline.arrRef spec1 0)) (V c (Pipeline.arrRef spec1 1))
    ((emb1_0 t j).trans (emb1_4 t j).symm) ((emb1_1 t j).trans (emb1_4 t j).symm) ((emb1_2 t j).trans (emb1_4 t j).symm)

/-! ## The blocks cover the arrays -/

/-- An index of the array is in point `t`'s block iff each coordinate is in the block's range on its axis. -/
theorem mem_blk1_3 (t : Fin cfg1.N) (i : S200000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v13_0).slice (win1_3.rect t)).set ↔ _
  rw [View.set_slice_whole, Rect.mem_set_unit]
  exact Iff.rfl
theorem mem_blk1_4 (t : Fin cfg1.N) (i : S200000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v13_1).slice (win1_4.rect t)).set ↔ _
  rw [View.set_slice_whole, Rect.mem_set_unit]
  exact Iff.rfl

/-- Row `r` of the array is in the block of point `r / 4000`. -/
theorem cover1_arr_3 (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 50 := N_1
  let t : Fin cfg1.N := ⟨(i 0).val / 4000, by omega⟩
  obtain ⟨-, -, -, ⟨d0, d1⟩, -⟩ := idx_facts1 t
  have ht : t.val = (i 0).val / 4000 := rfl
  refine ⟨t, flush1_3 t, ?_⟩
  rw [mem_blk1_3]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega
theorem cover1_arr_4 (i : S200000x64.Idx) : ∃ t : Fin cfg1.N, (cfg1.win 4).flush t = true ∧ i ∈ ((cfg1.win 4).blk t).view.set := by
  have hi0 : (i 0).val < 200000 := (i 0).isLt
  have hi1 : (i 1).val < 64 := (i 1).isLt
  have hN : cfg1.N = 50 := N_1
  let t : Fin cfg1.N := ⟨(i 0).val / 4000, by omega⟩
  obtain ⟨-, -, -, -, ⟨d0, d1⟩⟩ := idx_facts1 t
  have ht : t.val = (i 0).val / 4000 := rfl
  refine ⟨t, flush1_4 t, ?_⟩
  rw [mem_blk1_4]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-! ## The arrays after the region -/

/-- Window 3's array after the region: the blend of the first two arrays as the region finds them. -/
theorem final1_3 (c : Dev nD) : (dat1 (F := Ideal) V c).arrAt 3 cfg1.N
    = Cert.Spec.blendCur (V c (Pipeline.arrRef spec1 0)) (V c (Pipeline.arrRef spec1 1)) :=
  (dat1 (F := Ideal) V c).arrAt_eq_of_cover 3 _ (fun t _ => flushed1_3_eq V c t) (cover1_arr_3)

/-- Window 4's array after the region: the third array plus that blend. -/
theorem final1_4 (c : Dev nD) : (dat1 (F := Ideal) V c).arrAt 4 cfg1.N
    = Cert.Spec.blendOut (V c (Pipeline.arrRef spec1 2)) (V c (Pipeline.arrRef spec1 0)) (V c (Pipeline.arrRef spec1 1)) :=
  (dat1 (F := Ideal) V c).arrAt_eq_of_cover 4 _ (fun t _ => flushed1_4_eq V c t) (cover1_arr_4)

end Cert.KernelIdeal.Frame

end
-- ==== Proof.IdealBlend3Value.lean ====
import proofs.«166718_j26491358281938_2_alg».proof.Proof.IdealBlend3
import proofs.«166718_j26491358281938_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

/-! Region 3, the value side over the extended reals: the two result arrays after the region, each as one function of
    the arrays the region reads, index by index. Point `t` of the grid reads and writes rows `4000 t … 4000 t + 3999`
    of every one of the five [200000, 64] arrays, so what it writes back is those rows of the blend of the whole
    arrays, and the fifty blocks cover the arrays. -/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-! ## The payloads at an index -/

/-- The first payload at an index: a fifth of the first block's element plus four fifths of the second's (the casts are
    of a shape to itself). -/
theorem pay3_1_apply (x0 x1 : Vec Ideal S4000x64 .f32) (j : S4000x64.Idx) :
    k3_pay1 x0 x1 j = Cert.Spec.cFifth * x0 j + Cert.Spec.cFourFifths * x1 j := by
  unfold k3_pay1
  simp only [shapeCast_self]
  rfl

/-- The second payload at an index: the third block's element plus the first payload's. -/
theorem pay3_2_apply (x0 x1 x2 : Vec Ideal S4000x64 .f32) (j : S4000x64.Idx) :
    k3_pay2 x0 x1 x2 j = x2 j + (Cert.Spec.cFifth * x0 j + Cert.Spec.cFourFifths * x1 j) := by
  unfold k3_pay2
  simp only [shapeCast_self]
  exact congrArg (x2 j + ·) (pay3_1_apply x0 x1 j)

/-- The running sum at an index, its three arrays read at indices that are all that index. -/
theorem blendOut_at3 (acc base s : FVec Ideal ⟨2, ![200000, 64]⟩ .f32) {i0 i1 i2 i : (⟨2, ![200000, 64]⟩ : Shape).Idx}
    (h0 : i0 = i) (h1 : i1 = i) (h2 : i2 = i) :
    acc i2 + (Cert.Spec.cFifth * base i0 + Cert.Spec.cFourFifths * s i1) = Cert.Spec.blendOut acc base s i := by
  subst h0 h1 h2; rfl

/-! ## The index maps -/

/-- The printed index maps, decided over the grid: every window's block at point `t` is block `(t, 0)`. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0) :=
  (by decide +kernel : ∀ t : Fin grid3.N, _)

/-- So an input window's block sits in its array where output window 3's sits in its own. -/
theorem emb3_0 (t : Fin cfg3.N) (j : S4000x64.Idx) : ((cfg3.win 0).blk t).view.emb j = ((cfg3.win 3).blk t).view.emb j := by
  obtain ⟨⟨a0, a1⟩, -, -, ⟨d0, d1⟩, -⟩ := idx_facts3 t
  funext a; apply Fin.ext
  match a with
  | ⟨0, _⟩ => show win3_0.index t (0 : Fin 2) * 4000 + 1 * (j 0).val = win3_3.index t (0 : Fin 2) * 4000 + 1 * (j 0).val; omega
  | ⟨1, _⟩ => show win3_0.index t (1 : Fin 2) * 64 + 1 * (j 1).val = win3_3.index t (1 : Fin 2) * 64 + 1 * (j 1).val; omega
theorem emb3_1 (t : Fin cfg3.N) (j : S4000x64.Idx) : ((cfg3.win 1).blk t).view.emb j = ((cfg3.win 3).blk t).view.emb j := by
  obtain ⟨-, ⟨a0, a1⟩, -, ⟨d0, d1⟩, -⟩ := idx_facts3 t
  funext a; apply Fin.ext
  match a with
  | ⟨0, _⟩ => show win3_1.index t (0 : Fin 2) * 4000 + 1 * (j 0).val = win3_3.index t (0 : Fin 2) * 4000 + 1 * (j 0).val; omega
  | ⟨1, _⟩ => show win3_1.index t (1 : Fin 2) * 64 + 1 * (j 1).val = win3_3.index t (1 : Fin 2) * 64 + 1 * (j 1).val; omega
theorem emb3_2 (t : Fin cfg3.N) (j : S4000x64.Idx) : ((cfg3.win 2).blk t).view.emb j = ((cfg3.win 3).blk t).view.emb j := by
  obtain ⟨-, -, ⟨a0, a1⟩, ⟨d0, d1⟩, -⟩ := idx_facts3 t
  funext a; apply Fin.ext
  match a with
  | ⟨0, _⟩ => show win3_2.index t (0 : Fin 2) * 4000 + 1 * (j 0).val = win3_3.index t (0 : Fin 2) * 4000 + 1 * (j 0).val; omega
  | ⟨1, _⟩ => show win3_2.index t (1 : Fin 2) * 64 + 1 * (j 1).val = win3_3.index t (1 : Fin 2) * 64 + 1 * (j 1).val; omega
theorem emb3_4 (t : Fin cfg3.N) (j : S4000x64.Idx) : ((cfg3.win 4).blk t).view.emb j = ((cfg3.win 3).blk t).view.emb j := by
  obtain ⟨-, -, -, ⟨d0, d1⟩, ⟨a0, a1⟩⟩ := idx_facts3 t
  funext a; apply Fin.ext
  match a with
  | ⟨0, _⟩ => show win3_4.index t (0 : Fin 2) * 4000 + 1 * (j 0).val = win3_3.index t (0 : Fin 2) * 4000 + 1 * (j 0).val; omega
  | ⟨1, _⟩ => show win3_4.index t (1 : Fin 2) * 64 + 1 * (j 1).val = win3_3.index t (1 : Fin 2) * 64 + 1 * (j 1).val; omega

/-! ## What a point writes back -/

/-- Point `t` writes back to window 3's array block `t` of the blend of the first two arrays as the region finds them. -/
theorem flushed3_3_eq (c : Dev nD) (t : Fin cfg3.N) :
    (dat3 (F := Ideal) V c).flushed 3 t = ((cfg3.win 3).blk t).view.read (Elt Ideal)
      (Cert.Spec.blendCur (V c (Pipeline.arrRef spec3 0)) (V c (Pipeline.arrRef spec3 1))) := by
  show (cfg3.win 3).cut (grid3.coords t) ((dat3 (F := Ideal) V c).after 3 t) = _
  rw [after3_3]
  unfold out3_3
  rw [View.canon_unit_zero hz3]
  simp only [View.ld_unit_zero (S := S4000x64) hz3]
  funext j
  refine (pay3_1_apply (iblk3 V c 0 t) (iblk3 V c 1 t) j).trans ?_
  show Cert.Spec.cFifth * V c (Pipeline.arrRef spec3 0) (((cfg3.win 0).blk t).view.emb j)
      + Cert.Spec.cFourFifths * V c (Pipeline.arrRef spec3 1) (((cfg3.win 1).blk t).view.emb j)
    = Cert.Spec.cFifth * V c (Pipeline.arrRef spec3 0) (((cfg3.win 3).blk t).view.emb j)
      + Cert.Spec.cFourFifths * V c (Pipeline.arrRef spec3 1) (((cfg3.win 3).blk t).view.emb j)
  rw [emb3_0, emb3_1]

/-- Point `t` writes back to window 4's array block `t` of the third array plus that blend. -/
theorem flushed3_4_eq (c : Dev nD) (t : Fin cfg3.N) :
    (dat3 (F := Ideal) V c).flushed 4 t = ((cfg3.win 4).blk t).view.read (Elt Ideal)
      (Cert.Spec.blendOut (V c (Pipeline.arrRef spec3 2)) (V c (Pipeline.arrRef spec3 0)) (V c (Pipeline.arrRef spec3 1))) := by
  show (cfg3.win 4).cut (grid3.coords t) ((dat3 (F := Ideal) V c).after 4 t) = _
  rw [after3_4]
  unfold out3_4
  rw [View.canon_unit_zero hz3]
  simp only [View.ld_unit_zero (S := S4000x64) hz3]
  funext j
  refine (pay3_2_apply (iblk3 V c 0 t) (iblk3 V c 1 t) (iblk3 V c 2 t) j).trans ?_
  exact blendOut_at3 (V c (Pipeline.arrRef spec3 2)) (V c (Pipeline.arrRef spec3 0)) (V c (Pipeline.arrRef spec3 1))
    ((emb3_0 t j).trans (emb3_4 t j).symm) ((emb3_1 t j).trans (emb3_4 t j).symm) ((emb3_2 t j).trans (emb3_4 t j).symm)

/-! ## The blocks cover the arrays -/

/-- An index of the array is in point `t`'s block iff each coordinate is in the block's range on its axis. -/
theorem mem_blk3_3 (t : Fin cfg3.N) (i : S200000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v25_0).slice (win3_3.rect t)).set ↔ _
  rw [View.set_slice_whole, Rect.mem_set_unit]
  exact Iff.rfl
theorem mem_blk3_4 (t : Fin cfg3.N) (i : S200000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v25_1).slice (win3_4.rect t)).set ↔ _
  rw [View.set_slice_whole, Rect.mem_set_unit]
  exact Iff.rfl

/-- Row `r` of the array is in the block of point `r / 4000`. -/
theorem cover3_arr_3 (i : S200000x64.Idx) : ∃ t : Fin cfg3.N, (cfg3.win 3).flush t = true ∧ i ∈ ((cfg3.win 3).blk t).view.set := by
  have hi0 : (i 0).val < 200000 := (i 0).isLt
  have hi1 : (i 1).val < 64 := (i 1).isLt
  have hN : cfg3.N = 50 := N_3
  let t : Fin cfg3.N := ⟨(i 0).val / 4000, by omega⟩
  obtain ⟨-, -, -, ⟨d0, d1⟩, -⟩ := idx_facts3 t
  have ht : t.val = (i 0).val / 4000 := rfl
  refine ⟨t, flush3_3 t, ?_⟩
  rw [mem_blk3_3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 64 ≤ (i 1).val ∧ (i 1).val < win3_3.index t (1 : Fin 2) * 64 + 64; omega
theorem cover3_arr_4 (i : S200000x64.Idx) : ∃ t : Fin cfg3.N, (cfg3.win 4).flush t = true ∧ i ∈ ((cfg3.win 4).blk t).view.set := by
  have hi0 : (i 0).val < 200000 := (i 0).isLt
  have hi1 : (i 1).val < 64 := (i 1).isLt
  have hN : cfg3.N = 50 := N_3
  let t : Fin cfg3.N := ⟨(i 0).val / 4000, by omega⟩
  obtain ⟨-, -, -, -, ⟨d0, d1⟩⟩ := idx_facts3 t
  have ht : t.val = (i 0).val / 4000 := rfl
  refine ⟨t, flush3_4 t, ?_⟩
  rw [mem_blk3_4]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-! ## The arrays after the region -/

/-- Window 3's array after the region: the blend of the first two arrays as the region finds them. -/
theorem final3_3 (c : Dev nD) : (dat3 (F := Ideal) V c).arrAt 3 cfg3.N
    = Cert.Spec.blendCur (V c (Pipeline.arrRef spec3 0)) (V c (Pipeline.arrRef spec3 1)) :=
  (dat3 (F := Ideal) V c).arrAt_eq_of_cover 3 _ (fun t _ => flushed3_3_eq V c t) (cover3_arr_3)

/-- Window 4's array after the region: the third array plus that blend. -/
theorem final3_4 (c : Dev nD) : (dat3 (F := Ideal) V c).arrAt 4 cfg3.N
    = Cert.Spec.blendOut (V c (Pipeline.arrRef spec3 2)) (V c (Pipeline.arrRef spec3 0)) (V c (Pipeline.arrRef spec3 1)) :=
  (dat3 (F := Ideal) V c).arrAt_eq_of_cover 4 _ (fun t _ => flushed3_4_eq V c t) (cover3_arr_4)

end Cert.KernelIdeal.Frame

end
-- ==== Proof.IdealBlend5Value.lean ====
import proofs.«166718_j26491358281938_2_alg».proof.Proof.IdealBlend5
import proofs.«166718_j26491358281938_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

/-! Region 5, the value side over the extended reals: the two result arrays after the region, each as one function of
    the arrays the region reads, index by index. Point `t` of the grid reads and writes rows `4000 t … 4000 t + 3999`
    of every one of the five [200000, 64] arrays, so what it writes back is those rows of the blend of the whole
    arrays, and the fifty blocks cover the arrays. -/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-! ## The payloads at an index -/

/-- The first payload at an index: a fifth of the first block's element plus four fifths of the second's (the casts are
    of a shape to itself). -/
theorem pay5_1_apply (x0 x1 : Vec Ideal S4000x64 .f32) (j : S4000x64.Idx) :
    k5_pay1 x0 x1 j = Cert.Spec.cFifth * x0 j + Cert.Spec.cFourFifths * x1 j := by
  unfold k5_pay1
  simp only [shapeCast_self]
  rfl

/-- The second payload at an index: the third block's element plus the first payload's. -/
theorem pay5_2_apply (x0 x1 x2 : Vec Ideal S4000x64 .f32) (j : S4000x64.Idx) :
    k5_pay2 x0 x1 x2 j = x2 j + (Cert.Spec.cFifth * x0 j + Cert.Spec.cFourFifths * x1 j) := by
  unfold k5_pay2
  simp only [shapeCast_self]
  exact congrArg (x2 j + ·) (pay5_1_apply x0 x1 j)

/-- The running sum at an index, its three arrays read at indices that are all that index. -/
theorem blendOut_at5 (acc base s : FVec Ideal ⟨2, ![200000, 64]⟩ .f32) {i0 i1 i2 i : (⟨2, ![200000, 64]⟩ : Shape).Idx}
    (h0 : i0 = i) (h1 : i1 = i) (h2 : i2 = i) :
    acc i2 + (Cert.Spec.cFifth * base i0 + Cert.Spec.cFourFifths * s i1) = Cert.Spec.blendOut acc base s i := by
  subst h0 h1 h2; rfl

/-! ## The index maps -/

/-- The printed index maps, decided over the grid: every window's block at point `t` is block `(t, 0)`. -/
theorem idx_facts5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = t.val ∧ win5_4.index t (1 : Fin 2) = 0) :=
  (by decide +kernel : ∀ t : Fin grid5.N, _)

/-- So an input window's block sits in its array where output window 3's sits in its own. -/
theorem emb5_0 (t : Fin cfg5.N) (j : S4000x64.Idx) : ((cfg5.win 0).blk t).view.emb j = ((cfg5.win 3).blk t).view.emb j := by
  obtain ⟨⟨a0, a1⟩, -, -, ⟨d0, d1⟩, -⟩ := idx_facts5 t
  funext a; apply Fin.ext
  match a with
  | ⟨0, _⟩ => show win5_0.index t (0 : Fin 2) * 4000 + 1 * (j 0).val = win5_3.index t (0 : Fin 2) * 4000 + 1 * (j 0).val; omega
  | ⟨1, _⟩ => show win5_0.index t (1 : Fin 2) * 64 + 1 * (j 1).val = win5_3.index t (1 : Fin 2) * 64 + 1 * (j 1).val; omega
theorem emb5_1 (t : Fin cfg5.N) (j : S4000x64.Idx) : ((cfg5.win 1).blk t).view.emb j = ((cfg5.win 3).blk t).view.emb j := by
  obtain ⟨-, ⟨a0, a1⟩, -, ⟨d0, d1⟩, -⟩ := idx_facts5 t
  funext a; apply Fin.ext
  match a with
  | ⟨0, _⟩ => show win5_1.index t (0 : Fin 2) * 4000 + 1 * (j 0).val = win5_3.index t (0 : Fin 2) * 4000 + 1 * (j 0).val; omega
  | ⟨1, _⟩ => show win5_1.index t (1 : Fin 2) * 64 + 1 * (j 1).val = win5_3.index t (1 : Fin 2) * 64 + 1 * (j 1).val; omega
theorem emb5_2 (t : Fin cfg5.N) (j : S4000x64.Idx) : ((cfg5.win 2).blk t).view.emb j = ((cfg5.win 3).blk t).view.emb j := by
  obtain ⟨-, -, ⟨a0, a1⟩, ⟨d0, d1⟩, -⟩ := idx_facts5 t
  funext a; apply Fin.ext
  match a with
  | ⟨0, _⟩ => show win5_2.index t (0 : Fin 2) * 4000 + 1 * (j 0).val = win5_3.index t (0 : Fin 2) * 4000 + 1 * (j 0).val; omega
  | ⟨1, _⟩ => show win5_2.index t (1 : Fin 2) * 64 + 1 * (j 1).val = win5_3.index t (1 : Fin 2) * 64 + 1 * (j 1).val; omega
theorem emb5_4 (t : Fin cfg5.N) (j : S4000x64.Idx) : ((cfg5.win 4).blk t).view.emb j = ((cfg5.win 3).blk t).view.emb j := by
  obtain ⟨-, -, -, ⟨d0, d1⟩, ⟨a0, a1⟩⟩ := idx_facts5 t
  funext a; apply Fin.ext
  match a with
  | ⟨0, _⟩ => show win5_4.index t (0 : Fin 2) * 4000 + 1 * (j 0).val = win5_3.index t (0 : Fin 2) * 4000 + 1 * (j 0).val; omega
  | ⟨1, _⟩ => show win5_4.index t (1 : Fin 2) * 64 + 1 * (j 1).val = win5_3.index t (1 : Fin 2) * 64 + 1 * (j 1).val; omega

/-! ## What a point writes back -/

/-- Point `t` writes back to window 3's array block `t` of the blend of the first two arrays as the region finds them. -/
theorem flushed5_3_eq (c : Dev nD) (t : Fin cfg5.N) :
    (dat5 (F := Ideal) V c).flushed 3 t = ((cfg5.win 3).blk t).view.read (Elt Ideal)
      (Cert.Spec.blendCur (V c (Pipeline.arrRef spec5 0)) (V c (Pipeline.arrRef spec5 1))) := by
  show (cfg5.win 3).cut (grid5.coords t) ((dat5 (F := Ideal) V c).after 3 t) = _
  rw [after5_3]
  unfold out5_3
  rw [View.canon_unit_zero hz5]
  simp only [View.ld_unit_zero (S := S4000x64) hz5]
  funext j
  refine (pay5_1_apply (iblk5 V c 0 t) (iblk5 V c 1 t) j).trans ?_
  show Cert.Spec.cFifth * V c (Pipeline.arrRef spec5 0) (((cfg5.win 0).blk t).view.emb j)
      + Cert.Spec.cFourFifths * V c (Pipeline.arrRef spec5 1) (((cfg5.win 1).blk t).view.emb j)
    = Cert.Spec.cFifth * V c (Pipeline.arrRef spec5 0) (((cfg5.win 3).blk t).view.emb j)
      + Cert.Spec.cFourFifths * V c (Pipeline.arrRef spec5 1) (((cfg5.win 3).blk t).view.emb j)
  rw [emb5_0, emb5_1]

/-- Point `t` writes back to window 4's array block `t` of the third array plus that blend. -/
theorem flushed5_4_eq (c : Dev nD) (t : Fin cfg5.N) :
    (dat5 (F := Ideal) V c).flushed 4 t = ((cfg5.win 4).blk t).view.read (Elt Ideal)
      (Cert.Spec.blendOut (V c (Pipeline.arrRef spec5 2)) (V c (Pipeline.arrRef spec5 0)) (V c (Pipeline.arrRef spec5 1))) := by
  show (cfg5.win 4).cut (grid5.coords t) ((dat5 (F := Ideal) V c).after 4 t) = _
  rw [after5_4]
  unfold out5_4
  rw [View.canon_unit_zero hz5]
  simp only [View.ld_unit_zero (S := S4000x64) hz5]
  funext j
  refine (pay5_2_apply (iblk5 V c 0 t) (iblk5 V c 1 t) (iblk5 V c 2 t) j).trans ?_
  exact blendOut_at5 (V c (Pipeline.arrRef spec5 2)) (V c (Pipeline.arrRef spec5 0)) (V c (Pipeline.arrRef spec5 1))
    ((emb5_0 t j).trans (emb5_4 t j).symm) ((emb5_1 t j).trans (emb5_4 t j).symm) ((emb5_2 t j).trans (emb5_4 t j).symm)

/-! ## The blocks cover the arrays -/

/-- An index of the array is in point `t`'s block iff each coordinate is in the block's range on its axis. -/
theorem mem_blk5_3 (t : Fin cfg5.N) (i : S200000x64.Idx) :
    i ∈ ((cfg5.win 3).blk t).view.set ↔ ∀ a : Fin 2, win5_3.index t a * S4000x64.size a ≤ (i a).val ∧ (i a).val < win5_3.index t a * S4000x64.size a + S4000x64.size a := by
  show i ∈ ((View.whole main_v37_0).slice (win5_3.rect t)).set ↔ _
  rw [View.set_slice_whole, Rect.mem_set_unit]
  exact Iff.rfl
theorem mem_blk5_4 (t : Fin cfg5.N) (i : S200000x64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v37_1).slice (win5_4.rect t)).set ↔ _
  rw [View.set_slice_whole, Rect.mem_set_unit]
  exact Iff.rfl

/-- Row `r` of the array is in the block of point `r / 4000`. -/
theorem cover5_arr_3 (i : S200000x64.Idx) : ∃ t : Fin cfg5.N, (cfg5.win 3).flush t = true ∧ i ∈ ((cfg5.win 3).blk t).view.set := by
  have hi0 : (i 0).val < 200000 := (i 0).isLt
  have hi1 : (i 1).val < 64 := (i 1).isLt
  have hN : cfg5.N = 50 := N_5
  let t : Fin cfg5.N := ⟨(i 0).val / 4000, by omega⟩
  obtain ⟨-, -, -, ⟨d0, d1⟩, -⟩ := idx_facts5 t
  have ht : t.val = (i 0).val / 4000 := rfl
  refine ⟨t, flush5_3 t, ?_⟩
  rw [mem_blk5_3]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 64 ≤ (i 1).val ∧ (i 1).val < win5_3.index t (1 : Fin 2) * 64 + 64; omega
theorem cover5_arr_4 (i : S200000x64.Idx) : ∃ t : Fin cfg5.N, (cfg5.win 4).flush t = true ∧ i ∈ ((cfg5.win 4).blk t).view.set := by
  have hi0 : (i 0).val < 200000 := (i 0).isLt
  have hi1 : (i 1).val < 64 := (i 1).isLt
  have hN : cfg5.N = 50 := N_5
  let t : Fin cfg5.N := ⟨(i 0).val / 4000, by omega⟩
  obtain ⟨-, -, -, -, ⟨d0, d1⟩⟩ := idx_facts5 t
  have ht : t.val = (i 0).val / 4000 := rfl
  refine ⟨t, flush5_4 t, ?_⟩
  rw [mem_blk5_4]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 64 ≤ (i 1).val ∧ (i 1).val < win5_4.index t (1 : Fin 2) * 64 + 64; omega

/-! ## The arrays after the region -/

/-- Window 3's array after the region: the blend of the first two arrays as the region finds them. -/
theorem final5_3 (c : Dev nD) : (dat5 (F := Ideal) V c).arrAt 3 cfg5.N
    = Cert.Spec.blendCur (V c (Pipeline.arrRef spec5 0)) (V c (Pipeline.arrRef spec5 1)) :=
  (dat5 (F := Ideal) V c).arrAt_eq_of_cover 3 _ (fun t _ => flushed5_3_eq V c t) (cover5_arr_3)

/-- Window 4's array after the region: the third array plus that blend. -/
theorem final5_4 (c : Dev nD) : (dat5 (F := Ideal) V c).arrAt 4 cfg5.N
    = Cert.Spec.blendOut (V c (Pipeline.arrRef spec5 2)) (V c (Pipeline.arrRef spec5 0)) (V c (Pipeline.arrRef spec5 1)) :=
  (dat5 (F := Ideal) V c).arrAt_eq_of_cover 4 _ (fun t _ => flushed5_4_eq V c t) (cover5_arr_4)

end Cert.KernelIdeal.Frame

end
-- ==== Proof.IdealDot6Value.lean ====
import proofs.«166718_j26491358281938_2_alg».proof.Proof.IdealDot6
import proofs.«166718_j26491358281938_2_alg».proof.Proof.LayerSpec
import proofs.«166718_j26491358281938_2_alg».proof.Proof.Gen.KernelIdeal.Launch
import proofs.«166718_j26491358281938_2_alg».proof.Proof.Gen.KernelIdeal.Skeleton
import proofs.«166718_j26491358281938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents when the region is entered, over the extended reals
variable (V : (c : Dev nD) → (b : Ref sig .tc) → Buf (Elt Ideal) ((c : Thread nD τ).loc b))

/-! # The dot region 6: its result array is `Cert.Spec.rowDot` of its two argument arrays -/

/-- The zero offsets of a whole-block access. -/
theorem zero_off6 : (![0, 0] : Fin 2 → Nat) = fun _ => 0 := funext fun a => by fin_cases a <;> rfl

/-- The value stored at row `p` of a block's column: the sum over the 64 features of the products of the two rows `p`. -/
theorem dot_pay6_apply (x0 x1 : Vec Ideal S4000x64 .f32) (j : S4000x1.Idx) :
    k6_pay1 x0 x1 j = ∑ k : Fin 64, x0 (ix2 (⟨(j 0).val, idx2_lt0 j⟩ : Fin 4000) k) * x1 (ix2 (⟨(j 0).val, idx2_lt0 j⟩ : Fin 4000) k) := by
  unfold k6_pay1
  dsimp only
  refine (shapeCast_apply _ shapeCasts_S4000_S4000x1 j (ix1 (⟨(j 0).val, idx2_lt0 j⟩ : Fin 4000)) ?_).trans ?_
  · rw [Shape.rowMajor_val_one, Shape.rowMajor_val_two]
    have hj1 : (j 1).val < 1 := idx2_lt1 j
    show (j 0).val = (j 0).val * 1 + (j 1).val
    omega
  refine (Ideal.multiReduction_add_single _ 0x00000000#32 reduces_S4000x64_S4000 (.inl rfl) rfl (ix1 (⟨(j 0).val, idx2_lt0 j⟩ : Fin 4000))).trans ?_
  refine Finset.sum_congr rfl fun k _ => ?_
  rw [mulf_apply, shapeCast_self, shapeCast_self]
  have e : reduces_S4000x64_S4000.lift (ix1 (⟨(j 0).val, idx2_lt0 j⟩ : Fin 4000)) k = ix2 (⟨(j 0).val, idx2_lt0 j⟩ : Fin 4000) k :=
    funext fun a => Fin.ext (by match a with | ⟨0, _⟩ => rfl | ⟨1, _⟩ => rfl)
  rw [e]
  rfl

/-- So a block whose rows are those of the arrays `A0`, `A1` at the matching rows stores the row dot products' entries. -/
theorem dot_block6 (A0 A1 : FVec Ideal S500000x64 .f32) (x0 x1 : Vec Ideal S4000x64 .f32) (j : S4000x1.Idx) (i : S500000x1.Idx)
    (h0 : ∀ k : Fin 64, x0 (ix2 (⟨(j 0).val, idx2_lt0 j⟩ : Fin 4000) k) = A0 (ix2 (⟨(i 0).val, idx2_lt0 i⟩ : Fin 500000) k))
    (h1 : ∀ k : Fin 64, x1 (ix2 (⟨(j 0).val, idx2_lt0 j⟩ : Fin 4000) k) = A1 (ix2 (⟨(i 0).val, idx2_lt0 i⟩ : Fin 500000) k)) :
    k6_pay1 x0 x1 j = Cert.Spec.rowDot A0 A1 i := by
  rw [dot_pay6_apply]
  unfold Cert.Spec.rowDot
  exact Finset.sum_congr rfl fun k _ => by rw [h0 k, h1 k]

/-- The printed index maps, decided over the grid: every window's block at point `t` is block row `t`, block column 0. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the row dot products of the argument arrays as the region finds them. -/
theorem flushed6_2_eq (c : Dev nD) (t : Fin cfg6.N) :
    (dat6 (F := Ideal) V c).flushed 2 t = ((cfg6.win 2).blk t).view.read (Elt Ideal)
      (Cert.Spec.rowDot (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero zero_off6]
  simp only [View.ld_unit_zero (S := S4000x64) zero_off6]
  obtain ⟨e00, e01, e10, e11, e20, e21⟩ := idx_facts6 t
  funext j
  show k6_pay1 (iblk6 V c 0 t) (iblk6 V c 1 t) j
    = Cert.Spec.rowDot (V c (Pipeline.arrRef spec6 0)) (V c (Pipeline.arrRef spec6 1)) (((cfg6.win 2).blk t).view.emb j)
  have hj0 : (j 0).val < 4000 := (j 0).isLt
  refine dot_block6 _ _ _ _ j _ (fun k => ?_) (fun k => ?_)
  · refine congrArg (V c main_v48) (?_ : ((cfg6.win 0).blk t).view.emb (ix2 (⟨(j 0).val, idx2_lt0 j⟩ : Fin 4000) k)
      = ix2 (⟨((((cfg6.win 2).blk t).view.emb j) 0).val, idx2_lt0 _⟩ : Fin 500000) k)
    funext a; apply Fin.ext
    match a with
    | ⟨0, _⟩ => show win6_0.index t (0 : Fin 2) * 4000 + 1 * (j 0).val = win6_2.index t (0 : Fin 2) * 4000 + 1 * (j 0).val; omega
    | ⟨1, _⟩ => show win6_0.index t (1 : Fin 2) * 64 + 1 * k.val = k.val; omega
  · refine congrArg (V c main_v55) (?_ : ((cfg6.win 1).blk t).view.emb (ix2 (⟨(j 0).val, idx2_lt0 j⟩ : Fin 4000) k)
      = ix2 (⟨((((cfg6.win 2).blk t).view.emb j) 0).val, idx2_lt0 _⟩ : Fin 500000) k)
    funext a; apply Fin.ext
    match a with
    | ⟨0, _⟩ => show win6_1.index t (0 : Fin 2) * 4000 + 1 * (j 0).val = win6_2.index t (0 : Fin 2) * 4000 + 1 * (j 0).val; omega
    | ⟨1, _⟩ => show win6_1.index t (1 : Fin 2) * 64 + 1 * k.val = k.val; omega

/-- An index of the array is in point `t`'s block iff each coordinate is in the block's range on its axis. -/
theorem mem_blk6_2 (t : Fin cfg6.N) (i : S500000x1.Idx) :
    i ∈ ((cfg6.win 2).blk t).view.set ↔ ∀ a : Fin 2, win6_2.index t a * S4000x1.size a ≤ (i a).val ∧ (i a).val < win6_2.index t a * S4000x1.size a + S4000x1.size a := by
  show i ∈ ((View.whole main_v56).slice (win6_2.rect t)).set ↔ _
  rw [View.set_slice_whole, Rect.mem_set_unit]
  exact Iff.rfl

/-- Row `r` of the array is in the block of point `r / 4000`, and every point writes back: the blocks cover the array. -/
theorem covered6_2 (i : S500000x1.Idx) :
    ∃ t : Fin cfg6.N, (cfg6.win 2).flush t = true ∧ i ∈ ((cfg6.win 2).blk t).view.set := by
  have hi0 : (i 0).val < 500000 := idx2_lt0 i
  have hi1 : (i 1).val < 1 := idx2_lt1 i
  have hN : cfg6.N = 125 := N_6
  have ht : (i 0).val / 4000 < cfg6.N := by rw [hN]; omega
  obtain ⟨-, -, -, -, e20, e21⟩ := idx_facts6 ⟨(i 0).val / 4000, ht⟩
  refine ⟨⟨(i 0).val / 4000, ht⟩, flush6_2 _, ?_⟩
  rw [mem_blk6_2]
  intro a
  match a with
  | ⟨0, _⟩ =>
    show win6_2.index ⟨(i 0).val / 4000, ht⟩ (0 : Fin 2) * 4000 ≤ (i 0).val ∧ (i 0).val < win6_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win6_2.index ⟨(i 0).val / 4000, ht⟩ (1 : Fin 2) * 1 ≤ (i 1).val ∧ (i 1).val < win6_2.index ⟨(i 0).val / 4000, ht⟩ (1 : Fin 2) * 1 + 1
    rw [e21]; omega

/-- The result array after the region: the row dot products of its two argument arrays as the region finds them. -/
theorem final6_2 (c : Dev nD) : (dat6 (F := Ideal) V c).arrAt 2 cfg6.N
    = Cert.Spec.rowDot (V c (Pipeline.arrRef spec6 0)) (V c (Pipeline.arrRef spec6 1)) :=
  (dat6 (F := Ideal) V c).arrAt_eq_of_cover 2 _ (fun t _ => flushed6_2_eq V c t) (covered6_2)

end Cert.KernelIdeal.Frame

end
-- ==== Proof.IdealValue.lean ====
/-
  The value of the kernel's program, boundary by boundary. At every boundary between a host stretch
  and a kernel call, the arrays a later step reads hold the same functions of the seven arguments as
  the reference's stages: a host stretch applies the same host operation to equal operands; a scaling
  call leaves the gathered rows times the weights' column, a blending call the residual blend and the
  running sum, the scoring call the column of row dot products, and each of those is what the
  reference computes by broadcasts, whole-table products and a sum over the feature axis. The weights
  reach the scaling calls as a flat vector reshaped to a column, and the scores leave as the column
  reshaped to a flat vector. An array read several boundaries after it was written is still what it
  was: no step in between writes it.
-/
import proofs.«166718_j26491358281938_2_alg».proof.Proof.IdealFrame
import proofs.«166718_j26491358281938_2_alg».proof.Proof.RefBridge
import proofs.«166718_j26491358281938_2_alg».proof.Proof.ColumnReshape
import proofs.«166718_j26491358281938_2_alg».proof.Proof.IdealScale0Value
import proofs.«166718_j26491358281938_2_alg».proof.Proof.IdealScale2Value
import proofs.«166718_j26491358281938_2_alg».proof.Proof.IdealScale4Value
import proofs.«166718_j26491358281938_2_alg».proof.Proof.IdealBlend1Value
import proofs.«166718_j26491358281938_2_alg».proof.Proof.IdealBlend3Value
import proofs.«166718_j26491358281938_2_alg».proof.Proof.IdealBlend5Value
import proofs.«166718_j26491358281938_2_alg».proof.Proof.IdealDot6Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo Idealize.ShloMosaic.ValueIdx
open Cert.ReferenceIdeal.Read Cert.ReferenceIdeal.RefValue
variable {F : FTy → Type} [FloatOps F]

local notation "𝕄" => MT nD τ sig Unit (Elt F) ℕ (UR sig nD τ) ℕ

variable (m : (ℓ : Loc nD τ sig) → Buf (Elt Ideal) ℓ)

/-- The seven arguments as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-! ## Before the first call -/

theorem v1_v0 (c : Dev nD) : W1 m c (Proc.devRef .tc main_v0) = val_main_v0 (F := Ideal) (a0 m c) (a1 m c) := by
  show StableHlo.after hostOps0 (W0 m c) (Proc.devRef .tc main_v0) = _
  after_results
  rfl
theorem v1_v8 (c : Dev nD) : W1 m c (Proc.devRef .tc main_v8) = val_main_v7 (F := Ideal) (a0 m c) (a1 m c) (a3 m c) := by
  show StableHlo.after hostOps0 (W0 m c) (Proc.devRef .tc main_v8) = _
  after_results
  rfl
/-- The weights' column holds weight `r` at (r, 0). -/
theorem v1_v1 (c : Dev nD) (r : Fin 3200000) :
    (W1 m c (Proc.devRef .tc main_v1) : S3200000x1.Idx → Elt Ideal .f32) (ix2 r (0 : Fin 1)) = a4 m c (ix1 r) := by
  show (StableHlo.after hostOps0 (W0 m c) (Proc.devRef .tc main_v1) : S3200000x1.Idx → Elt Ideal .f32) (ix2 r (0 : Fin 1)) = _
  after_results
  exact Cert.Spec.column_of_flat _ _ r

/-! ## The first layer -/

theorem v2_v9 (c : Dev nD) : W2 m c (Proc.devRef .tc main_v9) = val_main_v10 (F := Ideal) (a0 m c) (a1 m c) (a3 m c) (a4 m c) := by
  refine (W2_arr m c 2).trans ((final0_2 (U1 m) c).trans ?_)
  show Cert.Spec.scaleRows (W1 m c (Proc.devRef .tc main_v8)) (W1 m c (Proc.devRef .tc main_v1)) = mulf (val_main_v7 (F := Ideal) (a0 m c) (a1 m c) (a3 m c)) (val_main_v9 (F := Ideal) (a4 m c))
  rw [v1_v8]
  exact scale_eq _ (a4 m c) _ (v1_v1 m c)
theorem v3_v12 (c : Dev nD) : W3 m c (Proc.devRef .tc main_v12) = val_main_v13 (F := Ideal) (a0 m c) (a1 m c) (a2 m c) (a3 m c) (a4 m c) := by
  show StableHlo.after hostOps1 (W2 m c) (Proc.devRef .tc main_v12) = _
  after_results
  rw [W2_arg2 m c, v2_v9 m c]
  rfl
theorem v3_v0 (c : Dev nD) : W3 m c (Proc.devRef .tc main_v0) = val_main_v0 (F := Ideal) (a0 m c) (a1 m c) :=
  ((show W3 m c (Proc.devRef .tc main_v0) = W2 m c (Proc.devRef .tc main_v0) from StableHlo.after_of_writes_sub hostOps1 _ hostOps1_writes (by decide : main_v0 ∉ hostOps1_W)).trans ((show W2 m c (Proc.devRef .tc main_v0) = W1 m c (Proc.devRef .tc main_v0) from W2_of_ne m c main_v0 (by decide)))).trans (v1_v0 m c)
theorem v4_v13_0 (c : Dev nD) : W4 m c (Proc.devRef .tc main_v13_0) = val_main_v18 (F := Ideal) (a0 m c) (a1 m c) (a2 m c) (a3 m c) (a4 m c) := by
  refine (hF1 m c 3).symm.trans ((final1_3 (U3 m) c).trans ?_)
  show Cert.Spec.blendCur (W3 m c (Proc.devRef .tc main_v0)) (W3 m c (Proc.devRef .tc main_v12))
    = addf (mulf (val_main_v14 (F := Ideal)) (val_main_v0 (F := Ideal) (a0 m c) (a1 m c))) (mulf (val_main_v16 (F := Ideal)) (val_main_v13 (F := Ideal) (a0 m c) (a1 m c) (a2 m c) (a3 m c) (a4 m c)))
  rw [v3_v0, v3_v12]
  exact blendCur_eq _ _
theorem v4_v13_1 (c : Dev nD) : W4 m c (Proc.devRef .tc main_v13_1) = val_main_v19 (F := Ideal) (a0 m c) (a1 m c) (a2 m c) (a3 m c) (a4 m c) := by
  refine (hF1 m c 4).symm.trans ((final1_4 (U3 m) c).trans ?_)
  show Cert.Spec.blendOut (W3 m c (Proc.devRef .tc main_v0)) (W3 m c (Proc.devRef .tc main_v0)) (W3 m c (Proc.devRef .tc main_v12))
    = addf (val_main_v0 (F := Ideal) (a0 m c) (a1 m c)) (addf (mulf (val_main_v14 (F := Ideal)) (val_main_v0 (F := Ideal) (a0 m c) (a1 m c))) (mulf (val_main_v16 (F := Ideal)) (val_main_v13 (F := Ideal) (a0 m c) (a1 m c) (a2 m c) (a3 m c) (a4 m c))))
  rw [v3_v0, v3_v12, blendOut_eq, blendCur_eq]

/-! ## The second layer -/

theorem v5_v20 (c : Dev nD) : W5 m c (Proc.devRef .tc main_v20) = val_main_v26 (F := Ideal) (a0 m c) (a1 m c) (a2 m c) (a3 m c) (a4 m c) := by
  show StableHlo.after hostOps2 (W4 m c) (Proc.devRef .tc main_v20) = _
  after_results
  rw [W4_arg3 m c, v4_v13_0 m c]
  rfl
theorem v5_v1 (c : Dev nD) (r : Fin 3200000) :
    (W5 m c (Proc.devRef .tc main_v1) : S3200000x1.Idx → Elt Ideal .f32) (ix2 r (0 : Fin 1)) = a4 m c (ix1 r) := by
  rw [(show W5 m c (Proc.devRef .tc main_v1) = W4 m c (Proc.devRef .tc main_v1) from StableHlo.after_of_writes_sub hostOps2 _ hostOps2_writes (by decide : main_v1 ∉ hostOps2_W)).trans ((show W4 m c (Proc.devRef .tc main_v1) = W3 m c (Proc.devRef .tc main_v1) from W4_of_ne m c main_v1 (by decide) (by decide)).trans ((show W3 m c (Proc.devRef .tc main_v1) = W2 m c (Proc.devRef .tc main_v1) from StableHlo.after_of_writes_sub hostOps1 _ hostOps1_writes (by decide : main_v1 ∉ hostOps1_W)).trans ((show W2 m c (Proc.devRef .tc main_v1) = W1 m c (Proc.devRef .tc main_v1) from (W2_arr m c 1).trans (((dat0 (U1 m) c).arrAt_in 1 rfl _).trans (A_eq0 (U1 m) c 1))))))]
  exact v1_v1 m c r
theorem v6_v21 (c : Dev nD) : W6 m c (Proc.devRef .tc main_v21) = val_main_v29 (F := Ideal) (a0 m c) (a1 m c) (a2 m c) (a3 m c) (a4 m c) := by
  refine (W6_arr m c 2).trans ((final2_2 (U5 m) c).trans ?_)
  show Cert.Spec.scaleRows (W5 m c (Proc.devRef .tc main_v20)) (W5 m c (Proc.devRef .tc main_v1)) = mulf (val_main_v26 (F := Ideal) (a0 m c) (a1 m c) (a2 m c) (a3 m c) (a4 m c)) (val_main_v28 (F := Ideal) (a4 m c))
  rw [v5_v20, v28_eq]
  exact scale_eq _ (a4 m c) _ (v5_v1 m c)
theorem v7_v24 (c : Dev nD) : W7 m c (Proc.devRef .tc main_v24) = val_main_v32 (F := Ideal) (a0 m c) (a1 m c) (a2 m c) (a3 m c) (a4 m c) := by
  show StableHlo.after hostOps3 (W6 m c) (Proc.devRef .tc main_v24) = _
  after_results
  rw [W6_arg2 m c, v6_v21 m c]
  rfl
theorem v7_v0 (c : Dev nD) : W7 m c (Proc.devRef .tc main_v0) = val_main_v0 (F := Ideal) (a0 m c) (a1 m c) :=
  ((show W7 m c (Proc.devRef .tc main_v0) = W6 m c (Proc.devRef .tc main_v0) from StableHlo.after_of_writes_sub hostOps3 _ hostOps3_writes (by decide : main_v0 ∉ hostOps3_W)).trans ((show W6 m c (Proc.devRef .tc main_v0) = W5 m c (Proc.devRef .tc main_v0) from W6_of_ne m c main_v0 (by decide)).trans ((show W5 m c (Proc.devRef .tc main_v0) = W4 m c (Proc.devRef .tc main_v0) from StableHlo.after_of_writes_sub hostOps2 _ hostOps2_writes (by decide : main_v0 ∉ hostOps2_W)).trans ((show W4 m c (Proc.devRef .tc main_v0) = W3 m c (Proc.devRef .tc main_v0) from W4_of_ne m c main_v0 (by decide) (by decide)))))).trans (v3_v0 m c)
theorem v7_v13_1 (c : Dev nD) : W7 m c (Proc.devRef .tc main_v13_1) = val_main_v19 (F := Ideal) (a0 m c) (a1 m c) (a2 m c) (a3 m c) (a4 m c) :=
  ((show W7 m c (Proc.devRef .tc main_v13_1) = W6 m c (Proc.devRef .tc main_v13_1) from StableHlo.after_of_writes_sub hostOps3 _ hostOps3_writes (by decide : main_v13_1 ∉ hostOps3_W)).trans ((show W6 m c (Proc.devRef .tc main_v13_1) = W5 m c (Proc.devRef .tc main_v13_1) from W6_of_ne m c main_v13_1 (by decide)).trans ((show W5 m c (Proc.devRef .tc main_v13_1) = W4 m c (Proc.devRef .tc main_v13_1) from StableHlo.after_of_writes_sub hostOps2 _ hostOps2_writes (by decide : main_v13_1 ∉ hostOps2_W))))).trans (v4_v13_1 m c)
theorem v8_v25_0 (c : Dev nD) : W8 m c (Proc.devRef .tc main_v25_0) = val_main_v37 (F := Ideal) (a0 m c) (a1 m c) (a2 m c) (a3 m c) (a4 m c) := by
  refine (W8_arr m c 3).trans ((final3_3 (U7 m) c).trans ?_)
  show Cert.Spec.blendCur (W7 m c (Proc.devRef .tc main_v0)) (W7 m c (Proc.devRef .tc main_v24))
    = addf (mulf (val_main_v33 (F := Ideal)) (val_main_v0 (F := Ideal) (a0 m c) (a1 m c))) (mulf (val_main_v35 (F := Ideal)) (val_main_v32 (F := Ideal) (a0 m c) (a1 m c) (a2 m c) (a3 m c) (a4 m c)))
  rw [v7_v0, v7_v24, v33_eq, v35_eq]
  exact blendCur_eq _ _
theorem v8_v25_1 (c : Dev nD) : W8 m c (Proc.devRef .tc main_v25_1) = val_main_v38 (F := Ideal) (a0 m c) (a1 m c) (a2 m c) (a3 m c) (a4 m c) := by
  refine (W8_arr m c 4).trans ((final3_4 (U7 m) c).trans ?_)
  show Cert.Spec.blendOut (W7 m c (Proc.devRef .tc main_v13_1)) (W7 m c (Proc.devRef .tc main_v0)) (W7 m c (Proc.devRef .tc main_v24))
    = addf (val_main_v19 (F := Ideal) (a0 m c) (a1 m c) (a2 m c) (a3 m c) (a4 m c)) (addf (mulf (val_main_v33 (F := Ideal)) (val_main_v0 (F := Ideal) (a0 m c) (a1 m c))) (mulf (val_main_v35 (F := Ideal)) (val_main_v32 (F := Ideal) (a0 m c) (a1 m c) (a2 m c) (a3 m c) (a4 m c))))
  rw [v7_v13_1, v7_v0, v7_v24, v33_eq, v35_eq, blendOut_eq, blendCur_eq]

/-! ## The third layer -/

theorem v9_v32 (c : Dev nD) : W9 m c (Proc.devRef .tc main_v32) = val_main_v45 (F := Ideal) (a0 m c) (a1 m c) (a2 m c) (a3 m c) (a4 m c) := by
  show StableHlo.after hostOps4 (W8 m c) (Proc.devRef .tc main_v32) = _
  after_results
  rw [W8_arg3 m c, v8_v25_0 m c]
  rfl
theorem v9_v1 (c : Dev nD) (r : Fin 3200000) :
    (W9 m c (Proc.devRef .tc main_v1) : S3200000x1.Idx → Elt Ideal .f32) (ix2 r (0 : Fin 1)) = a4 m c (ix1 r) := by
  rw [(show W9 m c (Proc.devRef .tc main_v1) = W8 m c (Proc.devRef .tc main_v1) from StableHlo.after_of_writes_sub hostOps4 _ hostOps4_writes (by decide : main_v1 ∉ hostOps4_W)).trans ((show W8 m c (Proc.devRef .tc main_v1) = W7 m c (Proc.devRef .tc main_v1) from W8_of_ne m c main_v1 (by decide)).trans ((show W7 m c (Proc.devRef .tc main_v1) = W6 m c (Proc.devRef .tc main_v1) from StableHlo.after_of_writes_sub hostOps3 _ hostOps3_writes (by decide : main_v1 ∉ hostOps3_W)).trans ((show W6 m c (Proc.devRef .tc main_v1) = W5 m c (Proc.devRef .tc main_v1) from (W6_arr m c 1).trans (((dat2 (U5 m) c).arrAt_in 1 rfl _).trans (A_eq2 (U5 m) c 1))))))]
  exact v5_v1 m c r
theorem v10_v33 (c : Dev nD) : W10 m c (Proc.devRef .tc main_v33) = val_main_v48 (F := Ideal) (a0 m c) (a1 m c) (a2 m c) (a3 m c) (a4 m c) := by
  refine (W10_arr m c 2).trans ((final4_2 (U9 m) c).trans ?_)
  show Cert.Spec.scaleRows (W9 m c (Proc.devRef .tc main_v32)) (W9 m c (Proc.devRef .tc main_v1)) = mulf (val_main_v45 (F := Ideal) (a0 m c) (a1 m c) (a2 m c) (a3 m c) (a4 m c)) (val_main_v47 (F := Ideal) (a4 m c))
  rw [v9_v32, v47_eq]
  exact scale_eq _ (a4 m c) _ (v9_v1 m c)
theorem v11_v36 (c : Dev nD) : W11 m c (Proc.devRef .tc main_v36) = val_main_v51 (F := Ideal) (a0 m c) (a1 m c) (a2 m c) (a3 m c) (a4 m c) := by
  show StableHlo.after hostOps5 (W10 m c) (Proc.devRef .tc main_v36) = _
  after_results
  rw [W10_arg2 m c, v10_v33 m c]
  rfl
theorem v11_v0 (c : Dev nD) : W11 m c (Proc.devRef .tc main_v0) = val_main_v0 (F := Ideal) (a0 m c) (a1 m c) :=
  ((show W11 m c (Proc.devRef .tc main_v0) = W10 m c (Proc.devRef .tc main_v0) from StableHlo.after_of_writes_sub hostOps5 _ hostOps5_writes (by decide : main_v0 ∉ hostOps5_W)).trans ((show W10 m c (Proc.devRef .tc main_v0) = W9 m c (Proc.devRef .tc main_v0) from W10_of_ne m c main_v0 (by decide)).trans ((show W9 m c (Proc.devRef .tc main_v0) = W8 m c (Proc.devRef .tc main_v0) from StableHlo.after_of_writes_sub hostOps4 _ hostOps4_writes (by decide : main_v0 ∉ hostOps4_W)).trans ((show W8 m c (Proc.devRef .tc main_v0) = W7 m c (Proc.devRef .tc main_v0) from (W8_arr m c 0).trans (((dat3 (U7 m) c).arrAt_in 0 rfl _).trans (A_eq3 (U7 m) c 0))))))).trans (v7_v0 m c)
theorem v11_v25_1 (c : Dev nD) : W11 m c (Proc.devRef .tc main_v25_1) = val_main_v38 (F := Ideal) (a0 m c) (a1 m c) (a2 m c) (a3 m c) (a4 m c) :=
  ((show W11 m c (Proc.devRef .tc main_v25_1) = W10 m c (Proc.devRef .tc main_v25_1) from StableHlo.after_of_writes_sub hostOps5 _ hostOps5_writes (by decide : main_v25_1 ∉ hostOps5_W)).trans ((show W10 m c (Proc.devRef .tc main_v25_1) = W9 m c (Proc.devRef .tc main_v25_1) from W10_of_ne m c main_v25_1 (by decide)).trans ((show W9 m c (Proc.devRef .tc main_v25_1) = W8 m c (Proc.devRef .tc main_v25_1) from StableHlo.after_of_writes_sub hostOps4 _ hostOps4_writes (by decide : main_v25_1 ∉ hostOps4_W))))).trans (v8_v25_1 m c)
theorem v12_v37_1 (c : Dev nD) : W12 m c (Proc.devRef .tc main_v37_1) = val_main_v57 (F := Ideal) (a0 m c) (a1 m c) (a2 m c) (a3 m c) (a4 m c) := by
  refine (W12_arr m c 4).trans ((final5_4 (U11 m) c).trans ?_)
  show Cert.Spec.blendOut (W11 m c (Proc.devRef .tc main_v25_1)) (W11 m c (Proc.devRef .tc main_v0)) (W11 m c (Proc.devRef .tc main_v36))
    = addf (val_main_v38 (F := Ideal) (a0 m c) (a1 m c) (a2 m c) (a3 m c) (a4 m c)) (addf (mulf (val_main_v52 (F := Ideal)) (val_main_v0 (F := Ideal) (a0 m c) (a1 m c))) (mulf (val_main_v54 (F := Ideal)) (val_main_v51 (F := Ideal) (a0 m c) (a1 m c) (a2 m c) (a3 m c) (a4 m c))))
  rw [v11_v25_1, v11_v0, v11_v36, v52_eq, v54_eq, blendOut_eq, blendCur_eq]

end Cert.KernelIdeal.Frame

end
-- ==== Proof.IdealScores.lean ====
/-
  The scores. After the third layer the running sum is divided by four, split into its user and item
  halves, and gathered at the query pairs: the same host operations as the reference's, applied to
  an equal running sum. The scoring call leaves the column of row dot products, and the last host
  line reshapes that column to the flat result: the reference's sum of the products over the
  feature axis.
-/
import proofs.«166718_j26491358281938_2_alg».proof.Proof.IdealValue

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo Idealize.ShloMosaic.ValueIdx
open Cert.ReferenceIdeal.Read Cert.ReferenceIdeal.RefValue
variable {F : FTy → Type} [FloatOps F]

local notation "𝕄" => MT nD τ sig Unit (Elt F) ℕ (UR sig nD τ) ℕ

variable (m : (ℓ : Loc nD τ sig) → Buf (Elt Ideal) ℓ)

/-! ## The scores -/

set_option maxHeartbeats 4000000 in
theorem v13_v48 (c : Dev nD) : W13 m c (Proc.devRef .tc main_v48) = val_main_v68 (F := Ideal) (a0 m c) (a1 m c) (a2 m c) (a3 m c) (a4 m c) (a5 m c) := by
  show StableHlo.after hostOps6 (W12 m c) (Proc.devRef .tc main_v48) = _
  after_results
  rw [W12_arg5 m c, v12_v37_1 m c]
  rfl
set_option maxHeartbeats 4000000 in
theorem v13_v55 (c : Dev nD) : W13 m c (Proc.devRef .tc main_v55) = val_main_v75 (F := Ideal) (a0 m c) (a1 m c) (a2 m c) (a3 m c) (a4 m c) (a6 m c) := by
  show StableHlo.after hostOps6 (W12 m c) (Proc.devRef .tc main_v55) = _
  after_results
  rw [W12_arg6 m c, v12_v37_1 m c]
  rfl
theorem v14_v56 (c : Dev nD) : W14 m c (Proc.devRef .tc main_v56)
    = Cert.Spec.rowDot (val_main_v68 (F := Ideal) (a0 m c) (a1 m c) (a2 m c) (a3 m c) (a4 m c) (a5 m c)) (val_main_v75 (F := Ideal) (a0 m c) (a1 m c) (a2 m c) (a3 m c) (a4 m c) (a6 m c)) := by
  refine (W14_arr m c 2).trans ((final6_2 (U13 m) c).trans ?_)
  show Cert.Spec.rowDot (W13 m c (Proc.devRef .tc main_v48)) (W13 m c (Proc.devRef .tc main_v55)) = _
  rw [v13_v48, v13_v55]

/-- THE RESULT: what the program leaves in its result array is the reference's last stage of the arguments. -/
theorem result_eq (c : Dev nD) : W15 m c (Proc.devRef .tc main_v57) = val_main_v77 (F := Ideal) (a0 m c) (a1 m c) (a2 m c) (a3 m c) (a4 m c) (a5 m c) (a6 m c) := by
  show StableHlo.after hostOps7 (W14 m c) (Proc.devRef .tc main_v57) = _
  after_results
  refine dot_eq _ _ _ _ _ _ _ _ fun r => ?_
  rw [← v14_v56 m c]
  exact Cert.Spec.flat_of_column _ _ r

end Cert.KernelIdeal.Frame

end
-- ==== Proof.lean ====
/-
  LightGCN-style propagation and scoring: the kernel's program against its reference, over the
  extended reals. Both programs compute, for three layers, the table gathered along the edges'
  sources, scaled by the edge weights and summed into the edges' targets, blended with the base
  table (a fifth of the base plus four fifths of the propagated table) and added to a running sum;
  then a quarter of the running sum, split into its user and item halves, gathered at the query
  pairs, and the dot product of each pair of rows. The kernel's program does the scaling, the
  blending and the dot products in seven kernel calls over row blocks and everything else by the
  same host operations as the reference. Operation by operation the two are the same function of
  the seven arguments: no law of the extended reals joins them beyond `0 + x = x`, so the
  precondition (every float input finite) is never opened.
  * The frames: each program ends on every fair execution, nothing faults, the arguments stay. For
    the two kernel programs this is the run of the fifteen segments (eight host stretches, seven
    calls), once at the word level and once over the extended reals; the first blend reads the base
    table through two windows and holds it as two half shares. For the reference it is its run.
  * `preserves`: the idealization rewrote nothing.
  * `algebraic`: the kernel's result array ends at the reference's last stage of the arguments
    (the value chain, boundary by boundary), and the reference's at the same stage.
-/
import proofs.«166718_j26491358281938_2_alg».proof.Defs
import proofs.«166718_j26491358281938_2_alg».proof.Proof.Gen.Kernel
import proofs.«166718_j26491358281938_2_alg».proof.Proof.Gen.KernelIdeal
import proofs.«166718_j26491358281938_2_alg».proof.Proof.Gen.ReferenceIdeal
import proofs.«166718_j26491358281938_2_alg».proof.Proof.Gen.Pre_finite_inputs
import proofs.«166718_j26491358281938_2_alg».proof.Proof.Gen.ReferenceIdeal.Run
import proofs.«166718_j26491358281938_2_alg».proof.Proof.Gen.ReferenceIdeal.Read
import proofs.«166718_j26491358281938_2_alg».proof.Proof.BitsFrame
import proofs.«166718_j26491358281938_2_alg».proof.Proof.IdealFrame
import proofs.«166718_j26491358281938_2_alg».proof.Proof.IdealValue
import proofs.«166718_j26491358281938_2_alg».proof.Proof.IdealScores
import Idealize.ShloMosaic.Adequacy
import Idealize.ShloMosaic.Init

noncomputable section

namespace Cert.Proof

open Idealize.ShloMosaic Idealize.ShloMosaic.TcCoe Idealize.SL.Sem

namespace LayerClaims

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the scores at the reference's last stage of the (agreeing) arguments. -/
theorem algebraic : Cert.algebraic_KernelIdeal_ReferenceIdeal := by
  intro m ρ m' ρ' _ hagree
  refine ⟨fun c => Cert.KernelIdeal.Frame.W15 (F := Ideal) m c (Proc.devRef .tc Cert.KernelIdeal.main_v57),
    Cert.KernelIdeal.Frame.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2]
  exact (Cert.KernelIdeal.Frame.result_eq m c).symm

end LayerClaims

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
